-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25)) (m ((c.tc : Thread Cert.Kernel.nD Cert.Kernel.τ).loc Cert.Kernel.main_arg26)) (m ((c.tc : Thread Cert.Kernel.nD Cert.Kernel.τ).loc Cert.Kernel.main_arg27))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26)
      ∧ r.2.mem ((c.tc : Thread Cert.Kernel.nD Cert.Kernel.τ).loc Cert.Kernel.main_arg27) = m ((c.tc : Thread Cert.Kernel.nD Cert.Kernel.τ).loc Cert.Kernel.main_arg27))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
      ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26)
      ∧ r.2.mem ((c.tc : Thread Cert.ReferenceIdeal.nD Cert.ReferenceIdeal.τ).loc Cert.ReferenceIdeal.main_arg27) = m ((c.tc : Thread Cert.ReferenceIdeal.nD Cert.ReferenceIdeal.τ).loc Cert.ReferenceIdeal.main_arg27))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)
      ∧ m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)) →
    ∃ (v0 : (c : Dev Cert.KernelIdeal.nD) → Buf (Elt Ideal) ((c.tc : Thread Cert.KernelIdeal.nD Cert.KernelIdeal.τ).loc Cert.KernelIdeal.main_v142)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v142) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
          ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v204) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26)
          ∧ r.2.mem ((c.tc : Thread Cert.ReferenceIdeal.nD Cert.ReferenceIdeal.τ).loc Cert.ReferenceIdeal.main_arg27) = m' ((c.tc : Thread Cert.ReferenceIdeal.nD Cert.ReferenceIdeal.τ).loc Cert.ReferenceIdeal.main_arg27))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S64x32 : Shape := ⟨2, ![64, 32]⟩
abbrev S32 : Shape := ⟨1, ![32]⟩
abbrev S32x16 : Shape := ⟨2, ![32, 16]⟩
abbrev S16 : Shape := ⟨1, ![16]⟩
abbrev S16x2 : Shape := ⟨2, ![16, 2]⟩
abbrev S2 : Shape := ⟨1, ![2]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_
  bcast_S_S32x16 : S_.BroadcastsInDim S32x16 (![] : Fin 0 → Fin S32x16.rank)
  reducesTo_S32x16_S_d0_1 : S32x16.ReducesTo [0, 1] S_
  bcast_S_S16 : S_.BroadcastsInDim S16 (![] : Fin 0 → Fin S16.rank)
  reducesTo_S16_S_d0 : S16.ReducesTo [0] S_
  bcast_S_S16x2 : S_.BroadcastsInDim S16x2 (![] : Fin 0 → Fin S16x2.rank)
  reducesTo_S16x2_S_d0_1 : S16x2.ReducesTo [0, 1] S_
  bcast_S_S2 : S_.BroadcastsInDim S2 (![] : Fin 0 → Fin S2.rank)
  reducesTo_S2_S_d0 : S2.ReducesTo [0] S_

variable [Facts]

def fn_part7 {F : FTy → Type} [FloatOps F] (main_arg26 : FVec F S16x2 .f32) (main_arg27 : FVec F S2 .f32) (main_v118 : IVec S_ 1) (main_v119 : FVec F S16 .f32) : IVec S_ 1 :=
  let main_cst_46 : FVec F S_ .f32 := constant S_ .f32 0x7F800000#32
  let main_v120 : FVec F S16 .f32 := broadcastInDim S16 ![] bcast_S_S16 main_cst_46
  let main_v121 : IVec S16 1 := cmpf .olt main_v119 main_v120
  let main_c_47 : IVec S_ 1 := constantI S_ 1 1#1
  let main_v122 : IVec S_ 1 := (fun x v => Host.reduce IntOp.andi x v reducesTo_S16_S_d0 h_S_) main_v121 main_c_47
  let main_v123 : IVec S_ 1 := andi main_v118 main_v122
  let main_v124 : FVec F S16x2 .f32 := Host.absf main_arg26
  let main_cst_48 : FVec F S_ .f32 := constant S_ .f32 0x7F800000#32
  let main_v125 : FVec F S16x2 .f32 := broadcastInDim S16x2 ![] bcast_S_S16x2 main_cst_48
  let main_v126 : IVec S16x2 1 := cmpf .olt main_v124 main_v125
  let main_c_49 : IVec S_ 1 := constantI S_ 1 1#1
  let main_v127 : IVec S_ 1 := (fun x v => Host.reduce IntOp.andi x v reducesTo_S16x2_S_d0_1 h_S_) main_v126 main_c_49
  let main_v128 : IVec S_ 1 := andi main_v123 main_v127
  let main_v129 : FVec F S2 .f32 := Host.absf main_arg27
  let main_cst_50 : FVec F S_ .f32 := constant S_ .f32 0x7F800000#32
  let main_v130 : FVec F S2 .f32 := broadcastInDim S2 ![] bcast_S_S2 main_cst_50
  let main_v131 : IVec S2 1 := cmpf .olt main_v129 main_v130
  let main_c_51 : IVec S_ 1 := constantI S_ 1 1#1
  let main_v132 : IVec S_ 1 := (fun x v => Host.reduce IntOp.andi x v reducesTo_S2_S_d0 h_S_) main_v131 main_c_51
  let main_v133 : IVec S_ 1 := andi main_v128 main_v132
  main_v133

def fn_part6 {F : FTy → Type} [FloatOps F] (main_arg22 : FVec F S64x32 .f32) (main_arg23 : FVec F S32 .f32) (main_arg24 : FVec F S32x16 .f32) (main_arg25 : FVec F S16 .f32) (main_arg26 : FVec F S16x2 .f32) (main_arg27 : FVec F S2 .f32) (main_v98 : IVec S_ 1) (main_v101 : IVec S32 1) (main_c_39 : IVec S_ 1) : IVec S_ 1 :=
  let main_v102 : IVec S_ 1 := (fun x v => Host.reduce IntOp.andi x v reducesTo_S32_S_d0 h_S_) main_v101 main_c_39
  let main_v103 : IVec S_ 1 := andi main_v98 main_v102
  let main_v104 : FVec F S64x32 .f32 := Host.absf main_arg22
  let main_cst_40 : FVec F S_ .f32 := constant S_ .f32 0x7F800000#32
  let main_v105 : FVec F S64x32 .f32 := broadcastInDim S64x32 ![] bcast_S_S64x32 main_cst_40
  let main_v106 : IVec S64x32 1 := cmpf .olt main_v104 main_v105
  let main_c_41 : IVec S_ 1 := constantI S_ 1 1#1
  let main_v107 : IVec S_ 1 := (fun x v => Host.reduce IntOp.andi x v reducesTo_S64x32_S_d0_1 h_S_) main_v106 main_c_41
  let main_v108 : IVec S_ 1 := andi main_v103 main_v107
  let main_v109 : FVec F S32 .f32 := Host.absf main_arg23
  let main_cst_42 : FVec F S_ .f32 := constant S_ .f32 0x7F800000#32
  let main_v110 : FVec F S32 .f32 := broadcastInDim S32 ![] bcast_S_S32 main_cst_42
  let main_v111 : IVec S32 1 := cmpf .olt main_v109 main_v110
  let main_c_43 : IVec S_ 1 := constantI S_ 1 1#1
  let main_v112 : IVec S_ 1 := (fun x v => Host.reduce IntOp.andi x v reducesTo_S32_S_d0 h_S_) main_v111 main_c_43
  let main_v113 : IVec S_ 1 := andi main_v108 main_v112
  let main_v114 : FVec F S32x16 .f32 := Host.absf main_arg24
  let main_cst_44 : FVec F S_ .f32 := constant S_ .f32 0x7F800000#32
  let main_v115 : FVec F S32x16 .f32 := broadcastInDim S32x16 ![] bcast_S_S32x16 main_cst_44
  let main_v116 : IVec S32x16 1 := cmpf .olt main_v114 main_v115
  let main_c_45 : IVec S_ 1 := constantI S_ 1 1#1
  let main_v117 : IVec S_ 1 := (fun x v => Host.reduce IntOp.andi x v reducesTo_S32x16_S_d0_1 h_S_) main_v116 main_c_45
  let main_v118 : IVec S_ 1 := andi main_v113 main_v117
  let main_v119 : FVec F S16 .f32 := Host.absf main_arg25
  fn_part7 (F := F) main_arg26 main_arg27 main_v118 main_v119

def fn_part5 {F : FTy → Type} [FloatOps F] (main_arg19 : FVec F S32 .f32) (main_arg20 : FVec F S32 .f32) (main_arg21 : FVec F S32 .f32) (main_arg22 : FVec F S64x32 .f32) (main_arg23 : FVec F S32 .f32) (main_arg24 : FVec F S32x16 .f32) (main_arg25 : FVec F S16 .f32) (main_arg26 : FVec F S16x2 .f32) (main_arg27 : FVec F S2 .f32) (main_v83 : IVec S_ 1) (main_v84 : FVec F S32 .f32) (main_cst_32 : FVec F S_ .f32) : IVec S_ 1 :=
  let main_v85 : FVec F S32 .f32 := broadcastInDim S32 ![] bcast_S_S32 main_cst_32
  let main_v86 : IVec S32 1 := cmpf .olt main_v84 main_v85
  let main_c_33 : IVec S_ 1 := constantI S_ 1 1#1
  let main_v87 : IVec S_ 1 := (fun x v => Host.reduce IntOp.andi x v reducesTo_S32_S_d0 h_S_) main_v86 main_c_33
  let main_v88 : IVec S_ 1 := andi main_v83 main_v87
  let main_v89 : FVec F S32 .f32 := Host.absf main_arg19
  let main_cst_34 : FVec F S_ .f32 := constant S_ .f32 0x7F800000#32
  let main_v90 : FVec F S32 .f32 := broadcastInDim S32 ![] bcast_S_S32 main_cst_34
  let main_v91 : IVec S32 1 := cmpf .olt main_v89 main_v90
  let main_c_35 : IVec S_ 1 := constantI S_ 1 1#1
  let main_v92 : IVec S_ 1 := (fun x v => Host.reduce IntOp.andi x v reducesTo_S32_S_d0 h_S_) main_v91 main_c_35
  let main_v93 : IVec S_ 1 := andi main_v88 main_v92
  let main_v94 : FVec F S32 .f32 := Host.absf main_arg20
  let main_cst_36 : FVec F S_ .f32 := constant S_ .f32 0x7F800000#32
  let main_v95 : FVec F S32 .f32 := broadcastInDim S32 ![] bcast_S_S32 main_cst_36
  let main_v96 : IVec S32 1 := cmpf .olt main_v94 main_v95
  let main_c_37 : IVec S_ 1 := constantI S_ 1 1#1
  let main_v97 : IVec S_ 1 := (fun x v => Host.reduce IntOp.andi x v reducesTo_S32_S_d0 h_S_) main_v96 main_c_37
  let main_v98 : IVec S_ 1 := andi main_v93 main_v97
  let main_v99 : FVec F S32 .f32 := Host.absf main_arg21
  let main_cst_38 : FVec F S_ .f32 := constant S_ .f32 0x7F800000#32
  let main_v100 : FVec F S32 .f32 := broadcastInDim S32 ![] bcast_S_S32 main_cst_38
  let main_v101 : IVec S32 1 := cmpf .olt main_v99 main_v100
  let main_c_39 : IVec S_ 1 := constantI S_ 1 1#1
  fn_part6 (F := F) main_arg22 main_arg23 main_arg24 main_arg25 main_arg26 main_arg27 main_v98 main_v101 main_c_39

def fn_part4 {F : FTy → Type} [FloatOps F] (main_arg15 : FVec F S64 .f32) (main_arg16 : FVec F S64x32 .f32) (main_arg17 : FVec F S32 .f32) (main_arg18 : FVec F S32 .f32) (main_arg19 : FVec F S32 .f32) (main_arg20 : FVec F S32 .f32) (main_arg21 : FVec F S32 .f32) (main_arg22 : FVec F S64x32 .f32) (main_arg23 : FVec F S32 .f32) (main_arg24 : FVec F S32x16 .f32) (main_arg25 : FVec F S16 .f32) (main_arg26 : FVec F S16x2 .f32) (main_arg27 : FVec F S2 .f32) (main_v63 : IVec S_ 1) (main_v67 : IVec S_ 1) : IVec S_ 1 :=
  let main_v68 : IVec S_ 1 := andi main_v63 main_v67
  let main_v69 : FVec F S64 .f32 := Host.absf main_arg15
  let main_cst_26 : FVec F S_ .f32 := constant S_ .f32 0x7F800000#32
  let main_v70 : FVec F S64 .f32 := broadcastInDim S64 ![] bcast_S_S64 main_cst_26
  let main_v71 : IVec S64 1 := cmpf .olt main_v69 main_v70
  let main_c_27 : IVec S_ 1 := constantI S_ 1 1#1
  let main_v72 : IVec S_ 1 := (fun x v => Host.reduce IntOp.andi x v reducesTo_S64_S_d0 h_S_) main_v71 main_c_27
  let main_v73 : IVec S_ 1 := andi main_v68 main_v72
  let main_v74 : FVec F S64x32 .f32 := Host.absf main_arg16
  let main_cst_28 : FVec F S_ .f32 := constant S_ .f32 0x7F800000#32
  let main_v75 : FVec F S64x32 .f32 := broadcastInDim S64x32 ![] bcast_S_S64x32 main_cst_28
  let main_v76 : IVec S64x32 1 := cmpf .olt main_v74 main_v75
  let main_c_29 : IVec S_ 1 := constantI S_ 1 1#1
  let main_v77 : IVec S_ 1 := (fun x v => Host.reduce IntOp.andi x v reducesTo_S64x32_S_d0_1 h_S_) main_v76 main_c_29
  let main_v78 : IVec S_ 1 := andi main_v73 main_v77
  let main_v79 : FVec F S32 .f32 := Host.absf main_arg17
  let main_cst_30 : FVec F S_ .f32 := constant S_ .f32 0x7F800000#32
  let main_v80 : FVec F S32 .f32 := broadcastInDim S32 ![] bcast_S_S32 main_cst_30
  let main_v81 : IVec S32 1 := cmpf .olt main_v79 main_v80
  let main_c_31 : IVec S_ 1 := constantI S_ 1 1#1
  let main_v82 : IVec S_ 1 := (fun x v => Host.reduce IntOp.andi x v reducesTo_S32_S_d0 h_S_) main_v81 main_c_31
  let main_v83 : IVec S_ 1 := andi main_v78 main_v82
  let main_v84 : FVec F S32 .f32 := Host.absf main_arg18
  let main_cst_32 : FVec F S_ .f32 := constant S_ .f32 0x7F800000#32
  fn_part5 (F := F) main_arg19 main_arg20 main_arg21 main_arg22 main_arg23 main_arg24 main_arg25 main_arg26 main_arg27 main_v83 main_v84 main_cst_32

def fn_part3 {F : FTy → Type} [FloatOps F] (main_arg12 : FVec F S64 .f32) (main_arg13 : FVec F S64 .f32) (main_arg14 : FVec F S128x64 .f32) (main_arg15 : FVec F S64 .f32) (main_arg16 : FVec F S64x32 .f32) (main_arg17 : FVec F S32 .f32) (main_arg18 : FVec F S32 .f32) (main_arg19 : FVec F S32 .f32) (main_arg20 : FVec F S32 .f32) (main_arg21 : FVec F S32 .f32) (main_arg22 : FVec F S64x32 .f32) (main_arg23 : FVec F S32 .f32) (main_arg24 : FVec F S32x16 .f32) (main_arg25 : FVec F S16 .f32) (main_arg26 : FVec F S16x2 .f32) (main_arg27 : FVec F S2 .f32) (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  let main_v54 : FVec F S64 .f32 := Host.absf main_arg12
  let main_cst_20 : FVec F S_ .f32 := constant S_ .f32 0x7F800000#32
  let main_v55 : FVec F S64 .f32 := broadcastInDim S64 ![] bcast_S_S64 main_cst_20
  let main_v56 : IVec S64 1 := cmpf .olt main_v54 main_v55
  let main_c_21 : IVec S_ 1 := constantI S_ 1 1#1
  let main_v57 : IVec S_ 1 := (fun x v => Host.reduce IntOp.andi x v reducesTo_S64_S_d0 h_S_) main_v56 main_c_21
  let main_v58 : IVec S_ 1 := andi main_v53 main_v57
  let main_v59 : FVec F S64 .f32 := Host.absf main_arg13
  let main_cst_22 : FVec F S_ .f32 := constant S_ .f32 0x7F800000#32
  let main_v60 : FVec F S64 .f32 := broadcastInDim S64 ![] bcast_S_S64 main_cst_22
  let main_v61 : IVec S64 1 := cmpf .olt main_v59 main_v60
  let main_c_23 : IVec S_ 1 := constantI S_ 1 1#1
  let main_v62 : IVec S_ 1 := (fun x v => Host.reduce IntOp.andi x v reducesTo_S64_S_d0 h_S_) main_v61 main_c_23
  let main_v63 : IVec S_ 1 := andi main_v58 main_v62
  let main_v64 : FVec F S128x64 .f32 := Host.absf main_arg14
  let main_cst_24 : FVec F S_ .f32 := constant S_ .f32 0x7F800000#32
  let main_v65 : FVec F S128x64 .f32 := broadcastInDim S128x64 ![] bcast_S_S128x64 main_cst_24
  let main_v66 : IVec S128x64 1 := cmpf .olt main_v64 main_v65
  let main_c_25 : IVec S_ 1 := constantI S_ 1 1#1
  let main_v67 : IVec S_ 1 := (fun x v => Host.reduce IntOp.andi x v reducesTo_S128x64_S_d0_1 h_S_) main_v66 main_c_25
  fn_part4 (F := F) main_arg15 main_arg16 main_arg17 main_arg18 main_arg19 main_arg20 main_arg21 main_arg22 main_arg23 main_arg24 main_arg25 main_arg26 main_arg27 main_v63 main_v67

def fn_part2 {F : FTy → Type} [FloatOps F] (main_arg8 : FVec F S128x64 .f32) (main_arg9 : FVec F S64 .f32) (main_arg10 : FVec F S64 .f32) (main_arg11 : FVec F S64 .f32) (main_arg12 : FVec F S64 .f32) (main_arg13 : FVec F S64 .f32) (main_arg14 : FVec F S128x64 .f32) (main_arg15 : FVec F S64 .f32) (main_arg16 : FVec F S64x32 .f32) (main_arg17 : FVec F S32 .f32) (main_arg18 : FVec F S32 .f32) (main_arg19 : FVec F S32 .f32) (main_arg20 : FVec F S32 .f32) (main_arg21 : FVec F S32 .f32) (main_arg22 : FVec F S64x32 .f32) (main_arg23 : FVec F S32 .f32) (main_arg24 : FVec F S32x16 .f32) (main_arg25 : FVec F S16 .f32) (main_arg26 : FVec F S16x2 .f32) (main_arg27 : FVec F S2 .f32) (main_v33 : IVec S_ 1) : IVec S_ 1 :=
  let main_v34 : FVec F S128x64 .f32 := Host.absf main_arg8
  let main_cst_12 : FVec F S_ .f32 := constant S_ .f32 0x7F800000#32
  let main_v35 : FVec F S128x64 .f32 := broadcastInDim S128x64 ![] bcast_S_S128x64 main_cst_12
  let main_v36 : IVec S128x64 1 := cmpf .olt main_v34 main_v35
  let main_c_13 : IVec S_ 1 := constantI S_ 1 1#1
  let main_v37 : IVec S_ 1 := (fun x v => Host.reduce IntOp.andi x v reducesTo_S128x64_S_d0_1 h_S_) main_v36 main_c_13
  let main_v38 : IVec S_ 1 := andi main_v33 main_v37
  let main_v39 : FVec F S64 .f32 := Host.absf main_arg9
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64 .f32 := Host.absf main_arg10
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S64 .f32 := Host.absf main_arg11
  let main_cst_18 : FVec F S_ .f32 := constant S_ .f32 0x7F800000#32
  let main_v50 : FVec F S64 .f32 := broadcastInDim S64 ![] bcast_S_S64 main_cst_18
  fn_part3 (F := F) main_arg12 main_arg13 main_arg14 main_arg15 main_arg16 main_arg17 main_arg18 main_arg19 main_arg20 main_arg21 main_arg22 main_arg23 main_arg24 main_arg25 main_arg26 main_arg27 main_v48 main_v49 main_v50

def fn_part1 {F : FTy → Type} [FloatOps F] (main_arg5 : FVec F S128 .f32) (main_arg6 : FVec F S128 .f32) (main_arg7 : FVec F S128 .f32) (main_arg8 : FVec F S128x64 .f32) (main_arg9 : FVec F S64 .f32) (main_arg10 : FVec F S64 .f32) (main_arg11 : FVec F S64 .f32) (main_arg12 : FVec F S64 .f32) (main_arg13 : FVec F S64 .f32) (main_arg14 : FVec F S128x64 .f32) (main_arg15 : FVec F S64 .f32) (main_arg16 : FVec F S64x32 .f32) (main_arg17 : FVec F S32 .f32) (main_arg18 : FVec F S32 .f32) (main_arg19 : FVec F S32 .f32) (main_arg20 : FVec F S32 .f32) (main_arg21 : FVec F S32 .f32) (main_arg22 : FVec F S64x32 .f32) (main_arg23 : FVec F S32 .f32) (main_arg24 : FVec F S32x16 .f32) (main_arg25 : FVec F S16 .f32) (main_arg26 : FVec F S16x2 .f32) (main_arg27 : FVec F S2 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_arg10 main_arg11 main_arg12 main_arg13 main_arg14 main_arg15 main_arg16 main_arg17 main_arg18 main_arg19 main_arg20 main_arg21 main_arg22 main_arg23 main_arg24 main_arg25 main_arg26 main_arg27 main_v33

def fn {F : FTy → Type} [FloatOps F] (main_arg0 : FVec F S50000x128 .f32) (main_arg1 : IVec S2x800000 32) (main_arg2 : FVec F S128x128 .f32) (main_arg3 : FVec F S128 .f32) (main_arg4 : FVec F S128 .f32) (main_arg5 : FVec F S128 .f32) (main_arg6 : FVec F S128 .f32) (main_arg7 : FVec F S128 .f32) (main_arg8 : FVec F S128x64 .f32) (main_arg9 : FVec F S64 .f32) (main_arg10 : FVec F S64 .f32) (main_arg11 : FVec F S64 .f32) (main_arg12 : FVec F S64 .f32) (main_arg13 : FVec F S64 .f32) (main_arg14 : FVec F S128x64 .f32) (main_arg15 : FVec F S64 .f32) (main_arg16 : FVec F S64x32 .f32) (main_arg17 : FVec F S32 .f32) (main_arg18 : FVec F S32 .f32) (main_arg19 : FVec F S32 .f32) (main_arg20 : FVec F S32 .f32) (main_arg21 : FVec F S32 .f32) (main_arg22 : FVec F S64x32 .f32) (main_arg23 : FVec F S32 .f32) (main_arg24 : FVec F S32x16 .f32) (main_arg25 : FVec F S16 .f32) (main_arg26 : FVec F S16x2 .f32) (main_arg27 : FVec F S2 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_arg9 main_arg10 main_arg11 main_arg12 main_arg13 main_arg14 main_arg15 main_arg16 main_arg17 main_arg18 main_arg19 main_arg20 main_arg21 main_arg22 main_arg23 main_arg24 main_arg25 main_arg26 main_arg27 main_v13 main_v16
-- ==== Kernel.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S64x32 : Shape := ⟨2, ![64, 32]⟩
abbrev S32 : Shape := ⟨1, ![32]⟩
abbrev S32x16 : Shape := ⟨2, ![32, 16]⟩
abbrev S16 : Shape := ⟨1, ![16]⟩
abbrev S16x2 : Shape := ⟨2, ![16, 2]⟩
abbrev S2 : Shape := ⟨1, ![2]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S5000x128 : Shape := ⟨2, ![5000, 128]⟩
abbrev S800000x128 : Shape := ⟨2, ![800000, 128]⟩
abbrev S50000x1 : Shape := ⟨2, ![50000, 1]⟩
abbrev S1x128 : Shape := ⟨2, ![1, 128]⟩
abbrev S50000x64 : Shape := ⟨2, ![50000, 64]⟩
abbrev S5000x64 : Shape := ⟨2, ![5000, 64]⟩
abbrev S800000x64 : Shape := ⟨2, ![800000, 64]⟩
abbrev S1x64 : Shape := ⟨2, ![1, 64]⟩
abbrev S50000x32 : Shape := ⟨2, ![50000, 32]⟩
abbrev S5000x32 : Shape := ⟨2, ![5000, 32]⟩
abbrev S800000x32 : Shape := ⟨2, ![800000, 32]⟩
abbrev S1x32 : Shape := ⟨2, ![1, 32]⟩
abbrev S50000x16 : Shape := ⟨2, ![50000, 16]⟩
abbrev S1x16 : Shape := ⟨2, ![1, 16]⟩
abbrev S50000x2 : Shape := ⟨2, ![50000, 2]⟩
abbrev S1x2 : Shape := ⟨2, ![1, 2]⟩

abbrev nBuf : Space → Nat
  | .hbm => 211
  | .vmem => 52
  | .smem => 0
  | _ => 0

abbrev hbmTy0_0 (i : Nat) : BufTy := match i % 128 with
  | 0 => ⟨S50000x128, .f32⟩
  | 1 => ⟨S2x800000, .i32⟩
  | 2 => ⟨S128x128, .f32⟩
  | 3 => ⟨S128, .f32⟩
  | 4 => ⟨S128, .f32⟩
  | 5 => ⟨S128, .f32⟩
  | 6 => ⟨S128, .f32⟩
  | 7 => ⟨S128, .f32⟩
  | 8 => ⟨S128x64, .f32⟩
  | 9 => ⟨S64, .f32⟩
  | 10 => ⟨S64, .f32⟩
  | 11 => ⟨S64, .f32⟩
  | 12 => ⟨S64, .f32⟩
  | 13 => ⟨S64, .f32⟩
  | 14 => ⟨S128x64, .f32⟩
  | 15 => ⟨S64, .f32⟩
  | 16 => ⟨S64x32, .f32⟩
  | 17 => ⟨S32, .f32⟩
  | 18 => ⟨S32, .f32⟩
  | 19 => ⟨S32, .f32⟩
  | 20 => ⟨S32, .f32⟩
  | 21 => ⟨S32, .f32⟩
  | 22 => ⟨S64x32, .f32⟩
  | 23 => ⟨S32, .f32⟩
  | 24 => ⟨S32x16, .f32⟩
  | 25 => ⟨S16, .f32⟩
  | 26 => ⟨S16x2, .f32⟩
  | 27 => ⟨S2, .f32⟩
  | 28 => ⟨S1x800000, .i32⟩
  | 29 => ⟨S800000, .i32⟩
  | 30 => ⟨S1x800000, .i32⟩
  | 31 => ⟨S800000, .i32⟩
  | 32 => ⟨S_, .f32⟩
  | 33 => ⟨S800000, .f32⟩
  | 34 => ⟨S_, .f32⟩
  | 35 => ⟨S50000, .f32⟩
  | 36 => ⟨S800000x1, .i32⟩
  | 37 => ⟨S50000, .f32⟩
  | 38 => ⟨S_, .f32⟩
  | 39 => ⟨S50000, .f32⟩
  | 40 => ⟨S50000, .f32⟩
  | 41 => ⟨S50000, .f32⟩
  | 42 => ⟨S50000x128, .f32⟩
  | 43 => ⟨S_, .i32⟩
  | 44 => ⟨S800000, .i32⟩
  | 45 => ⟨S800000, .i1⟩
  | 46 => ⟨S_, .i32⟩
  | 47 => ⟨S800000, .i32⟩
  | 48 => ⟨S800000, .i32⟩
  | 49 => ⟨S800000, .i32⟩
  | 50 => ⟨S800000x1, .i32⟩
  | 51 => ⟨S800000, .f32⟩
  | 52 => ⟨S_, .i32⟩
  | 53 => ⟨S800000, .i32⟩
  | 54 => ⟨S800000, .i1⟩
  | 55 => ⟨S_, .i32⟩
  | 56 => ⟨S800000, .i32⟩
  | 57 => ⟨S800000, .i32⟩
  | 58 => ⟨S800000, .i32⟩
  | 59 => ⟨S800000x1, .i32⟩
  | 60 => ⟨S800000, .f32⟩
  | 61 => ⟨S800000, .f32⟩
  | 62 => ⟨S_, .i32⟩
  | 63 => ⟨S800000, .i32⟩
  | 64 => ⟨S800000, .i1⟩
  | 65 => ⟨S_, .i32⟩
  | 66 => ⟨S800000, .i32⟩
  | 67 => ⟨S800000, .i32⟩
  | 68 => ⟨S800000, .i32⟩
  | 69 => ⟨S800000x1, .i32⟩
  | 70 => ⟨S800000x128, .f32⟩
  | 71 => ⟨S800000x1, .f32⟩
  | 72 => ⟨S800000x128, .f32⟩
  | 73 => ⟨S800000x128, .f32⟩
  | 74 => ⟨S_, .f32⟩
  | 75 => ⟨S50000x128, .f32⟩
  | 76 => ⟨S800000x1, .i32⟩
  | 77 => ⟨S50000x128, .f32⟩
  | 78 => ⟨S50000, .f32⟩
  | 79 => ⟨S50000x1, .f32⟩
  | 80 => ⟨S50000x128, .f32⟩
  | 81 => ⟨S50000x128, .f32⟩
  | 82 => ⟨S50000x128, .f32⟩
  | 83 => ⟨S1x128, .f32⟩
  | 84 => ⟨S1x128, .f32⟩
  | 85 => ⟨S1x128, .f32⟩
  | 86 => ⟨S1x128, .f32⟩
  | 87 => ⟨S1x128, .f32⟩
  | 88 => ⟨S50000x128, .f32⟩
  | 89 => ⟨S50000x64, .f32⟩
  | 90 => ⟨S_, .i32⟩
  | 91 => ⟨S800000, .i32⟩
  | 92 => ⟨S800000, .i1⟩
  | 93 => ⟨S_, .i32⟩
  | 94 => ⟨S800000, .i32⟩
  | 95 => ⟨S800000, .i32⟩
  | 96 => ⟨S800000, .i32⟩
  | 97 => ⟨S800000x1, .i32⟩
  | 98 => ⟨S800000, .f32⟩
  | 99 => ⟨S_, .i32⟩
  | 100 => ⟨S800000, .i32⟩
  | 101 => ⟨S800000, .i1⟩
  | 102 => ⟨S_, .i32⟩
  | 103 => ⟨S800000, .i32⟩
  | 104 => ⟨S800000, .i32⟩
  | 105 => ⟨S800000, .i32⟩
  | 106 => ⟨S800000x1, .i32⟩
  | 107 => ⟨S800000, .f32⟩
  | 108 => ⟨S800000, .f32⟩
  | 109 => ⟨S_, .i32⟩
  | 110 => ⟨S800000, .i32⟩
  | 111 => ⟨S800000, .i1⟩
  | 112 => ⟨S_, .i32⟩
  | 113 => ⟨S800000, .i32⟩
  | 114 => ⟨S800000, .i32⟩
  | 115 => ⟨S800000, .i32⟩
  | 116 => ⟨S800000x1, .i32⟩
  | 117 => ⟨S800000x64, .f32⟩
  | 118 => ⟨S800000x1, .f32⟩
  | 119 => ⟨S800000x64, .f32⟩
  | 120 => ⟨S800000x64, .f32⟩
  | 121 => ⟨S_, .f32⟩
  | 122 => ⟨S50000x64, .f32⟩
  | 123 => ⟨S800000x1, .i32⟩
  | 124 => ⟨S50000x64, .f32⟩
  | 125 => ⟨S50000, .f32⟩
  | 126 => ⟨S50000x1, .f32⟩
  | 127 => ⟨S50000x64, .f32⟩
  | _ => ⟨S50000x128, .f32⟩

abbrev hbmTy0_1 (i : Nat) : BufTy := match i % 128 with
  | 0 => ⟨S50000x64, .f32⟩
  | 1 => ⟨S50000x64, .f32⟩
  | 2 => ⟨S1x64, .f32⟩
  | 3 => ⟨S1x64, .f32⟩
  | 4 => ⟨S1x64, .f32⟩
  | 5 => ⟨S1x64, .f32⟩
  | 6 => ⟨S1x64, .f32⟩
  | 7 => ⟨S1x64, .f32⟩
  | 8 => ⟨S50000x64, .f32⟩
  | 9 => ⟨S50000x32, .f32⟩
  | 10 => ⟨S_, .i32⟩
  | 11 => ⟨S800000, .i32⟩
  | 12 => ⟨S800000, .i1⟩
  | 13 => ⟨S_, .i32⟩
  | 14 => ⟨S800000, .i32⟩
  | 15 => ⟨S800000, .i32⟩
  | 16 => ⟨S800000, .i32⟩
  | 17 => ⟨S800000x1, .i32⟩
  | 18 => ⟨S800000, .f32⟩
  | 19 => ⟨S_, .i32⟩
  | 20 => ⟨S800000, .i32⟩
  | 21 => ⟨S800000, .i1⟩
  | 22 => ⟨S_, .i32⟩
  | 23 => ⟨S800000, .i32⟩
  | 24 => ⟨S800000, .i32⟩
  | 25 => ⟨S800000, .i32⟩
  | 26 => ⟨S800000x1, .i32⟩
  | 27 => ⟨S800000, .f32⟩
  | 28 => ⟨S800000, .f32⟩
  | 29 => ⟨S_, .i32⟩
  | 30 => ⟨S800000, .i32⟩
  | 31 => ⟨S800000, .i1⟩
  | 32 => ⟨S_, .i32⟩
  | 33 => ⟨S800000, .i32⟩
  | 34 => ⟨S800000, .i32⟩
  | 35 => ⟨S800000, .i32⟩
  | 36 => ⟨S800000x1, .i32⟩
  | 37 => ⟨S800000x32, .f32⟩
  | 38 => ⟨S800000x1, .f32⟩
  | 39 => ⟨S800000x32, .f32⟩
  | 40 => ⟨S800000x32, .f32⟩
  | 41 => ⟨S_, .f32⟩
  | 42 => ⟨S50000x32, .f32⟩
  | 43 => ⟨S800000x1, .i32⟩
  | 44 => ⟨S50000x32, .f32⟩
  | 45 => ⟨S50000, .f32⟩
  | 46 => ⟨S50000x1, .f32⟩
  | 47 => ⟨S50000x32, .f32⟩
  | 48 => ⟨S50000x32, .f32⟩
  | 49 => ⟨S50000x32, .f32⟩
  | 50 => ⟨S1x32, .f32⟩
  | 51 => ⟨S1x32, .f32⟩
  | 52 => ⟨S1x32, .f32⟩
  | 53 => ⟨S1x32, .f32⟩
  | 54 => ⟨S1x32, .f32⟩
  | 55 => ⟨S1x32, .f32⟩
  | 56 => ⟨S50000x32, .f32⟩
  | 57 => ⟨S50000x16, .f32⟩
  | 58 => ⟨S1x16, .f32⟩
  | 59 => ⟨S50000x16, .f32⟩
  | 60 => ⟨S50000x16, .f32⟩
  | 61 => ⟨S_, .f32⟩
  | 62 => ⟨S50000x16, .f32⟩
  | 63 => ⟨S50000x16, .f32⟩
  | 64 => ⟨S50000x2, .f32⟩
  | 65 => ⟨S1x2, .f32⟩
  | 66 => ⟨S50000x2, .f32⟩
  | 67 => ⟨S50000x2, .f32⟩
  | 68 => ⟨S_, .f32⟩
  | 69 => ⟨S50000, .f32⟩
  | 70 => ⟨S_, .f32⟩
  | 71 => ⟨S50000, .f32⟩
  | 72 => ⟨S50000, .f32⟩
  | 73 => ⟨S50000x1, .f32⟩
  | 74 => ⟨S50000x2, .f32⟩
  | 75 => ⟨S50000x2, .f32⟩
  | 76 => ⟨S50000x2, .f32⟩
  | 77 => ⟨S_, .f32⟩
  | 78 => ⟨S50000, .f32⟩
  | 79 => ⟨S50000x1, .f32⟩
  | 80 => ⟨S50000x1, .f32⟩
  | 81 => ⟨S50000x2, .f32⟩
  | 82 => ⟨S50000x2, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S1x128, .f32⟩
  | .local _ .vmem, ⟨10, _⟩ => ⟨S1x128, .f32⟩
  | .local _ .vmem, ⟨11, _⟩ => ⟨S1x128, .f32⟩
  | .local _ .vmem, ⟨12, _⟩ => ⟨S1x128, .f32⟩
  | .local _ .vmem, ⟨13, _⟩ => ⟨S1x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S5000x128, .f32⟩
  | .local _ .vmem, ⟨18, _⟩ => ⟨S128x64, .f32⟩
  | .local _ .vmem, ⟨19, _⟩ => ⟨S5000x64, .f32⟩
  | .local _ .vmem, ⟨20, _⟩ => ⟨S5000x64, .f32⟩
  | .local _ .vmem, ⟨21, _⟩ => ⟨S5000x128, .f32⟩
  | .local _ .vmem, ⟨22, _⟩ => ⟨S5000x128, .f32⟩
  | .local _ .vmem, ⟨23, _⟩ => ⟨S5000x64, .f32⟩
  | .local _ .vmem, ⟨24, _⟩ => ⟨S5000x64, .f32⟩
  | .local _ .vmem, ⟨25, _⟩ => ⟨S1x64, .f32⟩
  | .local _ .vmem, ⟨26, _⟩ => ⟨S1x64, .f32⟩
  | .local _ .vmem, ⟨27, _⟩ => ⟨S1x64, .f32⟩
  | .local _ .vmem, ⟨28, _⟩ => ⟨S1x64, .f32⟩
  | .local _ .vmem, ⟨29, _⟩ => ⟨S1x64, .f32⟩
  | .local _ .vmem, ⟨30, _⟩ => ⟨S128x64, .f32⟩
  | .local _ .vmem, ⟨31, _⟩ => ⟨S1x64, .f32⟩
  | .local _ .vmem, ⟨32, _⟩ => ⟨S5000x64, .f32⟩
  | .local _ .vmem, ⟨33, _⟩ => ⟨S5000x64, .f32⟩
  | .local _ .vmem, ⟨34, _⟩ => ⟨S5000x64, .f32⟩
  | .local _ .vmem, ⟨35, _⟩ => ⟨S5000x64, .f32⟩
  | .local _ .vmem, ⟨36, _⟩ => ⟨S64x32, .f32⟩
  | .local _ .vmem, ⟨37, _⟩ => ⟨S5000x32, .f32⟩
  | .local _ .vmem, ⟨38, _⟩ => ⟨S5000x32, .f32⟩
  | .local _ .vmem, ⟨39, _⟩ => ⟨S5000x64, .f32⟩
  | .local _ .vmem, ⟨40, _⟩ => ⟨S5000x64, .f32⟩
  | .local _ .vmem, ⟨41, _⟩ => ⟨S5000x32, .f32⟩
  | .local _ .vmem, ⟨42, _⟩ => ⟨S5000x32, .f32⟩
  | .local _ .vmem, ⟨43, _⟩ => ⟨S1x32, .f32⟩
  | .local _ .vmem, ⟨44, _⟩ => ⟨S1x32, .f32⟩
  | .local _ .vmem, ⟨45, _⟩ => ⟨S1x32, .f32⟩
  | .local _ .vmem, ⟨46, _⟩ => ⟨S1x32, .f32⟩
  | .local _ .vmem, ⟨47, _⟩ => ⟨S1x32, .f32⟩
  | .local _ .vmem, ⟨48, _⟩ => ⟨S64x32, .f32⟩
  | .local _ .vmem, ⟨49, _⟩ => ⟨S1x32, .f32⟩
  | .local _ .vmem, ⟨50, _⟩ => ⟨S5000x32, .f32⟩
  | .local _ .vmem, ⟨51, _⟩ => ⟨S5000x32, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | _, _ => false

abbrev semScoped : Fin 0 → Bool
  | ⟨_, h⟩ => absurd h (Nat.not_lt_zero _)

abbrev dmaSemScoped : Fin 52 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | _ => false

abbrev sig : RefSig :=
  ofTc nBuf bufTy 0 52 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_v0 : Ref sig .tc := ⟨.hbm, 28, rfl⟩
abbrev main_v1 : Ref sig .tc := ⟨.hbm, 29, rfl⟩
abbrev main_v2 : Ref sig .tc := ⟨.hbm, 30, rfl⟩
abbrev main_v3 : Ref sig .tc := ⟨.hbm, 31, rfl⟩
abbrev main_cst : Ref sig .tc := ⟨.hbm, 32, rfl⟩
abbrev main_v4 : Ref sig .tc := ⟨.hbm, 33, rfl⟩
abbrev main_cst_0 : Ref sig .tc := ⟨.hbm, 34, rfl⟩
abbrev main_v5 : Ref sig .tc := ⟨.hbm, 35, rfl⟩
abbrev main_v6 : Ref sig .tc := ⟨.hbm, 36, rfl⟩
abbrev main_v7 : Ref sig .tc := ⟨.hbm, 37, rfl⟩
abbrev main_cst_1 : Ref sig .tc := ⟨.hbm, 38, rfl⟩
abbrev main_v8 : Ref sig .tc := ⟨.hbm, 39, rfl⟩
abbrev main_v9 : Ref sig .tc := ⟨.hbm, 40, rfl⟩
abbrev main_v10 : Ref sig .tc := ⟨.hbm, 41, rfl⟩
abbrev main_v11 : Ref sig .tc := ⟨.hbm, 42, rfl⟩
abbrev main_c : Ref sig .tc := ⟨.hbm, 43, rfl⟩
abbrev main_v12 : Ref sig .tc := ⟨.hbm, 44, rfl⟩
abbrev main_v13 : Ref sig .tc := ⟨.hbm, 45, rfl⟩
abbrev main_c_2 : Ref sig .tc := ⟨.hbm, 46, rfl⟩
abbrev main_v14 : Ref sig .tc := ⟨.hbm, 47, rfl⟩
abbrev main_v15 : Ref sig .tc := ⟨.hbm, 48, rfl⟩
abbrev main_v16 : Ref sig .tc := ⟨.hbm, 49, rfl⟩
abbrev main_v17 : Ref sig .tc := ⟨.hbm, 50, rfl⟩
abbrev main_v18 : Ref sig .tc := ⟨.hbm, 51, rfl⟩
abbrev main_c_3 : Ref sig .tc := ⟨.hbm, 52, rfl⟩
abbrev main_v19 : Ref sig .tc := ⟨.hbm, 53, rfl⟩
abbrev main_v20 : Ref sig .tc := ⟨.hbm, 54, rfl⟩
abbrev main_c_4 : Ref sig .tc := ⟨.hbm, 55, rfl⟩
abbrev main_v21 : Ref sig .tc := ⟨.hbm, 56, rfl⟩
abbrev main_v22 : Ref sig .tc := ⟨.hbm, 57, rfl⟩
abbrev main_v23 : Ref sig .tc := ⟨.hbm, 58, rfl⟩
abbrev main_v24 : Ref sig .tc := ⟨.hbm, 59, rfl⟩
abbrev main_v25 : Ref sig .tc := ⟨.hbm, 60, rfl⟩
abbrev main_v26 : Ref sig .tc := ⟨.hbm, 61, rfl⟩
abbrev main_c_5 : Ref sig .tc := ⟨.hbm, 62, rfl⟩
abbrev main_v27 : Ref sig .tc := ⟨.hbm, 63, rfl⟩
abbrev main_v28 : Ref sig .tc := ⟨.hbm, 64, rfl⟩
abbrev main_c_6 : Ref sig .tc := ⟨.hbm, 65, rfl⟩
abbrev main_v29 : Ref sig .tc := ⟨.hbm, 66, rfl⟩
abbrev main_v30 : Ref sig .tc := ⟨.hbm, 67, rfl⟩
abbrev main_v31 : Ref sig .tc := ⟨.hbm, 68, rfl⟩
abbrev main_v32 : Ref sig .tc := ⟨.hbm, 69, rfl⟩
abbrev main_v33 : Ref sig .tc := ⟨.hbm, 70, rfl⟩
abbrev main_v34 : Ref sig .tc := ⟨.hbm, 71, rfl⟩
abbrev main_v35 : Ref sig .tc := ⟨.hbm, 72, rfl⟩
abbrev main_v36 : Ref sig .tc := ⟨.hbm, 73, rfl⟩
abbrev main_cst_7 : Ref sig .tc := ⟨.hbm, 74, rfl⟩
abbrev main_v37 : Ref sig .tc := ⟨.hbm, 75, rfl⟩
abbrev main_v38 : Ref sig .tc := ⟨.hbm, 76, rfl⟩
abbrev main_v39 : Ref sig .tc := ⟨.hbm, 77, rfl⟩
abbrev main_v40 : Ref sig .tc := ⟨.hbm, 78, rfl⟩
abbrev main_v41 : Ref sig .tc := ⟨.hbm, 79, rfl⟩
abbrev main_v42 : Ref sig .tc := ⟨.hbm, 80, rfl⟩
abbrev main_v43 : Ref sig .tc := ⟨.hbm, 81, rfl⟩
abbrev main_v44 : Ref sig .tc := ⟨.hbm, 82, rfl⟩
abbrev main_v45 : Ref sig .tc := ⟨.hbm, 83, rfl⟩
abbrev main_v46 : Ref sig .tc := ⟨.hbm, 84, rfl⟩
abbrev main_v47 : Ref sig .tc := ⟨.hbm, 85, rfl⟩
abbrev main_v48 : Ref sig .tc := ⟨.hbm, 86, rfl⟩
abbrev main_v49 : Ref sig .tc := ⟨.hbm, 87, rfl⟩
abbrev main_v50 : Ref sig .tc := ⟨.hbm, 88, rfl⟩
abbrev main_v51 : Ref sig .tc := ⟨.hbm, 89, rfl⟩
abbrev main_c_8 : Ref sig .tc := ⟨.hbm, 90, rfl⟩
abbrev main_v52 : Ref sig .tc := ⟨.hbm, 91, rfl⟩
abbrev main_v53 : Ref sig .tc := ⟨.hbm, 92, rfl⟩
abbrev main_c_9 : Ref sig .tc := ⟨.hbm, 93, rfl⟩
abbrev main_v54 : Ref sig .tc := ⟨.hbm, 94, rfl⟩
abbrev main_v55 : Ref sig .tc := ⟨.hbm, 95, rfl⟩
abbrev main_v56 : Ref sig .tc := ⟨.hbm, 96, rfl⟩
abbrev main_v57 : Ref sig .tc := ⟨.hbm, 97, rfl⟩
abbrev main_v58 : Ref sig .tc := ⟨.hbm, 98, rfl⟩
abbrev main_c_10 : Ref sig .tc := ⟨.hbm, 99, rfl⟩
abbrev main_v59 : Ref sig .tc := ⟨.hbm, 100, rfl⟩
abbrev main_v60 : Ref sig .tc := ⟨.hbm, 101, rfl⟩
abbrev main_c_11 : Ref sig .tc := ⟨.hbm, 102, rfl⟩
abbrev main_v61 : Ref sig .tc := ⟨.hbm, 103, rfl⟩
abbrev main_v62 : Ref sig .tc := ⟨.hbm, 104, rfl⟩
abbrev main_v63 : Ref sig .tc := ⟨.hbm, 105, rfl⟩
abbrev main_v64 : Ref sig .tc := ⟨.hbm, 106, rfl⟩
abbrev main_v65 : Ref sig .tc := ⟨.hbm, 107, rfl⟩
abbrev main_v66 : Ref sig .tc := ⟨.hbm, 108, rfl⟩
abbrev main_c_12 : Ref sig .tc := ⟨.hbm, 109, rfl⟩
abbrev main_v67 : Ref sig .tc := ⟨.hbm, 110, rfl⟩
abbrev main_v68 : Ref sig .tc := ⟨.hbm, 111, rfl⟩
abbrev main_c_13 : Ref sig .tc := ⟨.hbm, 112, rfl⟩
abbrev main_v69 : Ref sig .tc := ⟨.hbm, 113, rfl⟩
abbrev main_v70 : Ref sig .tc := ⟨.hbm, 114, rfl⟩
abbrev main_v71 : Ref sig .tc := ⟨.hbm, 115, rfl⟩
abbrev main_v72 : Ref sig .tc := ⟨.hbm, 116, rfl⟩
abbrev main_v73 : Ref sig .tc := ⟨.hbm, 117, rfl⟩
abbrev main_v74 : Ref sig .tc := ⟨.hbm, 118, rfl⟩
abbrev main_v75 : Ref sig .tc := ⟨.hbm, 119, rfl⟩
abbrev main_v76 : Ref sig .tc := ⟨.hbm, 120, rfl⟩
abbrev main_cst_14 : Ref sig .tc := ⟨.hbm, 121, rfl⟩
abbrev main_v77 : Ref sig .tc := ⟨.hbm, 122, rfl⟩
abbrev main_v78 : Ref sig .tc := ⟨.hbm, 123, rfl⟩
abbrev main_v79 : Ref sig .tc := ⟨.hbm, 124, rfl⟩
abbrev main_v80 : Ref sig .tc := ⟨.hbm, 125, rfl⟩
abbrev main_v81 : Ref sig .tc := ⟨.hbm, 126, rfl⟩
abbrev main_v82 : Ref sig .tc := ⟨.hbm, 127, rfl⟩
abbrev main_v83 : Ref sig .tc := ⟨.hbm, 128, rfl⟩
abbrev main_v84 : Ref sig .tc := ⟨.hbm, 129, rfl⟩
abbrev main_v85 : Ref sig .tc := ⟨.hbm, 130, rfl⟩
abbrev main_v86 : Ref sig .tc := ⟨.hbm, 131, rfl⟩
abbrev main_v87 : Ref sig .tc := ⟨.hbm, 132, rfl⟩
abbrev main_v88 : Ref sig .tc := ⟨.hbm, 133, rfl⟩
abbrev main_v89 : Ref sig .tc := ⟨.hbm, 134, rfl⟩
abbrev main_v90 : Ref sig .tc := ⟨.hbm, 135, rfl⟩
abbrev main_v91 : Ref sig .tc := ⟨.hbm, 136, rfl⟩
abbrev main_v92 : Ref sig .tc := ⟨.hbm, 137, rfl⟩
abbrev main_c_15 : Ref sig .tc := ⟨.hbm, 138, rfl⟩
abbrev main_v93 : Ref sig .tc := ⟨.hbm, 139, rfl⟩
abbrev main_v94 : Ref sig .tc := ⟨.hbm, 140, rfl⟩
abbrev main_c_16 : Ref sig .tc := ⟨.hbm, 141, rfl⟩
abbrev main_v95 : Ref sig .tc := ⟨.hbm, 142, rfl⟩
abbrev main_v96 : Ref sig .tc := ⟨.hbm, 143, rfl⟩
abbrev main_v97 : Ref sig .tc := ⟨.hbm, 144, rfl⟩
abbrev main_v98 : Ref sig .tc := ⟨.hbm, 145, rfl⟩
abbrev main_v99 : Ref sig .tc := ⟨.hbm, 146, rfl⟩
abbrev main_c_17 : Ref sig .tc := ⟨.hbm, 147, rfl⟩
abbrev main_v100 : Ref sig .tc := ⟨.hbm, 148, rfl⟩
abbrev main_v101 : Ref sig .tc := ⟨.hbm, 149, rfl⟩
abbrev main_c_18 : Ref sig .tc := ⟨.hbm, 150, rfl⟩
abbrev main_v102 : Ref sig .tc := ⟨.hbm, 151, rfl⟩
abbrev main_v103 : Ref sig .tc := ⟨.hbm, 152, rfl⟩
abbrev main_v104 : Ref sig .tc := ⟨.hbm, 153, rfl⟩
abbrev main_v105 : Ref sig .tc := ⟨.hbm, 154, rfl⟩
abbrev main_v106 : Ref sig .tc := ⟨.hbm, 155, rfl⟩
abbrev main_v107 : Ref sig .tc := ⟨.hbm, 156, rfl⟩
abbrev main_c_19 : Ref sig .tc := ⟨.hbm, 157, rfl⟩
abbrev main_v108 : Ref sig .tc := ⟨.hbm, 158, rfl⟩
abbrev main_v109 : Ref sig .tc := ⟨.hbm, 159, rfl⟩
abbrev main_c_20 : Ref sig .tc := ⟨.hbm, 160, rfl⟩
abbrev main_v110 : Ref sig .tc := ⟨.hbm, 161, rfl⟩
abbrev main_v111 : Ref sig .tc := ⟨.hbm, 162, rfl⟩
abbrev main_v112 : Ref sig .tc := ⟨.hbm, 163, rfl⟩
abbrev main_v113 : Ref sig .tc := ⟨.hbm, 164, rfl⟩
abbrev main_v114 : Ref sig .tc := ⟨.hbm, 165, rfl⟩
abbrev main_v115 : Ref sig .tc := ⟨.hbm, 166, rfl⟩
abbrev main_v116 : Ref sig .tc := ⟨.hbm, 167, rfl⟩
abbrev main_v117 : Ref sig .tc := ⟨.hbm, 168, rfl⟩
abbrev main_cst_21 : Ref sig .tc := ⟨.hbm, 169, rfl⟩
abbrev main_v118 : Ref sig .tc := ⟨.hbm, 170, rfl⟩
abbrev main_v119 : Ref sig .tc := ⟨.hbm, 171, rfl⟩
abbrev main_v120 : Ref sig .tc := ⟨.hbm, 172, rfl⟩
abbrev main_v121 : Ref sig .tc := ⟨.hbm, 173, rfl⟩
abbrev main_v122 : Ref sig .tc := ⟨.hbm, 174, rfl⟩
abbrev main_v123 : Ref sig .tc := ⟨.hbm, 175, rfl⟩
abbrev main_v124 : Ref sig .tc := ⟨.hbm, 176, rfl⟩
abbrev main_v125 : Ref sig .tc := ⟨.hbm, 177, rfl⟩
abbrev main_v126 : Ref sig .tc := ⟨.hbm, 178, rfl⟩
abbrev main_v127 : Ref sig .tc := ⟨.hbm, 179, rfl⟩
abbrev main_v128 : Ref sig .tc := ⟨.hbm, 180, rfl⟩
abbrev main_v129 : Ref sig .tc := ⟨.hbm, 181, rfl⟩
abbrev main_v130 : Ref sig .tc := ⟨.hbm, 182, rfl⟩
abbrev main_v131 : Ref sig .tc := ⟨.hbm, 183, rfl⟩
abbrev main_v132 : Ref sig .tc := ⟨.hbm, 184, rfl⟩
abbrev main_v133 : Ref sig .tc := ⟨.hbm, 185, rfl⟩
abbrev main_v134 : Ref sig .tc := ⟨.hbm, 186, rfl⟩
abbrev main_v135 : Ref sig .tc := ⟨.hbm, 187, rfl⟩
abbrev main_v136 : Ref sig .tc := ⟨.hbm, 188, rfl⟩
abbrev main_call0_cst : Ref sig .tc := ⟨.hbm, 189, rfl⟩
abbrev main_call0_v0 : Ref sig .tc := ⟨.hbm, 190, rfl⟩
abbrev main_v137 : Ref sig .tc := ⟨.hbm, 191, rfl⟩
abbrev main_v138 : Ref sig .tc := ⟨.hbm, 192, rfl⟩
abbrev main_v139 : Ref sig .tc := ⟨.hbm, 193, rfl⟩
abbrev main_v140 : Ref sig .tc := ⟨.hbm, 194, rfl⟩
abbrev main_v141 : Ref sig .tc := ⟨.hbm, 195, rfl⟩
abbrev main_call1_cst : Ref sig .tc := ⟨.hbm, 196, rfl⟩
abbrev main_call1_v0 : Ref sig .tc := ⟨.hbm, 197, rfl⟩
abbrev main_call1_cst_0 : Ref sig .tc := ⟨.hbm, 198, rfl⟩
abbrev main_call1_v1 : Ref sig .tc := ⟨.hbm, 199, rfl⟩
abbrev main_call1_v2 : Ref sig .tc := ⟨.hbm, 200, rfl⟩
abbrev main_call1_v3 : Ref sig .tc := ⟨.hbm, 201, rfl⟩
abbrev main_call1_v4 : Ref sig .tc := ⟨.hbm, 202, rfl⟩
abbrev main_call1_v5 : Ref sig .tc := ⟨.hbm, 203, rfl⟩
abbrev main_call1_v6 : Ref sig .tc := ⟨.hbm, 204, rfl⟩
abbrev main_call1_cst_1 : Ref sig .tc := ⟨.hbm, 205, rfl⟩
abbrev main_call1_v7 : Ref sig .tc := ⟨.hbm, 206, rfl⟩
abbrev main_call1_v8 : Ref sig .tc := ⟨.hbm, 207, rfl⟩
abbrev main_call1_v9 : Ref sig .tc := ⟨.hbm, 208, rfl⟩
abbrev main_call1_v10 : Ref sig .tc := ⟨.hbm, 209, rfl⟩
abbrev main_v142 : Ref sig .tc := ⟨.hbm, 210, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg5_0 : Ref sig .tc := ⟨.vmem, 12, rfl⟩
abbrev cc1_stg6_0 : Ref sig .tc := ⟨.vmem, 13, rfl⟩
abbrev cc1_stg7_0 : Ref sig .tc := ⟨.vmem, 14, rfl⟩
abbrev cc1_stg7_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg2_0 : Ref sig .tc := ⟨.vmem, 19, rfl⟩
abbrev cc2_stg2_1 : Ref sig .tc := ⟨.vmem, 20, rfl⟩
abbrev cc3_stg0_0 : Ref sig .tc := ⟨.vmem, 21, rfl⟩
abbrev cc3_stg0_1 : Ref sig .tc := ⟨.vmem, 22, rfl⟩
abbrev cc3_stg1_0 : Ref sig .tc := ⟨.vmem, 23, rfl⟩
abbrev cc3_stg1_1 : Ref sig .tc := ⟨.vmem, 24, rfl⟩
abbrev cc3_stg2_0 : Ref sig .tc := ⟨.vmem, 25, rfl⟩
abbrev cc3_stg3_0 : Ref sig .tc := ⟨.vmem, 26, rfl⟩
abbrev cc3_stg4_0 : Ref sig .tc := ⟨.vmem, 27, rfl⟩
abbrev cc3_stg5_0 : Ref sig .tc := ⟨.vmem, 28, rfl⟩
abbrev cc3_stg6_0 : Ref sig .tc := ⟨.vmem, 29, rfl⟩
abbrev cc3_stg7_0 : Ref sig .tc := ⟨.vmem, 30, rfl⟩
abbrev cc3_stg8_0 : Ref sig .tc := ⟨.vmem, 31, rfl⟩
abbrev cc3_stg9_0 : Ref sig .tc := ⟨.vmem, 32, rfl⟩
abbrev cc3_stg9_1 : Ref sig .tc := ⟨.vmem, 33, rfl⟩
abbrev cc4_stg0_0 : Ref sig .tc := ⟨.vmem, 34, rfl⟩
abbrev cc4_stg0_1 : Ref sig .tc := ⟨.vmem, 35, rfl⟩
abbrev cc4_stg1_0 : Ref sig .tc := ⟨.vmem, 36, rfl⟩
abbrev cc4_stg2_0 : Ref sig .tc := ⟨.vmem, 37, rfl⟩
abbrev cc4_stg2_1 : Ref sig .tc := ⟨.vmem, 38, rfl⟩
abbrev cc5_stg0_0 : Ref sig .tc := ⟨.vmem, 39, rfl⟩
abbrev cc5_stg0_1 : Ref sig .tc := ⟨.vmem, 40, rfl⟩
abbrev cc5_stg1_0 : Ref sig .tc := ⟨.vmem, 41, rfl⟩
abbrev cc5_stg1_1 : Ref sig .tc := ⟨.vmem, 42, rfl⟩
abbrev cc5_stg2_0 : Ref sig .tc := ⟨.vmem, 43, rfl⟩
abbrev cc5_stg3_0 : Ref sig .tc := ⟨.vmem, 44, rfl⟩
abbrev cc5_stg4_0 : Ref sig .tc := ⟨.vmem, 45, rfl⟩
abbrev cc5_stg5_0 : Ref sig .tc := ⟨.vmem, 46, rfl⟩
abbrev cc5_stg6_0 : Ref sig .tc := ⟨.vmem, 47, rfl⟩
abbrev cc5_stg7_0 : Ref sig .tc := ⟨.vmem, 48, rfl⟩
abbrev cc5_stg8_0 : Ref sig .tc := ⟨.vmem, 49, rfl⟩
abbrev cc5_stg9_0 : Ref sig .tc := ⟨.vmem, 50, rfl⟩
abbrev cc5_stg9_1 : Ref sig .tc := ⟨.vmem, 51, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem3_0 : DmaSem sig := 10
abbrev cc1_sem4_0 : DmaSem sig := 11
abbrev cc1_sem5_0 : DmaSem sig := 12
abbrev cc1_sem6_0 : DmaSem sig := 13
abbrev cc1_sem7_0 : DmaSem sig := 14
abbrev cc1_sem7_1 : DmaSem sig := 15
abbrev cc2_sem0_0 : DmaSem sig := 16
abbrev cc2_sem0_1 : DmaSem sig := 17
abbrev cc2_sem1_0 : DmaSem sig := 18
abbrev cc2_sem2_0 : DmaSem sig := 19
abbrev cc2_sem2_1 : DmaSem sig := 20
abbrev cc3_sem0_0 : DmaSem sig := 21
abbrev cc3_sem0_1 : DmaSem sig := 22
abbrev cc3_sem1_0 : DmaSem sig := 23
abbrev cc3_sem1_1 : DmaSem sig := 24
abbrev cc3_sem2_0 : DmaSem sig := 25
abbrev cc3_sem3_0 : DmaSem sig := 26
abbrev cc3_sem4_0 : DmaSem sig := 27
abbrev cc3_sem5_0 : DmaSem sig := 28
abbrev cc3_sem6_0 : DmaSem sig := 29
abbrev cc3_sem7_0 : DmaSem sig := 30
abbrev cc3_sem8_0 : DmaSem sig := 31
abbrev cc3_sem9_0 : DmaSem sig := 32
abbrev cc3_sem9_1 : DmaSem sig := 33
abbrev cc4_sem0_0 : DmaSem sig := 34
abbrev cc4_sem0_1 : DmaSem sig := 35
abbrev cc4_sem1_0 : DmaSem sig := 36
abbrev cc4_sem2_0 : DmaSem sig := 37
abbrev cc4_sem2_1 : DmaSem sig := 38
abbrev cc5_sem0_0 : DmaSem sig := 39
abbrev cc5_sem0_1 : DmaSem sig := 40
abbrev cc5_sem1_0 : DmaSem sig := 41
abbrev cc5_sem1_1 : DmaSem sig := 42
abbrev cc5_sem2_0 : DmaSem sig := 43
abbrev cc5_sem3_0 : DmaSem sig := 44
abbrev cc5_sem4_0 : DmaSem sig := 45
abbrev cc5_sem5_0 : DmaSem sig := 46
abbrev cc5_sem6_0 : DmaSem sig := 47
abbrev cc5_sem7_0 : DmaSem sig := 48
abbrev cc5_sem8_0 : DmaSem sig := 49
abbrev cc5_sem9_0 : DmaSem sig := 50
abbrev cc5_sem9_1 : DmaSem sig := 51

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S5000x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_8 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_9 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S1x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x64 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x64 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1x64 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S128x64 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 1 → Memref sig .tc .vmem S1x64 .f32 := fun | 0 => Memref.whole cc3_stg8_0 | ⟨_ + 1, h⟩ => absurd h (Nat.not_lt.2 (Nat.le_add_left _ _))
abbrev sem3_8 : Fin 1 → DmaSem sig := fun | 0 => cc3_sem8_0 | ⟨_ + 1, h⟩ => absurd h (Nat.not_lt.2 (Nat.le_add_left _ _))
abbrev reads3_8 : Fin grid3.rank → Bool := ![false]

abbrev stage3_9 : Fin 2 → Memref sig .tc .vmem S5000x64 .f32 := fun | 0 => Memref.whole cc3_stg9_0 | 1 => Memref.whole cc3_stg9_1 | ⟨_ + 2, h⟩ => absurd h (Nat.not_lt.2 (Nat.le_add_left _ _))
abbrev sem3_9 : Fin 2 → DmaSem sig := fun | 0 => cc3_sem9_0 | 1 => cc3_sem9_1 | ⟨_ + 2, h⟩ => absurd h (Nat.not_lt.2 (Nat.le_add_left _ _))
abbrev reads3_9 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S64x32 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S5000x32 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_7 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_8 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_9 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S5000x32 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S1x32 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x32 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x32 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S1x32 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 1 → Memref sig .tc .vmem S1x32 .f32 := fun | 0 => Memref.whole cc5_stg6_0 | ⟨_ + 1, h⟩ => absurd h (Nat.not_lt.2 (Nat.le_add_left _ _))
abbrev sem5_6 : Fin 1 → DmaSem sig := fun | 0 => cc5_sem6_0 | ⟨_ + 1, h⟩ => absurd h (Nat.not_lt.2 (Nat.le_add_left _ _))
abbrev reads5_6 : Fin grid5.rank → Bool := ![false]

abbrev stage5_7 : Fin 1 → Memref sig .tc .vmem S64x32 .f32 := fun | 0 => Memref.whole cc5_stg7_0 | ⟨_ + 1, h⟩ => absurd h (Nat.not_lt.2 (Nat.le_add_left _ _))
abbrev sem5_7 : Fin 1 → DmaSem sig := fun | 0 => cc5_sem7_0 | ⟨_ + 1, h⟩ => absurd h (Nat.not_lt.2 (Nat.le_add_left _ _))
abbrev reads5_7 : Fin grid5.rank → Bool := ![false]

abbrev stage5_8 : Fin 1 → Memref sig .tc .vmem S1x32 .f32 := fun | 0 => Memref.whole cc5_stg8_0 | ⟨_ + 1, h⟩ => absurd h (Nat.not_lt.2 (Nat.le_add_left _ _))
abbrev sem5_8 : Fin 1 → DmaSem sig := fun | 0 => cc5_sem8_0 | ⟨_ + 1, h⟩ => absurd h (Nat.not_lt.2 (Nat.le_add_left _ _))
abbrev reads5_8 : Fin grid5.rank → Bool := ![false]

abbrev stage5_9 : Fin 2 → Memref sig .tc .vmem S5000x32 .f32 := fun | 0 => Memref.whole cc5_stg9_0 | 1 => Memref.whole cc5_stg9_1 | ⟨_ + 2, h⟩ => absurd h (Nat.not_lt.2 (Nat.le_add_left _ _))
abbrev sem5_9 : Fin 2 → DmaSem sig := fun | 0 => cc5_sem9_0 | 1 => cc5_sem9_1 | ⟨_ + 2, h⟩ => absurd h (Nat.not_lt.2 (Nat.le_add_left _ _))
abbrev reads5_9 : Fin grid5.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  bcast_S800000x1_S800000x64_0_1 : S800000x1.BroadcastsInDim S800000x64 (![0, 1] : Fin 2 → Fin S800000x64.rank)
  bcast_S_S50000x64 : S_.BroadcastsInDim S50000x64 (![] : Fin 0 → Fin S50000x64.rank)
  bcast_S50000x1_S50000x64_0_1 : S50000x1.BroadcastsInDim S50000x64 (![0, 1] : Fin 2 → Fin S50000x64.rank)
  shapeCasts_S64_S1x64 : S64.ShapeCasts S1x64
  shapeCasts_S5000x64_S5000x64 : S5000x64.ShapeCasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S64x32_S64x32_0_0 : ∀ a, (![0, 0] : Fin 2 → Nat) a + S64x32.size a ≤ S64x32.size a
  h_S64x32 : 0 < S64x32.numel
  inb_S5000x32_S5000x32_0_0 : ∀ a, (![0, 0] : Fin 2 → Nat) a + S5000x32.size a ≤ S5000x32.size a
  h_S5000x32 : 0 < S5000x32.numel
  bcast_S800000x1_S800000x32_0_1 : S800000x1.BroadcastsInDim S800000x32 (![0, 1] : Fin 2 → Fin S800000x32.rank)
  bcast_S_S50000x32 : S_.BroadcastsInDim S50000x32 (![] : Fin 0 → Fin S50000x32.rank)
  bcast_S50000x1_S50000x32_0_1 : S50000x1.BroadcastsInDim S50000x32 (![0, 1] : Fin 2 → Fin S50000x32.rank)
  shapeCasts_S32_S1x32 : S32.ShapeCasts S1x32
  shapeCasts_S5000x32_S5000x32 : S5000x32.ShapeCasts S5000x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S5000x32 : S1x32.Broadcasts S5000x32
  bcast_S16_S1x16_1 : S16.BroadcastsInDim S1x16 (![1] : Fin 1 → Fin S1x16.rank)
  bcast_S1x16_S50000x16_0_1 : S1x16.BroadcastsInDim S50000x16 (![0, 1] : Fin 2 → Fin S50000x16.rank)
  bcast_S_S50000x16 : S_.BroadcastsInDim S50000x16 (![] : Fin 0 → Fin S50000x16.rank)
  bcast_S2_S1x2_1 : S2.BroadcastsInDim S1x2 (![1] : Fin 1 → Fin S1x2.rank)
  bcast_S1x2_S50000x2_0_1 : S1x2.BroadcastsInDim S50000x2 (![0, 1] : Fin 2 → Fin S50000x2.rank)
  reducesTo_S50000x2_S50000_d1 : S50000x2.ReducesTo [1] S50000
  h_S_ : 0 < S_.numel
  bcast_S50000x1_S50000x2_0_1 : S50000x1.BroadcastsInDim S50000x2 (![0, 1] : Fin 2 → Fin S50000x2.rank)
  scatter_S50000_S800000x1_S800000_n_0_0_1_wf : ScatterDims.WF S50000 S800000x1 S800000 [] [0] [0] 1
  dot_S5000x128_S128x128_S5000x128_1_0_0_1_n_n_wf : DotDims.WF S5000x128 S128x128 S5000x128 [1] [0] [0] [1] [] []
  gather_S50000_S800000x1_S800000_n_0_n_n_0_1_1_wf : GatherDims.WF S50000 S800000x1 S800000 [] [0] [] [0] [] 1 ![1]
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S5000x128_S128x64_S5000x64_1_0_0_1_n_n_wf : DotDims.WF S5000x128 S128x64 S5000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S5000x64_S64x32_S5000x32_1_0_0_1_n_n_wf : DotDims.WF S5000x64 S64x32 S5000x32 [1] [0] [0] [1] [] []
  gather_S50000x32_S800000x1_S800000x32_1_0_n_n_0_1_132_wf : GatherDims.WF S50000x32 S800000x1 S800000x32 [1] [0] [] [0] [] 1 ![1, 32]
  scatter_S50000x32_S800000x1_S800000x32_1_0_0_1_wf : ScatterDims.WF S50000x32 S800000x1 S800000x32 [1] [0] [0] 1
  dot_S50000x32_S32x16_S50000x16_1_0_0_1_n_n_wf : DotDims.WF S50000x32 S32x16 S50000x16 [1] [0] [0] [1] [] []
  dot_S50000x16_S16x2_S50000x2_1_0_0_1_n_n_wf : DotDims.WF S50000x16 S16x2 S50000x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S5000x128.size a ≤ S50000x128.size a
  hwx1_7 : ∀ i : grid1.Coords, EltTy.bits .f32 = 32 ∨ (Rect.block (s := S50000x128) S5000x128.size (cc1_transform_7 i) (hinb1_7 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x64.size a ≤ S128x64.size a
  hwx2_1 : ∀ i : grid2.Coords, EltTy.bits .f32 = 32 ∨ (Rect.block (s := S128x64) S128x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x64.size a ≤ S50000x64.size a
  hwx2_2 : ∀ i : grid2.Coords, EltTy.bits .f32 = 32 ∨ (Rect.block (s := S50000x64) S5000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x64.size a ≤ S50000x64.size a
  hwx3_1 : ∀ i : grid3.Coords, EltTy.bits .f32 = 32 ∨ (Rect.block (s := S50000x64) S5000x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x64.size a ≤ S1x64.size a
  hwx3_2 : ∀ i : grid3.Coords, EltTy.bits .f32 = 32 ∨ (Rect.block (s := S1x64) S1x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x64.size a ≤ S1x64.size a
  hwx3_3 : ∀ i : grid3.Coords, EltTy.bits .f32 = 32 ∨ (Rect.block (s := S1x64) S1x64.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x64.size a ≤ S1x64.size a
  hwx3_4 : ∀ i : grid3.Coords, EltTy.bits .f32 = 32 ∨ (Rect.block (s := S1x64) S1x64.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x64.size a ≤ S1x64.size a
  hwx3_5 : ∀ i : grid3.Coords, EltTy.bits .f32 = 32 ∨ (Rect.block (s := S1x64) S1x64.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S1x64.size a ≤ S1x64.size a
  hwx3_6 : ∀ i : grid3.Coords, EltTy.bits .f32 = 32 ∨ (Rect.block (s := S1x64) S1x64.size (cc3_transform_6 i) (hinb3_6 i)).WholeWords (EltTy.packing .f32)
  hstage3_7 : ∀ j, (stage3_7 j).IsWhole
  nbuf3_7 : grid3.bufCount reads3_7 true = 1
  hreads3_7 : ∀ i i' : grid3.Coords, (∀ a, reads3_7 a = true → i a = i' a) → cc3_transform_7 i = cc3_transform_7 i'
  hinb3_7 : ∀ (i : grid3.Coords) a, (cc3_transform_7 i a + 1) * S128x64.size a ≤ S128x64.size a
  hwx3_7 : ∀ i : grid3.Coords, EltTy.bits .f32 = 32 ∨ (Rect.block (s := S128x64) S128x64.size (cc3_transform_7 i) (hinb3_7 i)).WholeWords (EltTy.packing .f32)
  hstage3_8 : ∀ j, (stage3_8 j).IsWhole
  nbuf3_8 : grid3.bufCount reads3_8 true = 1
  hreads3_8 : ∀ i i' : grid3.Coords, (∀ a, reads3_8 a = true → i a = i' a) → cc3_transform_8 i = cc3_transform_8 i'
  hinb3_8 : ∀ (i : grid3.Coords) a, (cc3_transform_8 i a + 1) * S1x64.size a ≤ S1x64.size a
  hwx3_8 : ∀ i : grid3.Coords, EltTy.bits .f32 = 32 ∨ (Rect.block (s := S1x64) S1x64.size (cc3_transform_8 i) (hinb3_8 i)).WholeWords (EltTy.packing .f32)
  hstage3_9 : ∀ j, (stage3_9 j).IsWhole
  nbuf3_9 : grid3.bufCount reads3_9 false = 2
  hreads3_9 : ∀ i i' : grid3.Coords, (∀ a, reads3_9 a = true → i a = i' a) → cc3_transform_9 i = cc3_transform_9 i'
  hinb3_9 : ∀ (i : grid3.Coords) a, (cc3_transform_9 i a + 1) * S5000x64.size a ≤ S50000x64.size a
  hwx3_9 : ∀ i : grid3.Coords, EltTy.bits .f32 = 32 ∨ (Rect.block (s := S50000x64) S5000x64.size (cc3_transform_9 i) (hinb3_9 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x64.size a ≤ S50000x64.size a
  hwx4_0 : ∀ i : grid4.Coords, EltTy.bits .f32 = 32 ∨ (Rect.block (s := S50000x64) S5000x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S64x32.size a ≤ S64x32.size a
  hwx4_1 : ∀ i : grid4.Coords, EltTy.bits .f32 = 32 ∨ (Rect.block (s := S64x32) S64x32.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x32.size a ≤ S50000x32.size a
  hwx4_2 : ∀ i : grid4.Coords, EltTy.bits .f32 = 32 ∨ (Rect.block (s := S50000x32) S5000x32.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x64.size a ≤ S50000x64.size a
  hwx5_0 : ∀ i : grid5.Coords, EltTy.bits .f32 = 32 ∨ (Rect.block (s := S50000x64) S5000x64.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S5000x32.size a ≤ S50000x32.size a
  hwx5_1 : ∀ i : grid5.Coords, EltTy.bits .f32 = 32 ∨ (Rect.block (s := S50000x32) S5000x32.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x32.size a ≤ S1x32.size a
  hwx5_2 : ∀ i : grid5.Coords, EltTy.bits .f32 = 32 ∨ (Rect.block (s := S1x32) S1x32.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x32.size a ≤ S1x32.size a
  hwx5_3 : ∀ i : grid5.Coords, EltTy.bits .f32 = 32 ∨ (Rect.block (s := S1x32) S1x32.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x32.size a ≤ S1x32.size a
  hwx5_4 : ∀ i : grid5.Coords, EltTy.bits .f32 = 32 ∨ (Rect.block (s := S1x32) S1x32.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S1x32.size a ≤ S1x32.size a
  hwx5_5 : ∀ i : grid5.Coords, EltTy.bits .f32 = 32 ∨ (Rect.block (s := S1x32) S1x32.size (cc5_transform_5 i) (hinb5_5 i)).WholeWords (EltTy.packing .f32)
  hstage5_6 : ∀ j, (stage5_6 j).IsWhole
  nbuf5_6 : grid5.bufCount reads5_6 true = 1
  hreads5_6 : ∀ i i' : grid5.Coords, (∀ a, reads5_6 a = true → i a = i' a) → cc5_transform_6 i = cc5_transform_6 i'
  hinb5_6 : ∀ (i : grid5.Coords) a, (cc5_transform_6 i a + 1) * S1x32.size a ≤ S1x32.size a
  hwx5_6 : ∀ i : grid5.Coords, EltTy.bits .f32 = 32 ∨ (Rect.block (s := S1x32) S1x32.size (cc5_transform_6 i) (hinb5_6 i)).WholeWords (EltTy.packing .f32)
  hstage5_7 : ∀ j, (stage5_7 j).IsWhole
  nbuf5_7 : grid5.bufCount reads5_7 true = 1
  hreads5_7 : ∀ i i' : grid5.Coords, (∀ a, reads5_7 a = true → i a = i' a) → cc5_transform_7 i = cc5_transform_7 i'
  hinb5_7 : ∀ (i : grid5.Coords) a, (cc5_transform_7 i a + 1) * S64x32.size a ≤ S64x32.size a
  hwx5_7 : ∀ i : grid5.Coords, EltTy.bits .f32 = 32 ∨ (Rect.block (s := S64x32) S64x32.size (cc5_transform_7 i) (hinb5_7 i)).WholeWords (EltTy.packing .f32)
  hstage5_8 : ∀ j, (stage5_8 j).IsWhole
  nbuf5_8 : grid5.bufCount reads5_8 true = 1
  hreads5_8 : ∀ i i' : grid5.Coords, (∀ a, reads5_8 a = true → i a = i' a) → cc5_transform_8 i = cc5_transform_8 i'
  hinb5_8 : ∀ (i : grid5.Coords) a, (cc5_transform_8 i a + 1) * S1x32.size a ≤ S1x32.size a
  hwx5_8 : ∀ i : grid5.Coords, EltTy.bits .f32 = 32 ∨ (Rect.block (s := S1x32) S1x32.size (cc5_transform_8 i) (hinb5_8 i)).WholeWords (EltTy.packing .f32)
  hstage5_9 : ∀ j, (stage5_9 j).IsWhole
  nbuf5_9 : grid5.bufCount reads5_9 false = 2
  hreads5_9 : ∀ i i' : grid5.Coords, (∀ a, reads5_9 a = true → i a = i' a) → cc5_transform_9 i = cc5_transform_9 i'
  hinb5_9 : ∀ (i : grid5.Coords) a, (cc5_transform_9 i a + 1) * S5000x32.size a ≤ S50000x32.size a
  hwx5_9 : ∀ i : grid5.Coords, EltTy.bits .f32 = 32 ∨ (Rect.block (s := S50000x32) S5000x32.size (cc5_transform_9 i) (hinb5_9 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S5000x64_S64x32_S5000x32_1_0_0_1_n_n : DotDims S5000x64 S64x32 S5000x32 where
  lhsContracting := [1]
  rhsContracting := [0]
  lhsNonContracting := [0]
  rhsNonContracting := [1]
  lhsBatch := []
  rhsBatch := []
  wf := dot_S5000x64_S64x32_S5000x32_1_0_0_1_n_n_wf
def gather_S50000x32_S800000x1_S800000x32_1_0_n_n_0_1_132 : GatherDims S50000x32 S800000x1 S800000x32 where
  offsetDims := [1]
  collapsedSliceDims := [0]
  operandBatchingDims := []
  startIndicesBatchingDims := []
  startIndexMap := [0]
  indexVectorDim := 1
  sliceSizes := ![1, 32]
  wf := gather_S50000x32_S800000x1_S800000x32_1_0_n_n_0_1_132_wf
def scatter_S50000x32_S800000x1_S800000x32_1_0_0_1 : ScatterDims S50000x32 S800000x1 S800000x32 where
  updateWindowDims := [1]
  insertedWindowDims := [0]
  scatterDimsToOperandDims := [0]
  indexVectorDim := 1
  wf := scatter_S50000x32_S800000x1_S800000x32_1_0_0_1_wf
def dot_S50000x32_S32x16_S50000x16_1_0_0_1_n_n : DotDims S50000x32 S32x16 S50000x16 where
  lhsContracting := [1]
  rhsContracting := [0]
  lhsNonContracting := [0]
  rhsNonContracting := [1]
  lhsBatch := []
  rhsBatch := []
  wf := dot_S50000x32_S32x16_S50000x16_1_0_0_1_n_n_wf
def dot_S50000x16_S16x2_S50000x2_1_0_0_1_n_n : DotDims S50000x16 S16x2 S50000x2 where
  lhsContracting := [1]
  rhsContracting := [0]
  lhsNonContracting := [0]
  rhsNonContracting := [1]
  lhsBatch := []
  rhsBatch := []
  wf := dot_S50000x16_S16x2_S50000x2_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v11) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg0) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v45) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v46) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v47) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v48) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v49) S1x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v50) S5000x128.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev win2_0 : Pipeline.Window sig grid2 :=
  Pipeline.Window.ofSpec (Memref.whole main_v50) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg8) S128x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v51) S5000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v50) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v84) S5000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v85) S1x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v86) S1x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v87) S1x64.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v88) S1x64.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v89) S1x64.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_arg14) S128x64.size cc3_transform_7 reads3_7 false true 1 stage3_7 sem3_7
    hrank3 hreads3_7 hinb3_7 nbuf3_7 (Memref.isWhole_whole _) hwx3_7 hstage3_7

abbrev win3_8 : Pipeline.Window sig grid3 :=
  Pipeline.Window.ofSpec (Memref.whole main_v90) S1x64.size cc3_transform_8 reads3_8 false true 1 stage3_8 sem3_8
    hrank3 hreads3_8 hinb3_8 nbuf3_8 (Memref.isWhole_whole _) hwx3_8 hstage3_8

abbrev win3_9 : Pipeline.Window sig grid3 :=
  Pipeline.Window.ofSpec (Memref.whole main_v91) S5000x64.size cc3_transform_9 reads3_9 true false 2 stage3_9 sem3_9
    hrank3 hreads3_9 hinb3_9 nbuf3_9 (Memref.isWhole_whole _) hwx3_9 hstage3_9

abbrev win3 : Fin 10 → Pipeline.Window sig grid3 := fun | 0 => win3_0 | 1 => win3_1 | 2 => win3_2 | 3 => win3_3 | 4 => win3_4 | 5 => win3_5 | 6 => win3_6 | 7 => win3_7 | 8 => win3_8 | 9 => win3_9 | ⟨_ + 10, h⟩ => absurd h (Nat.not_lt.2 (Nat.le_add_left _ _))
abbrev spec3 : Fin 10 → Pipeline.WinSpec sig grid3.rank := fun w => (win3 w).toWinSpec

abbrev win4_0 : Pipeline.Window sig grid4 :=
  Pipeline.Window.ofSpec (Memref.whole main_v91) S5000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg16) S64x32.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v92) S5000x32.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v91) S5000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v125) S5000x32.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v126) S1x32.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v127) S1x32.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v128) S1x32.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v129) S1x32.size cc5_transform_5 reads5_5 false true 1 stage5_5 sem5_5
    hrank5 hreads5_5 hinb5_5 nbuf5_5 (Memref.isWhole_whole _) hwx5_5 hstage5_5

abbrev win5_6 : Pipeline.Window sig grid5 :=
  Pipeline.Window.ofSpec (Memref.whole main_v130) S1x32.size cc5_transform_6 reads5_6 false true 1 stage5_6 sem5_6
    hrank5 hreads5_6 hinb5_6 nbuf5_6 (Memref.isWhole_whole _) hwx5_6 hstage5_6

abbrev win5_7 : Pipeline.Window sig grid5 :=
  Pipeline.Window.ofSpec (Memref.whole main_arg22) S64x32.size cc5_transform_7 reads5_7 false true 1 stage5_7 sem5_7
    hrank5 hreads5_7 hinb5_7 nbuf5_7 (Memref.isWhole_whole _) hwx5_7 hstage5_7

abbrev win5_8 : Pipeline.Window sig grid5 :=
  Pipeline.Window.ofSpec (Memref.whole main_v131) S1x32.size cc5_transform_8 reads5_8 false true 1 stage5_8 sem5_8
    hrank5 hreads5_8 hinb5_8 nbuf5_8 (Memref.isWhole_whole _) hwx5_8 hstage5_8

abbrev win5_9 : Pipeline.Window sig grid5 :=
  Pipeline.Window.ofSpec (Memref.whole main_v132) S5000x32.size cc5_transform_9 reads5_9 true false 2 stage5_9 sem5_9
    hrank5 hreads5_9 hinb5_9 nbuf5_9 (Memref.isWhole_whole _) hwx5_9 hstage5_9

abbrev win5 : Fin 10 → Pipeline.Window sig grid5 := fun | 0 => win5_0 | 1 => win5_1 | 2 => win5_2 | 3 => win5_3 | 4 => win5_4 | 5 => win5_5 | 6 => win5_6 | 7 => win5_7 | 8 => win5_8 | 9 => win5_9 | ⟨_ + 10, h⟩ => absurd h (Nat.not_lt.2 (Nat.le_add_left _ _))
abbrev spec5 : Fin 10 → Pipeline.WinSpec sig grid5.rank := fun w => (win5 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S64x32 : Shape := ⟨2, ![64, 32]⟩
abbrev S32 : Shape := ⟨1, ![32]⟩
abbrev S32x16 : Shape := ⟨2, ![32, 16]⟩
abbrev S16 : Shape := ⟨1, ![16]⟩
abbrev S16x2 : Shape := ⟨2, ![16, 2]⟩
abbrev S2 : Shape := ⟨1, ![2]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S800000x128 : Shape := ⟨2, ![800000, 128]⟩
abbrev S50000x1 : Shape := ⟨2, ![50000, 1]⟩
abbrev S1x128 : Shape := ⟨2, ![1, 128]⟩
abbrev S50000x64 : Shape := ⟨2, ![50000, 64]⟩
abbrev S1x64 : Shape := ⟨2, ![1, 64]⟩
abbrev S800000x64 : Shape := ⟨2, ![800000, 64]⟩
abbrev S50000x32 : Shape := ⟨2, ![50000, 32]⟩
abbrev S1x32 : Shape := ⟨2, ![1, 32]⟩
abbrev S800000x32 : Shape := ⟨2, ![800000, 32]⟩
abbrev S50000x16 : Shape := ⟨2, ![50000, 16]⟩
abbrev S1x16 : Shape := ⟨2, ![1, 16]⟩
abbrev S50000x2 : Shape := ⟨2, ![50000, 2]⟩
abbrev S1x2 : Shape := ⟨2, ![1, 2]⟩

abbrev nBuf : Space → Nat
  | .hbm => 288
  | .vmem => 0
  | .smem => 0
  | _ => 0

abbrev hbmTy0_0 (i : Nat) : BufTy := match i % 128 with
  | 0 => ⟨S50000x128, .f32⟩
  | 1 => ⟨S2x800000, .i32⟩
  | 2 => ⟨S128x128, .f32⟩
  | 3 => ⟨S128, .f32⟩
  | 4 => ⟨S128, .f32⟩
  | 5 => ⟨S128, .f32⟩
  | 6 => ⟨S128, .f32⟩
  | 7 => ⟨S128, .f32⟩
  | 8 => ⟨S128x64, .f32⟩
  | 9 => ⟨S64, .f32⟩
  | 10 => ⟨S64, .f32⟩
  | 11 => ⟨S64, .f32⟩
  | 12 => ⟨S64, .f32⟩
  | 13 => ⟨S64, .f32⟩
  | 14 => ⟨S128x64, .f32⟩
  | 15 => ⟨S64, .f32⟩
  | 16 => ⟨S64x32, .f32⟩
  | 17 => ⟨S32, .f32⟩
  | 18 => ⟨S32, .f32⟩
  | 19 => ⟨S32, .f32⟩
  | 20 => ⟨S32, .f32⟩
  | 21 => ⟨S32, .f32⟩
  | 22 => ⟨S64x32, .f32⟩
  | 23 => ⟨S32, .f32⟩
  | 24 => ⟨S32x16, .f32⟩
  | 25 => ⟨S16, .f32⟩
  | 26 => ⟨S16x2, .f32⟩
  | 27 => ⟨S2, .f32⟩
  | 28 => ⟨S1x800000, .i32⟩
  | 29 => ⟨S800000, .i32⟩
  | 30 => ⟨S1x800000, .i32⟩
  | 31 => ⟨S800000, .i32⟩
  | 32 => ⟨S50000x128, .f32⟩
  | 33 => ⟨S_, .f32⟩
  | 34 => ⟨S800000, .f32⟩
  | 35 => ⟨S_, .f32⟩
  | 36 => ⟨S50000, .f32⟩
  | 37 => ⟨S800000x1, .i32⟩
  | 38 => ⟨S50000, .f32⟩
  | 39 => ⟨S_, .f32⟩
  | 40 => ⟨S50000, .f32⟩
  | 41 => ⟨S50000, .f32⟩
  | 42 => ⟨S50000, .f32⟩
  | 43 => ⟨S_, .i32⟩
  | 44 => ⟨S800000, .i32⟩
  | 45 => ⟨S800000, .i1⟩
  | 46 => ⟨S_, .i32⟩
  | 47 => ⟨S800000, .i32⟩
  | 48 => ⟨S800000, .i32⟩
  | 49 => ⟨S800000, .i32⟩
  | 50 => ⟨S800000x1, .i32⟩
  | 51 => ⟨S800000, .f32⟩
  | 52 => ⟨S_, .i32⟩
  | 53 => ⟨S800000, .i32⟩
  | 54 => ⟨S800000, .i1⟩
  | 55 => ⟨S_, .i32⟩
  | 56 => ⟨S800000, .i32⟩
  | 57 => ⟨S800000, .i32⟩
  | 58 => ⟨S800000, .i32⟩
  | 59 => ⟨S800000x1, .i32⟩
  | 60 => ⟨S800000, .f32⟩
  | 61 => ⟨S800000, .f32⟩
  | 62 => ⟨S_, .i32⟩
  | 63 => ⟨S800000, .i32⟩
  | 64 => ⟨S800000, .i1⟩
  | 65 => ⟨S_, .i32⟩
  | 66 => ⟨S800000, .i32⟩
  | 67 => ⟨S800000, .i32⟩
  | 68 => ⟨S800000, .i32⟩
  | 69 => ⟨S800000x1, .i32⟩
  | 70 => ⟨S800000x128, .f32⟩
  | 71 => ⟨S800000x1, .f32⟩
  | 72 => ⟨S800000x128, .f32⟩
  | 73 => ⟨S800000x128, .f32⟩
  | 74 => ⟨S_, .f32⟩
  | 75 => ⟨S50000x128, .f32⟩
  | 76 => ⟨S800000x1, .i32⟩
  | 77 => ⟨S50000x128, .f32⟩
  | 78 => ⟨S50000, .f32⟩
  | 79 => ⟨S50000x1, .f32⟩
  | 80 => ⟨S50000x128, .f32⟩
  | 81 => ⟨S50000x128, .f32⟩
  | 82 => ⟨S50000x128, .f32⟩
  | 83 => ⟨S1x128, .f32⟩
  | 84 => ⟨S50000x128, .f32⟩
  | 85 => ⟨S50000x128, .f32⟩
  | 86 => ⟨S1x128, .f32⟩
  | 87 => ⟨S50000x128, .f32⟩
  | 88 => ⟨S50000x128, .f32⟩
  | 89 => ⟨S_, .f32⟩
  | 90 => ⟨S128, .f32⟩
  | 91 => ⟨S128, .f32⟩
  | 92 => ⟨S128, .f32⟩
  | 93 => ⟨S1x128, .f32⟩
  | 94 => ⟨S50000x128, .f32⟩
  | 95 => ⟨S50000x128, .f32⟩
  | 96 => ⟨S1x128, .f32⟩
  | 97 => ⟨S50000x128, .f32⟩
  | 98 => ⟨S50000x128, .f32⟩
  | 99 => ⟨S1x128, .f32⟩
  | 100 => ⟨S50000x128, .f32⟩
  | 101 => ⟨S50000x128, .f32⟩
  | 102 => ⟨S_, .f32⟩
  | 103 => ⟨S50000x128, .f32⟩
  | 104 => ⟨S50000x128, .f32⟩
  | 105 => ⟨S50000x128, .f32⟩
  | 106 => ⟨S50000x64, .f32⟩
  | 107 => ⟨S1x64, .f32⟩
  | 108 => ⟨S50000x64, .f32⟩
  | 109 => ⟨S50000x64, .f32⟩
  | 110 => ⟨S50000x64, .f32⟩
  | 111 => ⟨S_, .f32⟩
  | 112 => ⟨S800000, .f32⟩
  | 113 => ⟨S_, .f32⟩
  | 114 => ⟨S50000, .f32⟩
  | 115 => ⟨S800000x1, .i32⟩
  | 116 => ⟨S50000, .f32⟩
  | 117 => ⟨S_, .f32⟩
  | 118 => ⟨S50000, .f32⟩
  | 119 => ⟨S50000, .f32⟩
  | 120 => ⟨S50000, .f32⟩
  | 121 => ⟨S_, .i32⟩
  | 122 => ⟨S800000, .i32⟩
  | 123 => ⟨S800000, .i1⟩
  | 124 => ⟨S_, .i32⟩
  | 125 => ⟨S800000, .i32⟩
  | 126 => ⟨S800000, .i32⟩
  | 127 => ⟨S800000, .i32⟩
  | _ => ⟨S50000x128, .f32⟩

abbrev hbmTy0_1 (i : Nat) : BufTy := match i % 128 with
  | 0 => ⟨S800000x1, .i32⟩
  | 1 => ⟨S800000, .f32⟩
  | 2 => ⟨S_, .i32⟩
  | 3 => ⟨S800000, .i32⟩
  | 4 => ⟨S800000, .i1⟩
  | 5 => ⟨S_, .i32⟩
  | 6 => ⟨S800000, .i32⟩
  | 7 => ⟨S800000, .i32⟩
  | 8 => ⟨S800000, .i32⟩
  | 9 => ⟨S800000x1, .i32⟩
  | 10 => ⟨S800000, .f32⟩
  | 11 => ⟨S800000, .f32⟩
  | 12 => ⟨S_, .i32⟩
  | 13 => ⟨S800000, .i32⟩
  | 14 => ⟨S800000, .i1⟩
  | 15 => ⟨S_, .i32⟩
  | 16 => ⟨S800000, .i32⟩
  | 17 => ⟨S800000, .i32⟩
  | 18 => ⟨S800000, .i32⟩
  | 19 => ⟨S800000x1, .i32⟩
  | 20 => ⟨S800000x64, .f32⟩
  | 21 => ⟨S800000x1, .f32⟩
  | 22 => ⟨S800000x64, .f32⟩
  | 23 => ⟨S800000x64, .f32⟩
  | 24 => ⟨S_, .f32⟩
  | 25 => ⟨S50000x64, .f32⟩
  | 26 => ⟨S800000x1, .i32⟩
  | 27 => ⟨S50000x64, .f32⟩
  | 28 => ⟨S50000, .f32⟩
  | 29 => ⟨S50000x1, .f32⟩
  | 30 => ⟨S50000x64, .f32⟩
  | 31 => ⟨S50000x64, .f32⟩
  | 32 => ⟨S50000x64, .f32⟩
  | 33 => ⟨S1x64, .f32⟩
  | 34 => ⟨S50000x64, .f32⟩
  | 35 => ⟨S50000x64, .f32⟩
  | 36 => ⟨S1x64, .f32⟩
  | 37 => ⟨S50000x64, .f32⟩
  | 38 => ⟨S50000x64, .f32⟩
  | 39 => ⟨S_, .f32⟩
  | 40 => ⟨S64, .f32⟩
  | 41 => ⟨S64, .f32⟩
  | 42 => ⟨S64, .f32⟩
  | 43 => ⟨S1x64, .f32⟩
  | 44 => ⟨S50000x64, .f32⟩
  | 45 => ⟨S50000x64, .f32⟩
  | 46 => ⟨S1x64, .f32⟩
  | 47 => ⟨S50000x64, .f32⟩
  | 48 => ⟨S50000x64, .f32⟩
  | 49 => ⟨S1x64, .f32⟩
  | 50 => ⟨S50000x64, .f32⟩
  | 51 => ⟨S50000x64, .f32⟩
  | 52 => ⟨S_, .f32⟩
  | 53 => ⟨S50000x64, .f32⟩
  | 54 => ⟨S50000x64, .f32⟩
  | 55 => ⟨S50000x64, .f32⟩
  | 56 => ⟨S50000x32, .f32⟩
  | 57 => ⟨S1x32, .f32⟩
  | 58 => ⟨S50000x32, .f32⟩
  | 59 => ⟨S50000x32, .f32⟩
  | 60 => ⟨S50000x32, .f32⟩
  | 61 => ⟨S_, .f32⟩
  | 62 => ⟨S800000, .f32⟩
  | 63 => ⟨S_, .f32⟩
  | 64 => ⟨S50000, .f32⟩
  | 65 => ⟨S800000x1, .i32⟩
  | 66 => ⟨S50000, .f32⟩
  | 67 => ⟨S_, .f32⟩
  | 68 => ⟨S50000, .f32⟩
  | 69 => ⟨S50000, .f32⟩
  | 70 => ⟨S50000, .f32⟩
  | 71 => ⟨S_, .i32⟩
  | 72 => ⟨S800000, .i32⟩
  | 73 => ⟨S800000, .i1⟩
  | 74 => ⟨S_, .i32⟩
  | 75 => ⟨S800000, .i32⟩
  | 76 => ⟨S800000, .i32⟩
  | 77 => ⟨S800000, .i32⟩
  | 78 => ⟨S800000x1, .i32⟩
  | 79 => ⟨S800000, .f32⟩
  | 80 => ⟨S_, .i32⟩
  | 81 => ⟨S800000, .i32⟩
  | 82 => ⟨S800000, .i1⟩
  | 83 => ⟨S_, .i32⟩
  | 84 => ⟨S800000, .i32⟩
  | 85 => ⟨S800000, .i32⟩
  | 86 => ⟨S800000, .i32⟩
  | 87 => ⟨S800000x1, .i32⟩
  | 88 => ⟨S800000, .f32⟩
  | 89 => ⟨S800000, .f32⟩
  | 90 => ⟨S_, .i32⟩
  | 91 => ⟨S800000, .i32⟩
  | 92 => ⟨S800000, .i1⟩
  | 93 => ⟨S_, .i32⟩
  | 94 => ⟨S800000, .i32⟩
  | 95 => ⟨S800000, .i32⟩
  | 96 => ⟨S800000, .i32⟩
  | 97 => ⟨S800000x1, .i32⟩
  | 98 => ⟨S800000x32, .f32⟩
  | 99 => ⟨S800000x1, .f32⟩
  | 100 => ⟨S800000x32, .f32⟩
  | 101 => ⟨S800000x32, .f32⟩
  | 102 => ⟨S_, .f32⟩
  | 103 => ⟨S50000x32, .f32⟩
  | 104 => ⟨S800000x1, .i32⟩
  | 105 => ⟨S50000x32, .f32⟩
  | 106 => ⟨S50000, .f32⟩
  | 107 => ⟨S50000x1, .f32⟩
  | 108 => ⟨S50000x32, .f32⟩
  | 109 => ⟨S50000x32, .f32⟩
  | 110 => ⟨S50000x32, .f32⟩
  | 111 => ⟨S1x32, .f32⟩
  | 112 => ⟨S50000x32, .f32⟩
  | 113 => ⟨S50000x32, .f32⟩
  | 114 => ⟨S1x32, .f32⟩
  | 115 => ⟨S50000x32, .f32⟩
  | 116 => ⟨S50000x32, .f32⟩
  | 117 => ⟨S_, .f32⟩
  | 118 => ⟨S32, .f32⟩
  | 119 => ⟨S32, .f32⟩
  | 120 => ⟨S32, .f32⟩
  | 121 => ⟨S1x32, .f32⟩
  | 122 => ⟨S50000x32, .f32⟩
  | 123 => ⟨S50000x32, .f32⟩
  | 124 => ⟨S1x32, .f32⟩
  | 125 => ⟨S50000x32, .f32⟩
  | 126 => ⟨S50000x32, .f32⟩
  | 127 => ⟨S1x32, .f32⟩
  | _ => ⟨S50000x128, .f32⟩

abbrev hbmTy0_2 (i : Nat) : BufTy := match i % 128 with
  | 0 => ⟨S50000x32, .f32⟩
  | 1 => ⟨S50000x32, .f32⟩
  | 2 => ⟨S_, .f32⟩
  | 3 => ⟨S50000x32, .f32⟩
  | 4 => ⟨S50000x32, .f32⟩
  | 5 => ⟨S50000x32, .f32⟩
  | 6 => ⟨S50000x16, .f32⟩
  | 7 => ⟨S1x16, .f32⟩
  | 8 => ⟨S50000x16, .f32⟩
  | 9 => ⟨S50000x16, .f32⟩
  | 10 => ⟨S_, .f32⟩
  | 11 => ⟨S50000x16, .f32⟩
  | 12 => ⟨S50000x16, .f32⟩
  | 13 => ⟨S50000x2, .f32⟩
  | 14 => ⟨S1x2, .f32⟩
  | 15 => ⟨S50000x2, .f32⟩
  | 16 => ⟨S50000x2, .f32⟩
  | 17 => ⟨S_, .f32⟩
  | 18 => ⟨S50000, .f32⟩
  | 19 => ⟨S_, .f32⟩
  | 20 => ⟨S50000, .f32⟩
  | 21 => ⟨S50000, .f32⟩
  | 22 => ⟨S50000x1, .f32⟩
  | 23 => ⟨S50000x2, .f32⟩
  | 24 => ⟨S50000x2, .f32⟩
  | 25 => ⟨S50000x2, .f32⟩
  | 26 => ⟨S_, .f32⟩
  | 27 => ⟨S50000, .f32⟩
  | 28 => ⟨S50000x1, .f32⟩
  | 29 => ⟨S50000x1, .f32⟩
  | 30 => ⟨S50000x2, .f32⟩
  | 31 => ⟨S50000x2, .f32⟩
  | _ => ⟨S50000x128, .f32⟩

abbrev hbmTy (i : Nat) : BufTy := match i / 128 with
  | 0 => hbmTy0_0 i
  | 1 => hbmTy0_1 i
  | 2 => hbmTy0_2 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_v0 : Ref sig .tc := ⟨.hbm, 28, rfl⟩
abbrev main_v1 : Ref sig .tc := ⟨.hbm, 29, rfl⟩
abbrev main_v2 : Ref sig .tc := ⟨.hbm, 30, rfl⟩
abbrev main_v3 : Ref sig .tc := ⟨.hbm, 31, rfl⟩
abbrev main_v4 : Ref sig .tc := ⟨.hbm, 32, rfl⟩
abbrev main_cst : Ref sig .tc := ⟨.hbm, 33, rfl⟩
abbrev main_v5 : Ref sig .tc := ⟨.hbm, 34, rfl⟩
abbrev main_cst_0 : Ref sig .tc := ⟨.hbm, 35, rfl⟩
abbrev main_v6 : Ref sig .tc := ⟨.hbm, 36, rfl⟩
abbrev main_v7 : Ref sig .tc := ⟨.hbm, 37, rfl⟩
abbrev main_v8 : Ref sig .tc := ⟨.hbm, 38, rfl⟩
abbrev main_cst_1 : Ref sig .tc := ⟨.hbm, 39, rfl⟩
abbrev main_v9 : Ref sig .tc := ⟨.hbm, 40, rfl⟩
abbrev main_v10 : Ref sig .tc := ⟨.hbm, 41, rfl⟩
abbrev main_v11 : Ref sig .tc := ⟨.hbm, 42, rfl⟩
abbrev main_c : Ref sig .tc := ⟨.hbm, 43, rfl⟩
abbrev main_v12 : Ref sig .tc := ⟨.hbm, 44, rfl⟩
abbrev main_v13 : Ref sig .tc := ⟨.hbm, 45, rfl⟩
abbrev main_c_2 : Ref sig .tc := ⟨.hbm, 46, rfl⟩
abbrev main_v14 : Ref sig .tc := ⟨.hbm, 47, rfl⟩
abbrev main_v15 : Ref sig .tc := ⟨.hbm, 48, rfl⟩
abbrev main_v16 : Ref sig .tc := ⟨.hbm, 49, rfl⟩
abbrev main_v17 : Ref sig .tc := ⟨.hbm, 50, rfl⟩
abbrev main_v18 : Ref sig .tc := ⟨.hbm, 51, rfl⟩
abbrev main_c_3 : Ref sig .tc := ⟨.hbm, 52, rfl⟩
abbrev main_v19 : Ref sig .tc := ⟨.hbm, 53, rfl⟩
abbrev main_v20 : Ref sig .tc := ⟨.hbm, 54, rfl⟩
abbrev main_c_4 : Ref sig .tc := ⟨.hbm, 55, rfl⟩
abbrev main_v21 : Ref sig .tc := ⟨.hbm, 56, rfl⟩
abbrev main_v22 : Ref sig .tc := ⟨.hbm, 57, rfl⟩
abbrev main_v23 : Ref sig .tc := ⟨.hbm, 58, rfl⟩
abbrev main_v24 : Ref sig .tc := ⟨.hbm, 59, rfl⟩
abbrev main_v25 : Ref sig .tc := ⟨.hbm, 60, rfl⟩
abbrev main_v26 : Ref sig .tc := ⟨.hbm, 61, rfl⟩
abbrev main_c_5 : Ref sig .tc := ⟨.hbm, 62, rfl⟩
abbrev main_v27 : Ref sig .tc := ⟨.hbm, 63, rfl⟩
abbrev main_v28 : Ref sig .tc := ⟨.hbm, 64, rfl⟩
abbrev main_c_6 : Ref sig .tc := ⟨.hbm, 65, rfl⟩
abbrev main_v29 : Ref sig .tc := ⟨.hbm, 66, rfl⟩
abbrev main_v30 : Ref sig .tc := ⟨.hbm, 67, rfl⟩
abbrev main_v31 : Ref sig .tc := ⟨.hbm, 68, rfl⟩
abbrev main_v32 : Ref sig .tc := ⟨.hbm, 69, rfl⟩
abbrev main_v33 : Ref sig .tc := ⟨.hbm, 70, rfl⟩
abbrev main_v34 : Ref sig .tc := ⟨.hbm, 71, rfl⟩
abbrev main_v35 : Ref sig .tc := ⟨.hbm, 72, rfl⟩
abbrev main_v36 : Ref sig .tc := ⟨.hbm, 73, rfl⟩
abbrev main_cst_7 : Ref sig .tc := ⟨.hbm, 74, rfl⟩
abbrev main_v37 : Ref sig .tc := ⟨.hbm, 75, rfl⟩
abbrev main_v38 : Ref sig .tc := ⟨.hbm, 76, rfl⟩
abbrev main_v39 : Ref sig .tc := ⟨.hbm, 77, rfl⟩
abbrev main_v40 : Ref sig .tc := ⟨.hbm, 78, rfl⟩
abbrev main_v41 : Ref sig .tc := ⟨.hbm, 79, rfl⟩
abbrev main_v42 : Ref sig .tc := ⟨.hbm, 80, rfl⟩
abbrev main_v43 : Ref sig .tc := ⟨.hbm, 81, rfl⟩
abbrev main_v44 : Ref sig .tc := ⟨.hbm, 82, rfl⟩
abbrev main_v45 : Ref sig .tc := ⟨.hbm, 83, rfl⟩
abbrev main_v46 : Ref sig .tc := ⟨.hbm, 84, rfl⟩
abbrev main_v47 : Ref sig .tc := ⟨.hbm, 85, rfl⟩
abbrev main_v48 : Ref sig .tc := ⟨.hbm, 86, rfl⟩
abbrev main_v49 : Ref sig .tc := ⟨.hbm, 87, rfl⟩
abbrev main_v50 : Ref sig .tc := ⟨.hbm, 88, rfl⟩
abbrev main_cst_8 : Ref sig .tc := ⟨.hbm, 89, rfl⟩
abbrev main_v51 : Ref sig .tc := ⟨.hbm, 90, rfl⟩
abbrev main_v52 : Ref sig .tc := ⟨.hbm, 91, rfl⟩
abbrev main_v53 : Ref sig .tc := ⟨.hbm, 92, rfl⟩
abbrev main_v54 : Ref sig .tc := ⟨.hbm, 93, rfl⟩
abbrev main_v55 : Ref sig .tc := ⟨.hbm, 94, rfl⟩
abbrev main_v56 : Ref sig .tc := ⟨.hbm, 95, rfl⟩
abbrev main_v57 : Ref sig .tc := ⟨.hbm, 96, rfl⟩
abbrev main_v58 : Ref sig .tc := ⟨.hbm, 97, rfl⟩
abbrev main_v59 : Ref sig .tc := ⟨.hbm, 98, rfl⟩
abbrev main_v60 : Ref sig .tc := ⟨.hbm, 99, rfl⟩
abbrev main_v61 : Ref sig .tc := ⟨.hbm, 100, rfl⟩
abbrev main_v62 : Ref sig .tc := ⟨.hbm, 101, rfl⟩
abbrev main_call0_cst : Ref sig .tc := ⟨.hbm, 102, rfl⟩
abbrev main_call0_v0 : Ref sig .tc := ⟨.hbm, 103, rfl⟩
abbrev main_v63 : Ref sig .tc := ⟨.hbm, 104, rfl⟩
abbrev main_v64 : Ref sig .tc := ⟨.hbm, 105, rfl⟩
abbrev main_v65 : Ref sig .tc := ⟨.hbm, 106, rfl⟩
abbrev main_v66 : Ref sig .tc := ⟨.hbm, 107, rfl⟩
abbrev main_v67 : Ref sig .tc := ⟨.hbm, 108, rfl⟩
abbrev main_v68 : Ref sig .tc := ⟨.hbm, 109, rfl⟩
abbrev main_v69 : Ref sig .tc := ⟨.hbm, 110, rfl⟩
abbrev main_cst_9 : Ref sig .tc := ⟨.hbm, 111, rfl⟩
abbrev main_v70 : Ref sig .tc := ⟨.hbm, 112, rfl⟩
abbrev main_cst_10 : Ref sig .tc := ⟨.hbm, 113, rfl⟩
abbrev main_v71 : Ref sig .tc := ⟨.hbm, 114, rfl⟩
abbrev main_v72 : Ref sig .tc := ⟨.hbm, 115, rfl⟩
abbrev main_v73 : Ref sig .tc := ⟨.hbm, 116, rfl⟩
abbrev main_cst_11 : Ref sig .tc := ⟨.hbm, 117, rfl⟩
abbrev main_v74 : Ref sig .tc := ⟨.hbm, 118, rfl⟩
abbrev main_v75 : Ref sig .tc := ⟨.hbm, 119, rfl⟩
abbrev main_v76 : Ref sig .tc := ⟨.hbm, 120, rfl⟩
abbrev main_c_12 : Ref sig .tc := ⟨.hbm, 121, rfl⟩
abbrev main_v77 : Ref sig .tc := ⟨.hbm, 122, rfl⟩
abbrev main_v78 : Ref sig .tc := ⟨.hbm, 123, rfl⟩
abbrev main_c_13 : Ref sig .tc := ⟨.hbm, 124, rfl⟩
abbrev main_v79 : Ref sig .tc := ⟨.hbm, 125, rfl⟩
abbrev main_v80 : Ref sig .tc := ⟨.hbm, 126, rfl⟩
abbrev main_v81 : Ref sig .tc := ⟨.hbm, 127, rfl⟩
abbrev main_v82 : Ref sig .tc := ⟨.hbm, 128, rfl⟩
abbrev main_v83 : Ref sig .tc := ⟨.hbm, 129, rfl⟩
abbrev main_c_14 : Ref sig .tc := ⟨.hbm, 130, rfl⟩
abbrev main_v84 : Ref sig .tc := ⟨.hbm, 131, rfl⟩
abbrev main_v85 : Ref sig .tc := ⟨.hbm, 132, rfl⟩
abbrev main_c_15 : Ref sig .tc := ⟨.hbm, 133, rfl⟩
abbrev main_v86 : Ref sig .tc := ⟨.hbm, 134, rfl⟩
abbrev main_v87 : Ref sig .tc := ⟨.hbm, 135, rfl⟩
abbrev main_v88 : Ref sig .tc := ⟨.hbm, 136, rfl⟩
abbrev main_v89 : Ref sig .tc := ⟨.hbm, 137, rfl⟩
abbrev main_v90 : Ref sig .tc := ⟨.hbm, 138, rfl⟩
abbrev main_v91 : Ref sig .tc := ⟨.hbm, 139, rfl⟩
abbrev main_c_16 : Ref sig .tc := ⟨.hbm, 140, rfl⟩
abbrev main_v92 : Ref sig .tc := ⟨.hbm, 141, rfl⟩
abbrev main_v93 : Ref sig .tc := ⟨.hbm, 142, rfl⟩
abbrev main_c_17 : Ref sig .tc := ⟨.hbm, 143, rfl⟩
abbrev main_v94 : Ref sig .tc := ⟨.hbm, 144, rfl⟩
abbrev main_v95 : Ref sig .tc := ⟨.hbm, 145, rfl⟩
abbrev main_v96 : Ref sig .tc := ⟨.hbm, 146, rfl⟩
abbrev main_v97 : Ref sig .tc := ⟨.hbm, 147, rfl⟩
abbrev main_v98 : Ref sig .tc := ⟨.hbm, 148, rfl⟩
abbrev main_v99 : Ref sig .tc := ⟨.hbm, 149, rfl⟩
abbrev main_v100 : Ref sig .tc := ⟨.hbm, 150, rfl⟩
abbrev main_v101 : Ref sig .tc := ⟨.hbm, 151, rfl⟩
abbrev main_cst_18 : Ref sig .tc := ⟨.hbm, 152, rfl⟩
abbrev main_v102 : Ref sig .tc := ⟨.hbm, 153, rfl⟩
abbrev main_v103 : Ref sig .tc := ⟨.hbm, 154, rfl⟩
abbrev main_v104 : Ref sig .tc := ⟨.hbm, 155, rfl⟩
abbrev main_v105 : Ref sig .tc := ⟨.hbm, 156, rfl⟩
abbrev main_v106 : Ref sig .tc := ⟨.hbm, 157, rfl⟩
abbrev main_v107 : Ref sig .tc := ⟨.hbm, 158, rfl⟩
abbrev main_v108 : Ref sig .tc := ⟨.hbm, 159, rfl⟩
abbrev main_v109 : Ref sig .tc := ⟨.hbm, 160, rfl⟩
abbrev main_v110 : Ref sig .tc := ⟨.hbm, 161, rfl⟩
abbrev main_v111 : Ref sig .tc := ⟨.hbm, 162, rfl⟩
abbrev main_v112 : Ref sig .tc := ⟨.hbm, 163, rfl⟩
abbrev main_v113 : Ref sig .tc := ⟨.hbm, 164, rfl⟩
abbrev main_v114 : Ref sig .tc := ⟨.hbm, 165, rfl⟩
abbrev main_v115 : Ref sig .tc := ⟨.hbm, 166, rfl⟩
abbrev main_cst_19 : Ref sig .tc := ⟨.hbm, 167, rfl⟩
abbrev main_v116 : Ref sig .tc := ⟨.hbm, 168, rfl⟩
abbrev main_v117 : Ref sig .tc := ⟨.hbm, 169, rfl⟩
abbrev main_v118 : Ref sig .tc := ⟨.hbm, 170, rfl⟩
abbrev main_v119 : Ref sig .tc := ⟨.hbm, 171, rfl⟩
abbrev main_v120 : Ref sig .tc := ⟨.hbm, 172, rfl⟩
abbrev main_v121 : Ref sig .tc := ⟨.hbm, 173, rfl⟩
abbrev main_v122 : Ref sig .tc := ⟨.hbm, 174, rfl⟩
abbrev main_v123 : Ref sig .tc := ⟨.hbm, 175, rfl⟩
abbrev main_v124 : Ref sig .tc := ⟨.hbm, 176, rfl⟩
abbrev main_v125 : Ref sig .tc := ⟨.hbm, 177, rfl⟩
abbrev main_v126 : Ref sig .tc := ⟨.hbm, 178, rfl⟩
abbrev main_v127 : Ref sig .tc := ⟨.hbm, 179, rfl⟩
abbrev main_call1_cst : Ref sig .tc := ⟨.hbm, 180, rfl⟩
abbrev main_call1_v0 : Ref sig .tc := ⟨.hbm, 181, rfl⟩
abbrev main_v128 : Ref sig .tc := ⟨.hbm, 182, rfl⟩
abbrev main_v129 : Ref sig .tc := ⟨.hbm, 183, rfl⟩
abbrev main_v130 : Ref sig .tc := ⟨.hbm, 184, rfl⟩
abbrev main_v131 : Ref sig .tc := ⟨.hbm, 185, rfl⟩
abbrev main_v132 : Ref sig .tc := ⟨.hbm, 186, rfl⟩
abbrev main_v133 : Ref sig .tc := ⟨.hbm, 187, rfl⟩
abbrev main_v134 : Ref sig .tc := ⟨.hbm, 188, rfl⟩
abbrev main_cst_20 : Ref sig .tc := ⟨.hbm, 189, rfl⟩
abbrev main_v135 : Ref sig .tc := ⟨.hbm, 190, rfl⟩
abbrev main_cst_21 : Ref sig .tc := ⟨.hbm, 191, rfl⟩
abbrev main_v136 : Ref sig .tc := ⟨.hbm, 192, rfl⟩
abbrev main_v137 : Ref sig .tc := ⟨.hbm, 193, rfl⟩
abbrev main_v138 : Ref sig .tc := ⟨.hbm, 194, rfl⟩
abbrev main_cst_22 : Ref sig .tc := ⟨.hbm, 195, rfl⟩
abbrev main_v139 : Ref sig .tc := ⟨.hbm, 196, rfl⟩
abbrev main_v140 : Ref sig .tc := ⟨.hbm, 197, rfl⟩
abbrev main_v141 : Ref sig .tc := ⟨.hbm, 198, rfl⟩
abbrev main_c_23 : Ref sig .tc := ⟨.hbm, 199, rfl⟩
abbrev main_v142 : Ref sig .tc := ⟨.hbm, 200, rfl⟩
abbrev main_v143 : Ref sig .tc := ⟨.hbm, 201, rfl⟩
abbrev main_c_24 : Ref sig .tc := ⟨.hbm, 202, rfl⟩
abbrev main_v144 : Ref sig .tc := ⟨.hbm, 203, rfl⟩
abbrev main_v145 : Ref sig .tc := ⟨.hbm, 204, rfl⟩
abbrev main_v146 : Ref sig .tc := ⟨.hbm, 205, rfl⟩
abbrev main_v147 : Ref sig .tc := ⟨.hbm, 206, rfl⟩
abbrev main_v148 : Ref sig .tc := ⟨.hbm, 207, rfl⟩
abbrev main_c_25 : Ref sig .tc := ⟨.hbm, 208, rfl⟩
abbrev main_v149 : Ref sig .tc := ⟨.hbm, 209, rfl⟩
abbrev main_v150 : Ref sig .tc := ⟨.hbm, 210, rfl⟩
abbrev main_c_26 : Ref sig .tc := ⟨.hbm, 211, rfl⟩
abbrev main_v151 : Ref sig .tc := ⟨.hbm, 212, rfl⟩
abbrev main_v152 : Ref sig .tc := ⟨.hbm, 213, rfl⟩
abbrev main_v153 : Ref sig .tc := ⟨.hbm, 214, rfl⟩
abbrev main_v154 : Ref sig .tc := ⟨.hbm, 215, rfl⟩
abbrev main_v155 : Ref sig .tc := ⟨.hbm, 216, rfl⟩
abbrev main_v156 : Ref sig .tc := ⟨.hbm, 217, rfl⟩
abbrev main_c_27 : Ref sig .tc := ⟨.hbm, 218, rfl⟩
abbrev main_v157 : Ref sig .tc := ⟨.hbm, 219, rfl⟩
abbrev main_v158 : Ref sig .tc := ⟨.hbm, 220, rfl⟩
abbrev main_c_28 : Ref sig .tc := ⟨.hbm, 221, rfl⟩
abbrev main_v159 : Ref sig .tc := ⟨.hbm, 222, rfl⟩
abbrev main_v160 : Ref sig .tc := ⟨.hbm, 223, rfl⟩
abbrev main_v161 : Ref sig .tc := ⟨.hbm, 224, rfl⟩
abbrev main_v162 : Ref sig .tc := ⟨.hbm, 225, rfl⟩
abbrev main_v163 : Ref sig .tc := ⟨.hbm, 226, rfl⟩
abbrev main_v164 : Ref sig .tc := ⟨.hbm, 227, rfl⟩
abbrev main_v165 : Ref sig .tc := ⟨.hbm, 228, rfl⟩
abbrev main_v166 : Ref sig .tc := ⟨.hbm, 229, rfl⟩
abbrev main_cst_29 : Ref sig .tc := ⟨.hbm, 230, rfl⟩
abbrev main_v167 : Ref sig .tc := ⟨.hbm, 231, rfl⟩
abbrev main_v168 : Ref sig .tc := ⟨.hbm, 232, rfl⟩
abbrev main_v169 : Ref sig .tc := ⟨.hbm, 233, rfl⟩
abbrev main_v170 : Ref sig .tc := ⟨.hbm, 234, rfl⟩
abbrev main_v171 : Ref sig .tc := ⟨.hbm, 235, rfl⟩
abbrev main_v172 : Ref sig .tc := ⟨.hbm, 236, rfl⟩
abbrev main_v173 : Ref sig .tc := ⟨.hbm, 237, rfl⟩
abbrev main_v174 : Ref sig .tc := ⟨.hbm, 238, rfl⟩
abbrev main_v175 : Ref sig .tc := ⟨.hbm, 239, rfl⟩
abbrev main_v176 : Ref sig .tc := ⟨.hbm, 240, rfl⟩
abbrev main_v177 : Ref sig .tc := ⟨.hbm, 241, rfl⟩
abbrev main_v178 : Ref sig .tc := ⟨.hbm, 242, rfl⟩
abbrev main_v179 : Ref sig .tc := ⟨.hbm, 243, rfl⟩
abbrev main_v180 : Ref sig .tc := ⟨.hbm, 244, rfl⟩
abbrev main_cst_30 : Ref sig .tc := ⟨.hbm, 245, rfl⟩
abbrev main_v181 : Ref sig .tc := ⟨.hbm, 246, rfl⟩
abbrev main_v182 : Ref sig .tc := ⟨.hbm, 247, rfl⟩
abbrev main_v183 : Ref sig .tc := ⟨.hbm, 248, rfl⟩
abbrev main_v184 : Ref sig .tc := ⟨.hbm, 249, rfl⟩
abbrev main_v185 : Ref sig .tc := ⟨.hbm, 250, rfl⟩
abbrev main_v186 : Ref sig .tc := ⟨.hbm, 251, rfl⟩
abbrev main_v187 : Ref sig .tc := ⟨.hbm, 252, rfl⟩
abbrev main_v188 : Ref sig .tc := ⟨.hbm, 253, rfl⟩
abbrev main_v189 : Ref sig .tc := ⟨.hbm, 254, rfl⟩
abbrev main_v190 : Ref sig .tc := ⟨.hbm, 255, rfl⟩
abbrev main_v191 : Ref sig .tc := ⟨.hbm, 256, rfl⟩
abbrev main_v192 : Ref sig .tc := ⟨.hbm, 257, rfl⟩
abbrev main_call2_cst : Ref sig .tc := ⟨.hbm, 258, rfl⟩
abbrev main_call2_v0 : Ref sig .tc := ⟨.hbm, 259, rfl⟩
abbrev main_v193 : Ref sig .tc := ⟨.hbm, 260, rfl⟩
abbrev main_v194 : Ref sig .tc := ⟨.hbm, 261, rfl⟩
abbrev main_v195 : Ref sig .tc := ⟨.hbm, 262, rfl⟩
abbrev main_v196 : Ref sig .tc := ⟨.hbm, 263, rfl⟩
abbrev main_v197 : Ref sig .tc := ⟨.hbm, 264, rfl⟩
abbrev main_v198 : Ref sig .tc := ⟨.hbm, 265, rfl⟩
abbrev main_call3_cst : Ref sig .tc := ⟨.hbm, 266, rfl⟩
abbrev main_call3_v0 : Ref sig .tc := ⟨.hbm, 267, rfl⟩
abbrev main_v199 : Ref sig .tc := ⟨.hbm, 268, rfl⟩
abbrev main_v200 : Ref sig .tc := ⟨.hbm, 269, rfl⟩
abbrev main_v201 : Ref sig .tc := ⟨.hbm, 270, rfl⟩
abbrev main_v202 : Ref sig .tc := ⟨.hbm, 271, rfl⟩
abbrev main_v203 : Ref sig .tc := ⟨.hbm, 272, rfl⟩
abbrev main_call4_cst : Ref sig .tc := ⟨.hbm, 273, rfl⟩
abbrev main_call4_v0 : Ref sig .tc := ⟨.hbm, 274, rfl⟩
abbrev main_call4_cst_0 : Ref sig .tc := ⟨.hbm, 275, rfl⟩
abbrev main_call4_v1 : Ref sig .tc := ⟨.hbm, 276, rfl⟩
abbrev main_call4_v2 : Ref sig .tc := ⟨.hbm, 277, rfl⟩
abbrev main_call4_v3 : Ref sig .tc := ⟨.hbm, 278, rfl⟩
abbrev main_call4_v4 : Ref sig .tc := ⟨.hbm, 279, rfl⟩
abbrev main_call4_v5 : Ref sig .tc := ⟨.hbm, 280, rfl⟩
abbrev main_call4_v6 : Ref sig .tc := ⟨.hbm, 281, rfl⟩
abbrev main_call4_cst_1 : Ref sig .tc := ⟨.hbm, 282, rfl⟩
abbrev main_call4_v7 : Ref sig .tc := ⟨.hbm, 283, rfl⟩
abbrev main_call4_v8 : Ref sig .tc := ⟨.hbm, 284, rfl⟩
abbrev main_call4_v9 : Ref sig .tc := ⟨.hbm, 285, rfl⟩
abbrev main_call4_v10 : Ref sig .tc := ⟨.hbm, 286, rfl⟩
abbrev main_v204 : Ref sig .tc := ⟨.hbm, 287, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S128 : S_.BroadcastsInDim S128 (![] : Fin 0 → Fin S128.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S800000x1_S800000x64_0_1 : S800000x1.BroadcastsInDim S800000x64 (![0, 1] : Fin 2 → Fin S800000x64.rank)
  bcast_S_S50000x64 : S_.BroadcastsInDim S50000x64 (![] : Fin 0 → Fin S50000x64.rank)
  bcast_S50000x1_S50000x64_0_1 : S50000x1.BroadcastsInDim S50000x64 (![0, 1] : Fin 2 → Fin S50000x64.rank)
  bcast_S_S64 : S_.BroadcastsInDim S64 (![] : Fin 0 → Fin S64.rank)
  bcast_S32_S1x32_1 : S32.BroadcastsInDim S1x32 (![1] : Fin 1 → Fin S1x32.rank)
  bcast_S1x32_S50000x32_0_1 : S1x32.BroadcastsInDim S50000x32 (![0, 1] : Fin 2 → Fin S50000x32.rank)
  bcast_S800000x1_S800000x32_0_1 : S800000x1.BroadcastsInDim S800000x32 (![0, 1] : Fin 2 → Fin S800000x32.rank)
  bcast_S_S50000x32 : S_.BroadcastsInDim S50000x32 (![] : Fin 0 → Fin S50000x32.rank)
  bcast_S50000x1_S50000x32_0_1 : S50000x1.BroadcastsInDim S50000x32 (![0, 1] : Fin 2 → Fin S50000x32.rank)
  bcast_S_S32 : S_.BroadcastsInDim S32 (![] : Fin 0 → Fin S32.rank)
  bcast_S16_S1x16_1 : S16.BroadcastsInDim S1x16 (![1] : Fin 1 → Fin S1x16.rank)
  bcast_S1x16_S50000x16_0_1 : S1x16.BroadcastsInDim S50000x16 (![0, 1] : Fin 2 → Fin S50000x16.rank)
  bcast_S_S50000x16 : S_.BroadcastsInDim S50000x16 (![] : Fin 0 → Fin S50000x16.rank)
  bcast_S2_S1x2_1 : S2.BroadcastsInDim S1x2 (![1] : Fin 1 → Fin S1x2.rank)
  bcast_S1x2_S50000x2_0_1 : S1x2.BroadcastsInDim S50000x2 (![0, 1] : Fin 2 → Fin S50000x2.rank)
  reducesTo_S50000x2_S50000_d1 : S50000x2.ReducesTo [1] S50000
  h_S_ : 0 < S_.numel
  bcast_S50000x1_S50000x2_0_1 : S50000x1.BroadcastsInDim S50000x2 (![0, 1] : Fin 2 → Fin S50000x2.rank)
  dot_S50000x128_S128x128_S50000x128_1_0_0_1_n_n_wf : DotDims.WF S50000x128 S128x128 S50000x128 [1] [0] [0] [1] [] []
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x64_S50000x64_1_0_0_1_n_n_wf : DotDims.WF S50000x128 S128x64 S50000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S50000x64_S64x32_S50000x32_1_0_0_1_n_n_wf : DotDims.WF S50000x64 S64x32 S50000x32 [1] [0] [0] [1] [] []
  gather_S50000x32_S800000x1_S800000x32_1_0_n_n_0_1_132_wf : GatherDims.WF S50000x32 S800000x1 S800000x32 [1] [0] [] [0] [] 1 ![1, 32]
  scatter_S50000x32_S800000x1_S800000x32_1_0_0_1_wf : ScatterDims.WF S50000x32 S800000x1 S800000x32 [1] [0] [0] 1
  dot_S50000x32_S32x16_S50000x16_1_0_0_1_n_n_wf : DotDims.WF S50000x32 S32x16 S50000x16 [1] [0] [0] [1] [] []
  dot_S50000x16_S16x2_S50000x2_1_0_0_1_n_n_wf : DotDims.WF S50000x16 S16x2 S50000x2 [1] [0] [0] [1] [] []

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S50000x64_S64x32_S50000x32_1_0_0_1_n_n : DotDims S50000x64 S64x32 S50000x32 where
  lhsContracting := [1]
  rhsContracting := [0]
  lhsNonContracting := [0]
  rhsNonContracting := [1]
  lhsBatch := []
  rhsBatch := []
  wf := dot_S50000x64_S64x32_S50000x32_1_0_0_1_n_n_wf
def gather_S50000x32_S800000x1_S800000x32_1_0_n_n_0_1_132 : GatherDims S50000x32 S800000x1 S800000x32 where
  offsetDims := [1]
  collapsedSliceDims := [0]
  operandBatchingDims := []
  startIndicesBatchingDims := []
  startIndexMap := [0]
  indexVectorDim := 1
  sliceSizes := ![1, 32]
  wf := gather_S50000x32_S800000x1_S800000x32_1_0_n_n_0_1_132_wf
def scatter_S50000x32_S800000x1_S800000x32_1_0_0_1 : ScatterDims S50000x32 S800000x1 S800000x32 where
  updateWindowDims := [1]
  insertedWindowDims := [0]
  scatterDimsToOperandDims := [0]
  indexVectorDim := 1
  wf := scatter_S50000x32_S800000x1_S800000x32_1_0_0_1_wf
def dot_S50000x32_S32x16_S50000x16_1_0_0_1_n_n : DotDims S50000x32 S32x16 S50000x16 where
  lhsContracting := [1]
  rhsContracting := [0]
  lhsNonContracting := [0]
  rhsNonContracting := [1]
  lhsBatch := []
  rhsBatch := []
  wf := dot_S50000x32_S32x16_S50000x16_1_0_0_1_n_n_wf
def dot_S50000x16_S16x2_S50000x2_1_0_0_1_n_n : DotDims S50000x16 S16x2 S50000x2 where
  lhsContracting := [1]
  rhsContracting := [0]
  lhsNonContracting := [0]
  rhsNonContracting := [1]
  lhsBatch := []
  rhsBatch := []
  wf := dot_S50000x16_S16x2_S50000x2_1_0_0_1_n_n_wf

class Facts : Prop extends Facts₀ where

variable [Facts]
-- ==== Proof.ResultRun.lean ====
/-
  The launch of the kernel program with its RESULT read.

  The program's @main is six kernel regions among stretches of host operations. Its buffer contents at every segment
  boundary are a fold from the launch memory: a stretch applies its operations, a region leaves each of its arrays at
  what its write-backs fold to and every other buffer as entered. After the last segment every unscoped buffer of the
  core holds the last boundary's contents; read at the program's result buffer this names the result, and read at
  the argument buffers it gives them back as launched.
-/
import proofs.«182117_j80625126080954_1_alg».proof.Proof.Gen.KernelIdeal.Frame

set_option maxRecDepth 16384

noncomputable section

namespace Cert.KernelIdeal.Result

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates without a fault; the result buffer then holds the last
    boundary's contents and the arguments are as launched. -/
theorem run : θ_run defs (onTc (τ := τ) (main (F := F))) ⟨m, fun _ => 0, ρ⟩ (fun r => ∀ c : Dev nD,
      r.2.mem ((c.tc : Thread nD τ).loc main_v142) = W14 m ρ c (Proc.devRef .tc main_v142)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W14 m ρ c b)
    (hfin := fun c s' => by
      iintro ⟨⟨Hh, -⟩, HSI⟩
      unfold StableHlo.held
      imodintro
      iapply (pointsTo_read_all (Pipeline.ucRefs τ sig) (fun b => (((c : Thread nD τ)).1, b)) (W14 m ρ c) s')
      isplitl [Hh] <;> iassumption)
    (hQ := fun s h c =>
      ⟨h c _ (mem_uc main_v142 (by decide)),
       (h c _ (mem_uc main_arg0 (by decide))).trans (W14_main_arg0 m ρ c),
       (h c _ (mem_uc main_arg1 (by decide))).trans (W14_main_arg1 m ρ c),
       (h c _ (mem_uc main_arg2 (by decide))).trans (W14_main_arg2 m ρ c),
       (h c _ (mem_uc main_arg3 (by decide))).trans (W14_main_arg3 m ρ c),
       (h c _ (mem_uc main_arg4 (by decide))).trans (W14_main_arg4 m ρ c),
       (h c _ (mem_uc main_arg5 (by decide))).trans (W14_main_arg5 m ρ c),
       (h c _ (mem_uc main_arg6 (by decide))).trans (W14_main_arg6 m ρ c),
       (h c _ (mem_uc main_arg7 (by decide))).trans (W14_main_arg7 m ρ c),
       (h c _ (mem_uc main_arg8 (by decide))).trans (W14_main_arg8 m ρ c),
       (h c _ (mem_uc main_arg9 (by decide))).trans (W14_main_arg9 m ρ c),
       (h c _ (mem_uc main_arg10 (by decide))).trans (W14_main_arg10 m ρ c),
       (h c _ (mem_uc main_arg11 (by decide))).trans (W14_main_arg11 m ρ c),
       (h c _ (mem_uc main_arg12 (by decide))).trans (W14_main_arg12 m ρ c),
       (h c _ (mem_uc main_arg13 (by decide))).trans (W14_main_arg13 m ρ c),
       (h c _ (mem_uc main_arg14 (by decide))).trans (W14_main_arg14 m ρ c),
       (h c _ (mem_uc main_arg15 (by decide))).trans (W14_main_arg15 m ρ c),
       (h c _ (mem_uc main_arg16 (by decide))).trans (W14_main_arg16 m ρ c),
       (h c _ (mem_uc main_arg17 (by decide))).trans (W14_main_arg17 m ρ c),
       (h c _ (mem_uc main_arg18 (by decide))).trans (W14_main_arg18 m ρ c),
       (h c _ (mem_uc main_arg19 (by decide))).trans (W14_main_arg19 m ρ c),
       (h c _ (mem_uc main_arg20 (by decide))).trans (W14_main_arg20 m ρ c),
       (h c _ (mem_uc main_arg21 (by decide))).trans (W14_main_arg21 m ρ c),
       (h c _ (mem_uc main_arg22 (by decide))).trans (W14_main_arg22 m ρ c),
       (h c _ (mem_uc main_arg23 (by decide))).trans (W14_main_arg23 m ρ c),
       (h c _ (mem_uc main_arg24 (by decide))).trans (W14_main_arg24 m ρ c),
       (h c _ (mem_uc main_arg25 (by decide))).trans (W14_main_arg25 m ρ c),
       (h c _ (mem_uc main_arg26 (by decide))).trans (W14_main_arg26 m ρ c),
       (h c _ (mem_uc main_arg27 (by decide))).trans (W14_main_arg27 m ρ c)⟩)

end Cert.KernelIdeal.Result

end
-- ==== Proof.Carry.lean ====
/-
  What each segment of @main leaves alone.

  A stretch of host operations changes only the buffers its operations write; a kernel region changes only the array
  of its output window (an input window's array is read through staging buffers and never written back, and a
  buffer that is no window's array is not touched at all). So a buffer keeps its contents across every segment that
  does not write it, and a buffer nothing writes — an argument of @main — holds its launch contents at every
  segment boundary.
-/
import proofs.«182117_j80625126080954_1_alg».proof.Proof.Gen.KernelIdeal.Frame

set_option maxRecDepth 16384

noncomputable section

namespace Cert.KernelIdeal.Carry

open Cert.KernelIdeal Cert.KernelIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-! ## The host stretches -/

/-- One operation's written reference is in the stretch's list. -/
local macro "written_here" : tactic =>
  `(tactic| (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)))

/-- The references the operations of `hostOps0` write. -/
abbrev hostOps0_W : List (Ref sig .tc) := [main_v0, main_v1, main_v2, main_v3, main_cst, main_v4, main_cst_0, main_v5, main_v6, main_v7, main_cst_1, main_v8, main_v9, main_v10]
theorem hostOps0_writes : (hostOps0 : List (HloOp τ sig (Elt F))).Forall fun op => op.writes ⊆ (hostOps0_W.map (Proc.devRef (τ := τ) .tc)).toFinset := by
  simp only [List.Forall]
  repeat' apply And.intro
  all_goals written_here
/-- A reference they do not write keeps its contents across the stretch. -/
theorem keep_hostOps0 (c : Dev nD) (r : Ref sig .tc) (h : r ∉ hostOps0_W) :
    W1 m ρ c (Proc.devRef .tc r) = W0 m ρ c (Proc.devRef .tc r) :=
  StableHlo.after_of_writes_sub hostOps0 _ hostOps0_writes h

/-- The references the operations of `hostOps1` write. -/
abbrev hostOps1_W : List (Ref sig .tc) := [main_c, main_v12, main_v13, main_c_2, main_v14, main_v15, main_v16, main_v17, main_v18, main_c_3, main_v19, main_v20, main_c_4, main_v21, main_v22, main_v23, main_v24, main_v25, main_v26, main_c_5, main_v27, main_v28, main_c_6, main_v29, main_v30, main_v31, main_v32, main_v33, main_v34, main_v35, main_v36, main_cst_7, main_v37, main_v38, main_v39, main_v40, main_v41, main_v42, main_v43, main_v44, main_v45, main_v46, main_v47, main_v48, main_v49]
theorem hostOps1_writes : (hostOps1 : List (HloOp τ sig (Elt F))).Forall fun op => op.writes ⊆ (hostOps1_W.map (Proc.devRef (τ := τ) .tc)).toFinset := by
  simp only [List.Forall]
  repeat' apply And.intro
  all_goals written_here
/-- A reference they do not write keeps its contents across the stretch. -/
theorem keep_hostOps1 (c : Dev nD) (r : Ref sig .tc) (h : r ∉ hostOps1_W) :
    W3 m ρ c (Proc.devRef .tc r) = W2 m ρ c (Proc.devRef .tc r) :=
  StableHlo.after_of_writes_sub hostOps1 _ hostOps1_writes h

/-- The references the operations of `hostOps3` write. -/
abbrev hostOps3_W : List (Ref sig .tc) := [main_c_8, main_v52, main_v53, main_c_9, main_v54, main_v55, main_v56, main_v57, main_v58, main_c_10, main_v59, main_v60, main_c_11, main_v61, main_v62, main_v63, main_v64, main_v65, main_v66, main_c_12, main_v67, main_v68, main_c_13, main_v69, main_v70, main_v71, main_v72, main_v73, main_v74, main_v75, main_v76, main_cst_14, main_v77, main_v78, main_v79, main_v80, main_v81, main_v82, main_v83, main_v84, main_v85, main_v86, main_v87, main_v88, main_v89, main_v90]
theorem hostOps3_writes : (hostOps3 : List (HloOp τ sig (Elt F))).Forall fun op => op.writes ⊆ (hostOps3_W.map (Proc.devRef (τ := τ) .tc)).toFinset := by
  simp only [List.Forall]
  repeat' apply And.intro
  all_goals written_here
/-- A reference they do not write keeps its contents across the stretch. -/
theorem keep_hostOps3 (c : Dev nD) (r : Ref sig .tc) (h : r ∉ hostOps3_W) :
    W6 m ρ c (Proc.devRef .tc r) = W5 m ρ c (Proc.devRef .tc r) :=
  StableHlo.after_of_writes_sub hostOps3 _ hostOps3_writes h

/-- The references the operations of `hostOps5` write. -/
abbrev hostOps5_W : List (Ref sig .tc) := [main_c_15, main_v93, main_v94, main_c_16, main_v95, main_v96, main_v97, main_v98, main_v99, main_c_17, main_v100, main_v101, main_c_18, main_v102, main_v103, main_v104, main_v105, main_v106, main_v107, main_c_19, main_v108, main_v109, main_c_20, main_v110, main_v111, main_v112, main_v113, main_v114, main_v115, main_v116, main_v117, main_cst_21, main_v118, main_v119, main_v120, main_v121, main_v122, main_v123, main_v124, main_v125, main_v126, main_v127, main_v128, main_v129, main_v130, main_v131]
theorem hostOps5_writes : (hostOps5 : List (HloOp τ sig (Elt F))).Forall fun op => op.writes ⊆ (hostOps5_W.map (Proc.devRef (τ := τ) .tc)).toFinset := by
  simp only [List.Forall]
  repeat' apply And.intro
  all_goals written_here
/-- A reference they do not write keeps its contents across the stretch. -/
theorem keep_hostOps5 (c : Dev nD) (r : Ref sig .tc) (h : r ∉ hostOps5_W) :
    W9 m ρ c (Proc.devRef .tc r) = W8 m ρ c (Proc.devRef .tc r) :=
  StableHlo.after_of_writes_sub hostOps5 _ hostOps5_writes h

/-! ## The regions -/

/-- Region 0 changes only its output array `main_v11`. -/
theorem keep_region0 (c : Dev nD) (r : Ref sig .tc) (hr : r ≠ main_v11) :
    W2 m ρ c (Proc.devRef .tc r) = W1 m ρ c (Proc.devRef .tc r) := by
  by_cases h : ∃ w, Pipeline.arrRef spec0 w = r
  · obtain ⟨w, rfl⟩ := h
    match w with
    | ⟨0, _⟩ => exact (W2_arr m ρ c 0).trans (((dat0 (V1 m ρ) c).arrAt_in 0 rfl _).trans (A_eq0 (V1 m ρ) c 0))
    | ⟨1, _⟩ => exact (W2_arr m ρ c 1).trans (((dat0 (V1 m ρ) c).arrAt_in 1 rfl _).trans (A_eq0 (V1 m ρ) c 1))
    | ⟨2, _⟩ => exact absurd rfl hr
    | ⟨_ + 3, hw⟩ => exact absurd hw (Nat.not_lt.2 (Nat.le_add_left _ _))
  · exact W2_of_ne m ρ c r fun w e => h ⟨w, e⟩

/-- Region 1 changes only its output array `main_v50`. -/
theorem keep_region1 (c : Dev nD) (r : Ref sig .tc) (hr : r ≠ main_v50) :
    W4 m ρ c (Proc.devRef .tc r) = W3 m ρ c (Proc.devRef .tc r) := by
  by_cases h : ∃ w, Pipeline.arrRef spec1 w = r
  · obtain ⟨w, rfl⟩ := h
    match w with
    | ⟨0, _⟩ => exact (W4_arr m ρ c 0).trans (((dat1 (V3 m ρ) c).arrAt_in 0 rfl _).trans (A_eq1 (V3 m ρ) c 0))
    | ⟨1, _⟩ => exact (W4_arr m ρ c 1).trans (((dat1 (V3 m ρ) c).arrAt_in 1 rfl _).trans (A_eq1 (V3 m ρ) c 1))
    | ⟨2, _⟩ => exact (W4_arr m ρ c 2).trans (((dat1 (V3 m ρ) c).arrAt_in 2 rfl _).trans (A_eq1 (V3 m ρ) c 2))
    | ⟨3, _⟩ => exact (W4_arr m ρ c 3).trans (((dat1 (V3 m ρ) c).arrAt_in 3 rfl _).trans (A_eq1 (V3 m ρ) c 3))
    | ⟨4, _⟩ => exact (W4_arr m ρ c 4).trans (((dat1 (V3 m ρ) c).arrAt_in 4 rfl _).trans (A_eq1 (V3 m ρ) c 4))
    | ⟨5, _⟩ => exact (W4_arr m ρ c 5).trans (((dat1 (V3 m ρ) c).arrAt_in 5 rfl _).trans (A_eq1 (V3 m ρ) c 5))
    | ⟨6, _⟩ => exact (W4_arr m ρ c 6).trans (((dat1 (V3 m ρ) c).arrAt_in 6 rfl _).trans (A_eq1 (V3 m ρ) c 6))
    | ⟨7, _⟩ => exact absurd rfl hr
    | ⟨_ + 8, hw⟩ => exact absurd hw (Nat.not_lt.2 (Nat.le_add_left _ _))
  · exact W4_of_ne m ρ c r fun w e => h ⟨w, e⟩

/-- Region 2 changes only its output array `main_v51`. -/
theorem keep_region2 (c : Dev nD) (r : Ref sig .tc) (hr : r ≠ main_v51) :
    W5 m ρ c (Proc.devRef .tc r) = W4 m ρ c (Proc.devRef .tc r) := by
  by_cases h : ∃ w, Pipeline.arrRef spec2 w = r
  · obtain ⟨w, rfl⟩ := h
    match w with
    | ⟨0, _⟩ => exact (W5_arr m ρ c 0).trans (((dat2 (V4 m ρ) c).arrAt_in 0 rfl _).trans (A_eq2 (V4 m ρ) c 0))
    | ⟨1, _⟩ => exact (W5_arr m ρ c 1).trans (((dat2 (V4 m ρ) c).arrAt_in 1 rfl _).trans (A_eq2 (V4 m ρ) c 1))
    | ⟨2, _⟩ => exact absurd rfl hr
    | ⟨_ + 3, hw⟩ => exact absurd hw (Nat.not_lt.2 (Nat.le_add_left _ _))
  · exact W5_of_ne m ρ c r fun w e => h ⟨w, e⟩

/-- Region 3 changes only its output array `main_v91`. -/
theorem keep_region3 (c : Dev nD) (r : Ref sig .tc) (hr : r ≠ main_v91) :
    W7 m ρ c (Proc.devRef .tc r) = W6 m ρ c (Proc.devRef .tc r) := by
  by_cases h : ∃ w, Pipeline.arrRef spec3 w = r
  · obtain ⟨w, rfl⟩ := h
    match w with
    | ⟨0, _⟩ => exact (W7_arr m ρ c 0).trans (((dat3 (V6 m ρ) c).arrAt_in 0 rfl _).trans (A_eq3 (V6 m ρ) c 0))
    | ⟨1, _⟩ => exact (W7_arr m ρ c 1).trans (((dat3 (V6 m ρ) c).arrAt_in 1 rfl _).trans (A_eq3 (V6 m ρ) c 1))
    | ⟨2, _⟩ => exact (W7_arr m ρ c 2).trans (((dat3 (V6 m ρ) c).arrAt_in 2 rfl _).trans (A_eq3 (V6 m ρ) c 2))
    | ⟨3, _⟩ => exact (W7_arr m ρ c 3).trans (((dat3 (V6 m ρ) c).arrAt_in 3 rfl _).trans (A_eq3 (V6 m ρ) c 3))
    | ⟨4, _⟩ => exact (W7_arr m ρ c 4).trans (((dat3 (V6 m ρ) c).arrAt_in 4 rfl _).trans (A_eq3 (V6 m ρ) c 4))
    | ⟨5, _⟩ => exact (W7_arr m ρ c 5).trans (((dat3 (V6 m ρ) c).arrAt_in 5 rfl _).trans (A_eq3 (V6 m ρ) c 5))
    | ⟨6, _⟩ => exact (W7_arr m ρ c 6).trans (((dat3 (V6 m ρ) c).arrAt_in 6 rfl _).trans (A_eq3 (V6 m ρ) c 6))
    | ⟨7, _⟩ => exact (W7_arr m ρ c 7).trans (((dat3 (V6 m ρ) c).arrAt_in 7 rfl _).trans (A_eq3 (V6 m ρ) c 7))
    | ⟨8, _⟩ => exact (W7_arr m ρ c 8).trans (((dat3 (V6 m ρ) c).arrAt_in 8 rfl _).trans (A_eq3 (V6 m ρ) c 8))
    | ⟨9, _⟩ => exact absurd rfl hr
    | ⟨_ + 10, hw⟩ => exact absurd hw (Nat.not_lt.2 (Nat.le_add_left _ _))
  · exact W7_of_ne m ρ c r fun w e => h ⟨w, e⟩

/-- Region 4 changes only its output array `main_v92`. -/
theorem keep_region4 (c : Dev nD) (r : Ref sig .tc) (hr : r ≠ main_v92) :
    W8 m ρ c (Proc.devRef .tc r) = W7 m ρ c (Proc.devRef .tc r) := by
  by_cases h : ∃ w, Pipeline.arrRef spec4 w = r
  · obtain ⟨w, rfl⟩ := h
    match w with
    | ⟨0, _⟩ => exact (W8_arr m ρ c 0).trans (((dat4 (V7 m ρ) c).arrAt_in 0 rfl _).trans (A_eq4 (V7 m ρ) c 0))
    | ⟨1, _⟩ => exact (W8_arr m ρ c 1).trans (((dat4 (V7 m ρ) c).arrAt_in 1 rfl _).trans (A_eq4 (V7 m ρ) c 1))
    | ⟨2, _⟩ => exact absurd rfl hr
    | ⟨_ + 3, hw⟩ => exact absurd hw (Nat.not_lt.2 (Nat.le_add_left _ _))
  · exact W8_of_ne m ρ c r fun w e => h ⟨w, e⟩

/-- Region 5 changes only its output array `main_v132`. -/
theorem keep_region5 (c : Dev nD) (r : Ref sig .tc) (hr : r ≠ main_v132) :
    W10 m ρ c (Proc.devRef .tc r) = W9 m ρ c (Proc.devRef .tc r) := by
  by_cases h : ∃ w, Pipeline.arrRef spec5 w = r
  · obtain ⟨w, rfl⟩ := h
    match w with
    | ⟨0, _⟩ => exact (W10_arr m ρ c 0).trans (((dat5 (V9 m ρ) c).arrAt_in 0 rfl _).trans (A_eq5 (V9 m ρ) c 0))
    | ⟨1, _⟩ => exact (W10_arr m ρ c 1).trans (((dat5 (V9 m ρ) c).arrAt_in 1 rfl _).trans (A_eq5 (V9 m ρ) c 1))
    | ⟨2, _⟩ => exact (W10_arr m ρ c 2).trans (((dat5 (V9 m ρ) c).arrAt_in 2 rfl _).trans (A_eq5 (V9 m ρ) c 2))
    | ⟨3, _⟩ => exact (W10_arr m ρ c 3).trans (((dat5 (V9 m ρ) c).arrAt_in 3 rfl _).trans (A_eq5 (V9 m ρ) c 3))
    | ⟨4, _⟩ => exact (W10_arr m ρ c 4).trans (((dat5 (V9 m ρ) c).arrAt_in 4 rfl _).trans (A_eq5 (V9 m ρ) c 4))
    | ⟨5, _⟩ => exact (W10_arr m ρ c 5).trans (((dat5 (V9 m ρ) c).arrAt_in 5 rfl _).trans (A_eq5 (V9 m ρ) c 5))
    | ⟨6, _⟩ => exact (W10_arr m ρ c 6).trans (((dat5 (V9 m ρ) c).arrAt_in 6 rfl _).trans (A_eq5 (V9 m ρ) c 6))
    | ⟨7, _⟩ => exact (W10_arr m ρ c 7).trans (((dat5 (V9 m ρ) c).arrAt_in 7 rfl _).trans (A_eq5 (V9 m ρ) c 7))
    | ⟨8, _⟩ => exact (W10_arr m ρ c 8).trans (((dat5 (V9 m ρ) c).arrAt_in 8 rfl _).trans (A_eq5 (V9 m ρ) c 8))
    | ⟨9, _⟩ => exact absurd rfl hr
    | ⟨_ + 10, hw⟩ => exact absurd hw (Nat.not_lt.2 (Nat.le_add_left _ _))
  · exact W10_of_ne m ρ c r fun w e => h ⟨w, e⟩

/-! ## A reference nothing writes -/

/-- No stretch up to the last region writes `r` and no region writes it back. -/
def Unwritten (r : Ref sig .tc) : Prop :=
  r ∉ (hostOps0_W : List (Ref sig .tc)) ∧ r ≠ main_v11 ∧ r ∉ (hostOps1_W : List (Ref sig .tc)) ∧ r ≠ main_v50 ∧ r ≠ main_v51
    ∧ r ∉ (hostOps3_W : List (Ref sig .tc)) ∧ r ≠ main_v91 ∧ r ≠ main_v92 ∧ r ∉ (hostOps5_W : List (Ref sig .tc)) ∧ r ≠ main_v132

instance (r : Ref sig .tc) : Decidable (Unwritten r) := by unfold Unwritten; infer_instance

/-- Such a reference holds its launch contents at every boundary up to the last region's exit. -/
theorem unwritten_at (c : Dev nD) (r : Ref sig .tc) (h : Unwritten r) :
    W1 m ρ c (Proc.devRef .tc r) = W0 m ρ c (Proc.devRef .tc r)
    ∧ W2 m ρ c (Proc.devRef .tc r) = W0 m ρ c (Proc.devRef .tc r)
    ∧ W3 m ρ c (Proc.devRef .tc r) = W0 m ρ c (Proc.devRef .tc r)
    ∧ W4 m ρ c (Proc.devRef .tc r) = W0 m ρ c (Proc.devRef .tc r)
    ∧ W5 m ρ c (Proc.devRef .tc r) = W0 m ρ c (Proc.devRef .tc r)
    ∧ W6 m ρ c (Proc.devRef .tc r) = W0 m ρ c (Proc.devRef .tc r)
    ∧ W7 m ρ c (Proc.devRef .tc r) = W0 m ρ c (Proc.devRef .tc r)
    ∧ W8 m ρ c (Proc.devRef .tc r) = W0 m ρ c (Proc.devRef .tc r)
    ∧ W9 m ρ c (Proc.devRef .tc r) = W0 m ρ c (Proc.devRef .tc r)
    ∧ W10 m ρ c (Proc.devRef .tc r) = W0 m ρ c (Proc.devRef .tc r) := by
  obtain ⟨h0, r0, h1, r1, r2, h3, r3, r4, h5, r5⟩ := h
  have e1 := keep_hostOps0 m ρ c r h0
  have e2 := (keep_region0 m ρ c r r0).trans e1
  have e3 := (keep_hostOps1 m ρ c r h1).trans e2
  have e4 := (keep_region1 m ρ c r r1).trans e3
  have e5 := (keep_region2 m ρ c r r2).trans e4
  have e6 := (keep_hostOps3 m ρ c r h3).trans e5
  have e7 := (keep_region3 m ρ c r r3).trans e6
  have e8 := (keep_region4 m ρ c r r4).trans e7
  have e9 := (keep_hostOps5 m ρ c r h5).trans e8
  have e10 := (keep_region5 m ρ c r r5).trans e9
  exact ⟨e1, e2, e3, e4, e5, e6, e7, e8, e9, e10⟩

end Cert.KernelIdeal.Carry

end
-- ==== Proof.LibBlockReads.lean ====
/-
  Vector operations of a kernel body read at an index, on the extended reals: a matrix product accumulated into
  zeros as the sum over the contracted coordinate (both operand orders), a sum along the first or the last axis
  of a rank-3 block as a sum over that axis's coordinate, and the re-shapings and broadcasts that put a row
  vector or a matrix of per-row scales beside a block. Nothing here mentions a program.
-/
import Idealize.ShloMosaic.PureOps.Ideal.Laws
import Idealize.ShloMosaic.Lib.ValueIdx
import Idealize.ShloMosaic.Lib.Pipeline.Value

open scoped BigOperators

namespace Cert.Lib.BlockReads

open Idealize.ShloMosaic Idealize.ShloMosaic.ValueIdx

/-! ## Matrix products into a zero accumulator -/

section Matmul
variable {m k n : Nat} {φ₁ φ₂ : FTy}

/-- A product of an m×k by a k×n matrix (contracting the left operand's columns with the right operand's rows),
    accumulated into zeros, is at (a, b) the sum over c of A(a, c) · B(c, b). -/
theorem matmul_zero_rows_apply (d : DotDims ⟨2, ![m, k]⟩ ⟨2, ![k, n]⟩ ⟨2, ![m, n]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (A : FVec Ideal ⟨2, ![m, k]⟩ φ₁) (B : FVec Ideal ⟨2, ![k, n]⟩ φ₂)
    (a : Fin m) (b : Fin n) :
    matmul d prec A B (constant ⟨2, ![m, n]⟩ .f32 0x00000000#32) (ix2 a b) = ∑ c : Fin k, A (ix2 a c) * B (ix2 c b) := by
  obtain ⟨lc, rc, ln, rn, lb, rb, w⟩ := d
  dsimp only at hlc hrc hln hrn hlb hrb
  subst hlc hrc hln hrn hlb hrb
  show FloatOps.matmul _ prec A B _ (ix2 a b) = _
  rw [Ideal.matmul_constant_zero_apply,
    ← Equiv.sum_comp (contrEquiv1 (⟨[1], [0], [0], [1], [], [], w⟩ : DotDims _ _ _) k rfl rfl).symm]
  refine Finset.sum_congr rfl fun c _ => ?_
  have c2 := contrEquiv1_symm_val
    (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

/-- A product of an m×k matrix by the TRANSPOSE of an n×k matrix (both operands contracted along their columns),
    accumulated into zeros, is at (a, b) the sum over c of A(a, c) · B(b, c). -/
theorem matmul_zero_cols_apply (d : DotDims ⟨2, ![m, k]⟩ ⟨2, ![n, k]⟩ ⟨2, ![m, n]⟩)
    (hlc : d.lhsContracting = [1]) (hrc : d.rhsContracting = [1]) (hln : d.lhsNonContracting = [0])
    (hrn : d.rhsNonContracting = [0]) (hlb : d.lhsBatch = []) (hrb : d.rhsBatch = [])
    (prec : Option ContractPrecision) (A : FVec Ideal ⟨2, ![m, k]⟩ φ₁) (B : FVec Ideal ⟨2, ![n, k]⟩ φ₂)
    (a : Fin m) (b : Fin n) :
    matmul d prec A B (constant ⟨2, ![m, n]⟩ .f32 0x00000000#32) (ix2 a b) = ∑ c : Fin k, A (ix2 a c) * B (ix2 b c) := by
  obtain ⟨lc, rc, ln, rn, lb, rb, w⟩ := d
  dsimp only at hlc hrc hln hrn hlb hrb
  subst hlc hrc hln hrn hlb hrb
  show FloatOps.matmul _ prec A B _ (ix2 a b) = _
  rw [Ideal.matmul_constant_zero_apply,
    ← Equiv.sum_comp (contrEquiv1 (⟨[1], [1], [0], [0], [], [], w⟩ : DotDims _ _ _) k rfl rfl).symm]
  refine Finset.sum_congr rfl fun c _ => ?_
  have c2 := contrEquiv1_symm_val
    (⟨[1], [1], [0], [0], [], [], w⟩ : DotDims ⟨2, ![m, k]⟩ ⟨2, ![n, k]⟩ ⟨2, ![m, n]⟩) k rfl rfl c
  have l2 : (⟨[1], [1], [0], [0], [], [], w⟩ : DotDims ⟨2, ![m, k]⟩ ⟨2, ![n, k]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [1], [0], [0], [], [], w⟩ : DotDims ⟨2, ![m, k]⟩ ⟨2, ![n, k]⟩ ⟨2, ![m, n]⟩).rhsIdx (ix2 a b)
      ((contrEquiv1 _ k rfl rfl).symm c) = ix2 b c := by
    funext ax; apply Fin.ext
    match ax with
    | ⟨0, _⟩ => simp [DotDims.rhsIdx]; rfl
    | ⟨1, _⟩ => simp [DotDims.rhsIdx]; exact c2
  rw [l2, r2]

end Matmul

/-! ## Sums along one axis of a rank-3 block -/

section AxisSums
variable {a b c : Nat} {φ : FTy}

/-- The sum along the FIRST axis of an a×b×c block is at (q, r) the sum over p of the block at (p, q, r). -/
theorem sum_first_axis_apply (src : FVec Ideal ⟨3, ![a, b, c]⟩ φ) (acc : BitVec φ.bits)
    (h : (⟨3, ![a, b, c]⟩ : Shape).Reduces [0] ⟨2, ![b, c]⟩) (hφ : FKind.Formats φ) (hacc : acc = FKind.add.neutral φ hφ)
    (q : Fin b) (r : Fin c) :
    multiReduction .add [0] ⟨2, ![b, c]⟩ src acc h hφ hacc (ix2 q r) = ∑ p : Fin a, src (ix3 p q r) := by
  rw [Ideal.multiReduction_add_single]
  refine Finset.sum_congr rfl fun p _ => congrArg src ?_
  funext ax; apply Fin.ext
  match ax with
  | ⟨0, _⟩ => rfl
  | ⟨1, _⟩ => rfl
  | ⟨2, _⟩ => rfl

/-- The sum along the LAST axis of an a×b×c block is at (p, q) the sum over r of the block at (p, q, r). -/
theorem sum_last_axis_apply (src : FVec Ideal ⟨3, ![a, b, c]⟩ φ) (acc : BitVec φ.bits)
    (h : (⟨3, ![a, b, c]⟩ : Shape).Reduces [2] ⟨2, ![a, b]⟩) (hφ : FKind.Formats φ) (hacc : acc = FKind.add.neutral φ hφ)
    (p : Fin a) (q : Fin b) :
    multiReduction .add [2] ⟨2, ![a, b]⟩ src acc h hφ hacc (ix2 p q) = ∑ r : Fin c, src (ix3 p q r) := by
  rw [Ideal.multiReduction_add_single]
  refine Finset.sum_congr rfl fun r _ => congrArg src ?_
  funext ax; apply Fin.ext
  match ax with
  | ⟨0, _⟩ => rfl
  | ⟨1, _⟩ => rfl
  | ⟨2, _⟩ => rfl

end AxisSums

/-! ## Re-shapings and broadcasts of per-row values -/

section Layout
variable {α : Type} {a b c : Nat}

/-- A 1×b row broadcast down a rows reads its entry b. -/
theorem broadcast_row_apply (x : (⟨2, ![1, b]⟩ : Shape).Idx → α) (h : (⟨2, ![1, b]⟩ : Shape).Broadcasts ⟨2, ![a, b]⟩)
    (p : Fin a) (q : Fin b) : broadcastTo ⟨2, ![a, b]⟩ x h (ix2 p q) = x (ix2 0 q) :=
  broadcastTo_apply x h _ _ fun ax => by
    match ax with
    | ⟨0, _⟩ => rfl
    | ⟨1, _⟩ =>
      show q.val = if b = 1 then 0 else q.val
      split_ifs with hb
      · have := q.isLt; omega
      · rfl

/-- A b×c matrix viewed as one 1×b×c slab and broadcast along a new leading axis of extent a reads the matrix. -/
theorem broadcast_slab_apply (x : (⟨2, ![b, c]⟩ : Shape).Idx → α)
    (h₁ : (⟨2, ![b, c]⟩ : Shape).ShapeCasts ⟨3, ![1, b, c]⟩)
    (h₂ : (⟨3, ![1, b, c]⟩ : Shape).Broadcasts ⟨3, ![a, b, c]⟩) (p : Fin a) (q : Fin b) (r : Fin c) :
    broadcastTo ⟨3, ![a, b, c]⟩ (shapeCast ⟨3, ![1, b, c]⟩ x h₁) h₂ (ix3 p q r) = x (ix2 q r) := by
  refine (broadcastTo_apply _ h₂ _ (ix3 0 q r) fun ax => ?_).trans ?_
  · match ax with
    | ⟨0, _⟩ => rfl
    | ⟨1, _⟩ =>
      show q.val = if b = 1 then 0 else q.val
      split_ifs with hb
      · have := q.isLt; omega
      · rfl
    | ⟨2, _⟩ =>
      show r.val = if c = 1 then 0 else r.val
      split_ifs with hc
      · have := r.isLt; omega
      · rfl
  · refine shapeCast_apply x h₁ _ _ ?_
    rw [Shape.rowMajor_val_two, Shape.rowMajor_val_three]
    show q.val * c + r.val = ((0 : Nat) * b + q.val) * c + r.val
    rw [Nat.zero_mul, Nat.zero_add]

/-- An a×b matrix viewed as a×b×1 columns and broadcast along a new trailing axis of extent c reads the matrix. -/
theorem broadcast_cols_apply (x : (⟨2, ![a, b]⟩ : Shape).Idx → α)
    (h₁ : (⟨2, ![a, b]⟩ : Shape).ShapeCasts ⟨3, ![a, b, 1]⟩)
    (h₂ : (⟨3, ![a, b, 1]⟩ : Shape).Broadcasts ⟨3, ![a, b, c]⟩) (p : Fin a) (q : Fin b) (r : Fin c) :
    broadcastTo ⟨3, ![a, b, c]⟩ (shapeCast ⟨3, ![a, b, 1]⟩ x h₁) h₂ (ix3 p q r) = x (ix2 p q) := by
  refine (broadcastTo_apply _ h₂ _ (ix3 p q 0) fun ax => ?_).trans ?_
  · match ax with
    | ⟨0, _⟩ =>
      show p.val = if a = 1 then 0 else p.val
      split_ifs with ha
      · have := p.isLt; omega
      · rfl
    | ⟨1, _⟩ =>
      show q.val = if b = 1 then 0 else q.val
      split_ifs with hb
      · have := q.isLt; omega
      · rfl
    | ⟨2, _⟩ => rfl
  · refine shapeCast_apply x h₁ _ _ ?_
    rw [Shape.rowMajor_val_two, Shape.rowMajor_val_three]
    show p.val * b + q.val = (p.val * b + q.val) * 1 + 0
    omega

end Layout

end Cert.Lib.BlockReads
-- ==== Proof.LibMatProd.lean ====
/-
  Dense matrix products on the extended reals, as functions of whole arrays.

  `matProd A B` is the product of an m×k by a k×n array: entry (a, b) is the sum over c of A(a, c) · B(c, b). A plain
  product accumulated into zeros (the left operand's columns contracted with the right operand's rows, no batch axes)
  is this function; the host's dot_general with the same dimension numbers is the same sum with no accumulator, so it
  is this function too; and an entry of a product depends on one row of the left operand and one column of the right,
  so the product of a block of rows of A with B is those rows of `matProd A B`. Sums on the extended reals are taken
  in any order, so no finiteness is asked. Nothing here mentions a program.
-/
import Idealize.ShloMosaic.PureOps.Ideal.Laws
import Idealize.ShloMosaic.Lib.ValueIdx
import proofs.«182117_j80625126080954_1_alg».proof.Proof.LibBlockReads

open scoped BigOperators

noncomputable section

namespace Cert.Lib.MatProd

open Idealize.ShloMosaic Idealize.ShloMosaic.ValueIdx

variable {m k n : Nat}

/-- The product of an m×k by a k×n array of extended reals. -/
def matProd (A : (⟨2, ![m, k]⟩ : Shape).Idx → EReal) (B : (⟨2, ![k, n]⟩ : Shape).Idx → EReal) :
    (⟨2, ![m, n]⟩ : Shape).Idx → EReal :=
  fun i => ∑ c : Fin k, A (ix2 (i 0) c) * B (ix2 c (i 1))

theorem matProd_apply (A : (⟨2, ![m, k]⟩ : Shape).Idx → EReal) (B : (⟨2, ![k, n]⟩ : Shape).Idx → EReal)
    (a : Fin m) (b : Fin n) : matProd A B (ix2 a b) = ∑ c : Fin k, A (ix2 a c) * B (ix2 c b) := rfl

/-- A plain product into a zero accumulator is `matProd`: entry by entry it is the sum over the contracted
    coordinate. -/
theorem matmul_zero_eq_matProd {φ₁ φ₂ : FTy} (d : DotDims ⟨2, ![m, k]⟩ ⟨2, ![k, n]⟩ ⟨2, ![m, n]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision)
    (A : FVec Ideal ⟨2, ![m, k]⟩ φ₁) (B : FVec Ideal ⟨2, ![k, n]⟩ φ₂) :
    matmul d prec A B (constant ⟨2, ![m, n]⟩ .f32 0x00000000#32) = matProd A B := by
  funext i
  obtain ⟨a, b, rfl⟩ : ∃ (a : Fin m) (b : Fin n), i = ix2 a b := ⟨i 0, i 1, eq_ix2 i⟩
  exact Cert.Lib.BlockReads.matmul_zero_rows_apply d hlc hrc hln hrn hlb hrb prec A B a b

/-- The host's dot_general is, on the extended reals, the product into a zero accumulator with the same dimension
    numbers: both are the sum over the contracted index of the products of the operands' entries. -/
theorem dotGeneral_eq_matmul_zero {sl sr so : Shape} {φ₁ φ₂ : FTy} (d : DotDims sl sr so)
    (prec prec' : Option ContractPrecision) (sched : HostSchedule) (A : FVec Ideal sl φ₁) (B : FVec Ideal sr φ₂) :
    FloatOps.dotGeneral d prec sched A B = matmul d prec' A B (constant so .f32 0x00000000#32) := by
  funext j
  show _ = FloatOps.matmul d prec' A B _ j
  rw [Ideal.dotGeneral_apply, Ideal.matmul_constant_zero_apply]

/-- So the host's plain dot_general is `matProd`, whatever the precision and the schedule. -/
theorem dotGeneral_eq_matProd {φ₁ φ₂ : FTy} (d : DotDims ⟨2, ![m, k]⟩ ⟨2, ![k, n]⟩ ⟨2, ![m, n]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (sched : HostSchedule)
    (A : FVec Ideal ⟨2, ![m, k]⟩ φ₁) (B : FVec Ideal ⟨2, ![k, n]⟩ φ₂) :
    FloatOps.dotGeneral d prec sched A B = matProd A B :=
  (dotGeneral_eq_matmul_zero d prec none sched A B).trans (matmul_zero_eq_matProd d hlc hrc hln hrn hlb hrb none A B)

/-- An entry of a product depends on one row of the left operand and one column of the right: if row y of A' is row r
    of A and column b of B' is column b' of B, then `matProd A' B'` at (y, b) is `matProd A B` at (r, b'). So the
    product of a block of rows of A with B is the same rows of `matProd A B`. -/
theorem matProd_block {m' n' : Nat} (A : (⟨2, ![m, k]⟩ : Shape).Idx → EReal) (A' : (⟨2, ![m', k]⟩ : Shape).Idx → EReal)
    (B : (⟨2, ![k, n]⟩ : Shape).Idx → EReal) (B' : (⟨2, ![k, n']⟩ : Shape).Idx → EReal)
    (y : Fin m') (b : Fin n') (r : Fin m) (b' : Fin n)
    (hA : ∀ c : Fin k, A' (ix2 y c) = A (ix2 r c)) (hB : ∀ c : Fin k, B' (ix2 c b) = B (ix2 c b')) :
    matProd A' B' (ix2 y b) = matProd A B (ix2 r b') := by
  rw [matProd_apply, matProd_apply]
  exact Finset.sum_congr rfl fun c _ => by rw [hA c, hB c]

end Cert.Lib.MatProd

end
-- ==== Proof.LibRowBlocks.lean ====
/-
  Blocks of rows of a matrix product. An entry of a product depends on one row of the left operand, so a block of
  consecutive rows of A, multiplied by B, is the same block of rows of the product of A with B. Stated here with the
  two indices as variables: the index y inside the block and the index i of the whole array it sits at.
  Nothing here mentions a program.
-/
import Idealize.ShloMosaic.Lib.ValueIdx
import proofs.«182117_j80625126080954_1_alg».proof.Proof.LibMatProd

open scoped BigOperators

noncomputable section

namespace Cert.Lib.RowBlocks

open Idealize.ShloMosaic Idealize.ShloMosaic.ValueIdx Cert.Lib.MatProd

/-- The zero offset of a rank-2 rectangle, as a constant function. -/
theorem zero_offset2 : (![0, 0] : Fin 2 → Nat) = fun _ => 0 := funext fun a => by fin_cases a <;> rfl

/-- If row (y 0) of A' is row (i 0) of A, and y and i have the same column, the product of A' with B at y is the
    product of A with B at i. -/
theorem matProd_rows {m m' k n : Nat} (A : (⟨2, ![m, k]⟩ : Shape).Idx → EReal) (A' : (⟨2, ![m', k]⟩ : Shape).Idx → EReal)
    (B : (⟨2, ![k, n]⟩ : Shape).Idx → EReal) (y : (⟨2, ![m', n]⟩ : Shape).Idx) (i : (⟨2, ![m, n]⟩ : Shape).Idx)
    (hA : ∀ c : Fin k, A' (ix2 (⟨(y 0).val, idx2_lt0 y⟩ : Fin m') c) = A (ix2 (⟨(i 0).val, idx2_lt0 i⟩ : Fin m) c))
    (hcol : (y 1).val = (i 1).val) :
    matProd A' B y = matProd A B i := by
  obtain ⟨p, q, rfl⟩ : ∃ (p : Fin m') (q : Fin n), y = ix2 p q := ⟨y 0, y 1, eq_ix2 y⟩
  obtain ⟨r, s, rfl⟩ : ∃ (r : Fin m) (s : Fin n), i = ix2 r s := ⟨i 0, i 1, eq_ix2 i⟩
  have hqs : q = s := Fin.ext hcol
  subst hqs
  exact matProd_block A A' B B p q r q hA (fun _ => rfl)

end Cert.Lib.RowBlocks

end
-- ==== Proof.Projection0.lean ====
/-
  The linear projection of layer 0: every node's feature row times the layer's weight matrix.

  The kernel region walks the node axis in ten blocks of 5000 rows. At each point its body multiplies the block of
  rows it was handed by the whole 128×128 weight matrix, into a zero accumulator (the change of float format of the
  operands is the identity on the extended reals), and the block is written back at the same rows. An entry of a
  matrix product depends on one row of the left operand only, so the block written at point t is rows
  5000·t … 5000·t + 4999 of the product of the WHOLE feature array with the weights; the ten blocks tile the
  array, so after the region the output array is that product. Stated for any contents of the buffers at the
  region's entry.
-/
import proofs.«182117_j80625126080954_1_alg».proof.Proof.Gen.KernelIdeal.Frame
import proofs.«182117_j80625126080954_1_alg».proof.Proof.LibMatProd
import proofs.«182117_j80625126080954_1_alg».proof.Proof.LibRowBlocks
import Idealize.ShloMosaic.Lib.Pipeline.Value
import Idealize.ShloMosaic.Lib.ValueIdx

set_option maxRecDepth 16384

noncomputable section

namespace Cert.KernelIdeal.Projection0

open Cert.KernelIdeal Cert.KernelIdeal.Gen Idealize.ShloMosaic Idealize.ShloMosaic.TcCoe Idealize.SL.Sem
open Idealize.ShloMosaic.ValueIdx
open Idealize.ShloMosaic.Pipeline (Dat)
open Cert.Lib.MatProd Cert.Lib.RowBlocks

variable (V : (c : Dev nD) → (b : Ref sig .tc) → Buf (Elt Ideal) ((c : Thread nD τ).loc b))

/-- The body's stored value is the product of the block of rows with the weight matrix. -/
theorem body (x0 : Vec Ideal S5000x128 .f32) (x1 : Vec Ideal S128x128 .f32) :
    k0_pay1 (F := Ideal) x0 x1 = matProd x0 x1 := by
  unfold k0_pay1
  dsimp only
  exact matmul_zero_eq_matProd dot_S5000x128_S128x128_S5000x128_1_0_0_1_n_n rfl rfl rfl rfl rfl rfl none _ _

/-- Where the three windows' blocks sit at each grid point: the feature block and the output block at block-row t,
    the weights whole. -/
theorem block_index : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (0 : Fin 2) ≤ 9
    ∧ win0_2.index t (1 : Fin 2) = 0 :=
  (by decide +kernel : ∀ t : Fin grid0.N, _)

/-- Every block-row of the output is some point's. -/
theorem block_onto : ∀ q : Fin 10, ∃ t : Fin cfg0.N, win0_2.index t = ![q.val, 0] :=
  (by decide +kernel : ∀ q : Fin 10, ∃ t : Fin grid0.N, win0_2.index t = ![q.val, 0])

/-- The weights' window is the whole weight matrix at every point. -/
theorem weights_whole (c : Dev nD) (t : Fin cfg0.N) : iblk0 V c 1 t = (V c main_arg2 : S128x128.Idx → EReal) := by
  obtain ⟨-, -, e2, e3, -, -⟩ := block_index t
  funext y
  show (V c main_arg2 : S128x128.Idx → EReal) (((cfg0.win 1).blk t).view.emb y) = V c main_arg2 y
  refine congrArg _ ?_
  funext a; apply Fin.ext
  match a with
  | ⟨0, _⟩ => show win0_1.index t (0 : Fin 2) * 128 + 1 * (y 0).val = (y 0).val; omega
  | ⟨1, _⟩ => show win0_1.index t (1 : Fin 2) * 128 + 1 * (y 1).val = (y 1).val; omega

/-- What point t writes back is block t of the product of the whole feature array with the weights. -/
theorem flushed_eq (c : Dev nD) (t : Fin cfg0.N) :
    (dat0 V c).flushed 2 t = ((cfg0.win 2).blk t).view.read (Elt Ideal)
      (matProd (V c main_arg0 : S50000x128.Idx → EReal) (V c main_arg2 : S128x128.Idx → EReal)) := by
  show (cfg0.win 2).cut (grid0.coords t) ((dat0 V c).after 2 t) = _
  rw [after0_2]
  unfold out0_2
  rw [View.canon_unit_zero zero_offset2]
  simp only [View.ld_unit_zero (S := S5000x128) zero_offset2, View.ld_unit_zero (S := S128x128) zero_offset2]
  rw [body, weights_whole V c t]
  obtain ⟨e0, e1, -, -, -, e5⟩ := block_index t
  funext j
  show matProd (iblk0 V c 0 t) (V c main_arg2 : S128x128.Idx → EReal) j
    = matProd (V c main_arg0 : S50000x128.Idx → EReal) (V c main_arg2 : S128x128.Idx → EReal) (((cfg0.win 2).blk t).view.emb j)
  refine matProd_rows (V c main_arg0 : S50000x128.Idx → EReal) (iblk0 V c 0 t) (V c main_arg2 : S128x128.Idx → EReal) j
    (((cfg0.win 2).blk t).view.emb j) (fun k => ?_) ?_
  · show (V c main_arg0 : S50000x128.Idx → EReal) (((cfg0.win 0).blk t).view.emb (ix2 (⟨(j 0).val, idx2_lt0 j⟩ : Fin 5000) k)) = _
    refine congrArg _ ?_
    funext a; apply Fin.ext
    match a with
    | ⟨0, _⟩ => show win0_0.index t (0 : Fin 2) * 5000 + 1 * (j 0).val = win0_2.index t (0 : Fin 2) * 5000 + 1 * (j 0).val; omega
    | ⟨1, _⟩ => show win0_0.index t (1 : Fin 2) * 128 + 1 * k.val = k.val; omega
  · show (j 1).val = win0_2.index t (1 : Fin 2) * 128 + 1 * (j 1).val; omega

/-- An index of the output array is in point t's block iff each coordinate is in the block's range on its axis. -/
theorem mem_blk (t : Fin cfg0.N) (i : S50000x128.Idx) :
    i ∈ ((cfg0.win 2).blk t).view.set ↔ ∀ a : Fin 2, win0_2.index t a * S5000x128.size a ≤ (i a).val
      ∧ (i a).val < win0_2.index t a * S5000x128.size a + S5000x128.size a := by
  show i ∈ ((View.whole main_v11).slice (win0_2.rect t)).set ↔ _
  rw [View.set_slice_whole, Rect.mem_set_unit]
  exact Iff.rfl

/-- The ten blocks tile the output array: row r lies in the block of point r / 5000. -/
theorem covered (i : S50000x128.Idx) :
    ∃ t : Fin cfg0.N, (cfg0.win 2).flush t = true ∧ i ∈ ((cfg0.win 2).blk t).view.set := by
  have hi0 : (i 0).val < 50000 := (i 0).isLt
  have hi1 : (i 1).val < 128 := (i 1).isLt
  obtain ⟨t, ht⟩ := block_onto ⟨(i 0).val / 5000, by omega⟩
  have q0 : win0_2.index t (0 : Fin 2) = (i 0).val / 5000 := congrFun ht 0
  have q1 : win0_2.index t (1 : Fin 2) = 0 := congrFun ht 1
  refine ⟨t, flush0_2 t, ?_⟩
  rw [mem_blk]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 128 ≤ (i 1).val ∧ (i 1).val < win0_2.index t (1 : Fin 2) * 128 + 128; omega

/-- After the region the output array is the product of the feature array with the weights, as the region found
    them. -/
theorem final (c : Dev nD) :
    (dat0 V c).arrAt 2 cfg0.N = matProd (V c main_arg0 : S50000x128.Idx → EReal) (V c main_arg2 : S128x128.Idx → EReal) :=
  (dat0 V c).arrAt_eq_of_cover 2 _ (fun t _ => flushed_eq V c t) covered

end Cert.KernelIdeal.Projection0

end
-- ==== Proof.Projection1.lean ====
/-
  The linear projection of layer 1: every node's feature row times the layer's weight matrix.

  The kernel region walks the node axis in ten blocks of 5000 rows. At each point its body multiplies the block of
  rows it was handed by the whole 128×64 weight matrix, into a zero accumulator (the change of float format of the
  operands is the identity on the extended reals), and the block is written back at the same rows. An entry of a
  matrix product depends on one row of the left operand only, so the block written at point t is rows
  5000·t … 5000·t + 4999 of the product of the WHOLE feature array with the weights; the ten blocks tile the
  array, so after the region the output array is that product. Stated for any contents of the buffers at the
  region's entry.
-/
import proofs.«182117_j80625126080954_1_alg».proof.Proof.Gen.KernelIdeal.Frame
import proofs.«182117_j80625126080954_1_alg».proof.Proof.LibMatProd
import proofs.«182117_j80625126080954_1_alg».proof.Proof.LibRowBlocks
import Idealize.ShloMosaic.Lib.Pipeline.Value
import Idealize.ShloMosaic.Lib.ValueIdx

set_option maxRecDepth 16384

noncomputable section

namespace Cert.KernelIdeal.Projection1

open Cert.KernelIdeal Cert.KernelIdeal.Gen Idealize.ShloMosaic Idealize.ShloMosaic.TcCoe Idealize.SL.Sem
open Idealize.ShloMosaic.ValueIdx
open Idealize.ShloMosaic.Pipeline (Dat)
open Cert.Lib.MatProd Cert.Lib.RowBlocks

variable (V : (c : Dev nD) → (b : Ref sig .tc) → Buf (Elt Ideal) ((c : Thread nD τ).loc b))

/-- The body's stored value is the product of the block of rows with the weight matrix. -/
theorem body (x0 : Vec Ideal S5000x128 .f32) (x1 : Vec Ideal S128x64 .f32) :
    k2_pay1 (F := Ideal) x0 x1 = matProd x0 x1 := by
  unfold k2_pay1
  dsimp only
  rw [shapeCast_self]
  exact matmul_zero_eq_matProd dot_S5000x128_S128x64_S5000x64_1_0_0_1_n_n rfl rfl rfl rfl rfl rfl none _ _

/-- Where the three windows' blocks sit at each grid point: the feature block and the output block at block-row t,
    the weights whole. -/
theorem block_index : ∀ t : Fin cfg2.N, win2_0.index t (0 : Fin 2) = win2_2.index t (0 : Fin 2)
    ∧ win2_0.index t (1 : Fin 2) = 0
    ∧ win2_1.index t (0 : Fin 2) = 0
    ∧ win2_1.index t (1 : Fin 2) = 0
    ∧ win2_2.index t (0 : Fin 2) ≤ 9
    ∧ win2_2.index t (1 : Fin 2) = 0 :=
  (by decide +kernel : ∀ t : Fin grid2.N, _)

/-- Every block-row of the output is some point's. -/
theorem block_onto : ∀ q : Fin 10, ∃ t : Fin cfg2.N, win2_2.index t = ![q.val, 0] :=
  (by decide +kernel : ∀ q : Fin 10, ∃ t : Fin grid2.N, win2_2.index t = ![q.val, 0])

/-- The weights' window is the whole weight matrix at every point. -/
theorem weights_whole (c : Dev nD) (t : Fin cfg2.N) : iblk2 V c 1 t = (V c main_arg8 : S128x64.Idx → EReal) := by
  obtain ⟨-, -, e2, e3, -, -⟩ := block_index t
  funext y
  show (V c main_arg8 : S128x64.Idx → EReal) (((cfg2.win 1).blk t).view.emb y) = V c main_arg8 y
  refine congrArg _ ?_
  funext a; apply Fin.ext
  match a with
  | ⟨0, _⟩ => show win2_1.index t (0 : Fin 2) * 128 + 1 * (y 0).val = (y 0).val; omega
  | ⟨1, _⟩ => show win2_1.index t (1 : Fin 2) * 64 + 1 * (y 1).val = (y 1).val; omega

/-- What point t writes back is block t of the product of the whole feature array with the weights. -/
theorem flushed_eq (c : Dev nD) (t : Fin cfg2.N) :
    (dat2 V c).flushed 2 t = ((cfg2.win 2).blk t).view.read (Elt Ideal)
      (matProd (V c main_v50 : S50000x128.Idx → EReal) (V c main_arg8 : S128x64.Idx → EReal)) := by
  show (cfg2.win 2).cut (grid2.coords t) ((dat2 V c).after 2 t) = _
  rw [after2_2]
  unfold out2_2
  rw [View.canon_unit_zero zero_offset2]
  simp only [View.ld_unit_zero (S := S5000x128) zero_offset2, View.ld_unit_zero (S := S128x64) zero_offset2]
  rw [body, weights_whole V c t]
  obtain ⟨e0, e1, -, -, -, e5⟩ := block_index t
  funext j
  show matProd (iblk2 V c 0 t) (V c main_arg8 : S128x64.Idx → EReal) j
    = matProd (V c main_v50 : S50000x128.Idx → EReal) (V c main_arg8 : S128x64.Idx → EReal) (((cfg2.win 2).blk t).view.emb j)
  refine matProd_rows (V c main_v50 : S50000x128.Idx → EReal) (iblk2 V c 0 t) (V c main_arg8 : S128x64.Idx → EReal) j
    (((cfg2.win 2).blk t).view.emb j) (fun k => ?_) ?_
  · show (V c main_v50 : S50000x128.Idx → EReal) (((cfg2.win 0).blk t).view.emb (ix2 (⟨(j 0).val, idx2_lt0 j⟩ : Fin 5000) k)) = _
    refine congrArg _ ?_
    funext a; apply Fin.ext
    match a with
    | ⟨0, _⟩ => show win2_0.index t (0 : Fin 2) * 5000 + 1 * (j 0).val = win2_2.index t (0 : Fin 2) * 5000 + 1 * (j 0).val; omega
    | ⟨1, _⟩ => show win2_0.index t (1 : Fin 2) * 128 + 1 * k.val = k.val; omega
  · show (j 1).val = win2_2.index t (1 : Fin 2) * 64 + 1 * (j 1).val; omega

/-- An index of the output array is in point t's block iff each coordinate is in the block's range on its axis. -/
theorem mem_blk (t : Fin cfg2.N) (i : S50000x64.Idx) :
    i ∈ ((cfg2.win 2).blk t).view.set ↔ ∀ a : Fin 2, win2_2.index t a * S5000x64.size a ≤ (i a).val
      ∧ (i a).val < win2_2.index t a * S5000x64.size a + S5000x64.size a := by
  show i ∈ ((View.whole main_v51).slice (win2_2.rect t)).set ↔ _
  rw [View.set_slice_whole, Rect.mem_set_unit]
  exact Iff.rfl

/-- The ten blocks tile the output array: row r lies in the block of point r / 5000. -/
theorem covered (i : S50000x64.Idx) :
    ∃ t : Fin cfg2.N, (cfg2.win 2).flush t = true ∧ i ∈ ((cfg2.win 2).blk t).view.set := by
  have hi0 : (i 0).val < 50000 := (i 0).isLt
  have hi1 : (i 1).val < 64 := (i 1).isLt
  obtain ⟨t, ht⟩ := block_onto ⟨(i 0).val / 5000, by omega⟩
  have q0 : win2_2.index t (0 : Fin 2) = (i 0).val / 5000 := congrFun ht 0
  have q1 : win2_2.index t (1 : Fin 2) = 0 := congrFun ht 1
  refine ⟨t, flush2_2 t, ?_⟩
  rw [mem_blk]
  intro a
  match a with
  | ⟨0, _⟩ => show win2_2.index t (0 : Fin 2) * 5000 ≤ (i 0).val ∧ (i 0).val < win2_2.index t (0 : Fin 2) * 5000 + 5000; omega
  | ⟨1, _⟩ => show win2_2.index t (1 : Fin 2) * 64 ≤ (i 1).val ∧ (i 1).val < win2_2.index t (1 : Fin 2) * 64 + 64; omega

/-- After the region the output array is the product of the feature array with the weights, as the region found
    them. -/
theorem final (c : Dev nD) :
    (dat2 V c).arrAt 2 cfg2.N = matProd (V c main_v50 : S50000x128.Idx → EReal) (V c main_arg8 : S128x64.Idx → EReal) :=
  (dat2 V c).arrAt_eq_of_cover 2 _ (fun t _ => flushed_eq V c t) covered

end Cert.KernelIdeal.Projection1

end
-- ==== Proof.Projection2.lean ====
/-
  The linear projection of layer 2: every node's feature row times the layer's weight matrix.

  The kernel region walks the node axis in ten blocks of 5000 rows. At each point its body multiplies the block of
  rows it was handed by the whole 64×32 weight matrix, into a zero accumulator (the change of float format of the
  operands is the identity on the extended reals), and the block is written back at the same rows. An entry of a
  matrix product depends on one row of the left operand only, so the block written at point t is rows
  5000·t … 5000·t + 4999 of the product of the WHOLE feature array with the weights; the ten blocks tile the
  array, so after the region the output array is that product. Stated for any contents of the buffers at the
  region's entry.
-/
import proofs.«182117_j80625126080954_1_alg».proof.Proof.Gen.KernelIdeal.Frame
import proofs.«182117_j80625126080954_1_alg».proof.Proof.LibMatProd
import proofs.«182117_j80625126080954_1_alg».proof.Proof.LibRowBlocks
import Idealize.ShloMosaic.Lib.Pipeline.Value
import Idealize.ShloMosaic.Lib.ValueIdx

set_option maxRecDepth 16384

noncomputable section

namespace Cert.KernelIdeal.Projection2

open Cert.KernelIdeal Cert.KernelIdeal.Gen Idealize.ShloMosaic Idealize.ShloMosaic.TcCoe Idealize.SL.Sem
open Idealize.ShloMosaic.ValueIdx
open Idealize.ShloMosaic.Pipeline (Dat)
open Cert.Lib.MatProd Cert.Lib.RowBlocks

variable (V : (c : Dev nD) → (b : Ref sig .tc) → Buf (Elt Ideal) ((c : Thread nD τ).loc b))

/-- The body's stored value is the product of the block of rows with the weight matrix. -/
theorem body (x0 : Vec Ideal S5000x64 .f32) (x1 : Vec Ideal S64x32 .f32) :
    k4_pay1 (F := Ideal) x0 x1 = matProd x0 x1 := by
  unfold k4_pay1
  dsimp only
  rw [shapeCast_self]
  exact matmul_zero_eq_matProd dot_S5000x64_S64x32_S5000x32_1_0_0_1_n_n rfl rfl rfl rfl rfl rfl none _ _

/-- Where the three windows' blocks sit at each grid point: the feature block and the output block at block-row t,
    the weights whole. -/
theorem block_index : ∀ t : Fin cfg4.N, win4_0.index t (0 : Fin 2) = win4_2.index t (0 : Fin 2)
    ∧ win4_0.index t (1 : Fin 2) = 0
    ∧ win4_1.index t (0 : Fin 2) = 0
    ∧ win4_1.index t (1 : Fin 2) = 0
    ∧ win4_2.index t (0 : Fin 2) ≤ 9
    ∧ win4_2.index t (1 : Fin 2) = 0 :=
  (by decide +kernel : ∀ t : Fin grid4.N, _)

/-- Every block-row of the output is some point's. -/
theorem block_onto : ∀ q : Fin 10, ∃ t : Fin cfg4.N, win4_2.index t = ![q.val, 0] :=
  (by decide +kernel : ∀ q : Fin 10, ∃ t : Fin grid4.N, win4_2.index t = ![q.val, 0])

/-- The weights' window is the whole weight matrix at every point. -/
theorem weights_whole (c : Dev nD) (t : Fin cfg4.N) : iblk4 V c 1 t = (V c main_arg16 : S64x32.Idx → EReal) := by
  obtain ⟨-, -, e2, e3, -, -⟩ := block_index t
  funext y
  show (V c main_arg16 : S64x32.Idx → EReal) (((cfg4.win 1).blk t).view.emb y) = V c main_arg16 y
  refine congrArg _ ?_
  funext a; apply Fin.ext
  match a with
  | ⟨0, _⟩ => show win4_1.index t (0 : Fin 2) * 64 + 1 * (y 0).val = (y 0).val; omega
  | ⟨1, _⟩ => show win4_1.index t (1 : Fin 2) * 32 + 1 * (y 1).val = (y 1).val; omega

/-- What point t writes back is block t of the product of the whole feature array with the weights. -/
theorem flushed_eq (c : Dev nD) (t : Fin cfg4.N) :
    (dat4 V c).flushed 2 t = ((cfg4.win 2).blk t).view.read (Elt Ideal)
      (matProd (V c main_v91 : S50000x64.Idx → EReal) (V c main_arg16 : S64x32.Idx → EReal)) := by
  show (cfg4.win 2).cut (grid4.coords t) ((dat4 V c).after 2 t) = _
  rw [after4_2]
  unfold out4_2
  rw [View.canon_unit_zero zero_offset2]
  simp only [View.ld_unit_zero (S := S5000x64) zero_offset2, View.ld_unit_zero (S := S64x32) zero_offset2]
  rw [body, weights_whole V c t]
  obtain ⟨e0, e1, -, -, -, e5⟩ := block_index t
  funext j
  show matProd (iblk4 V c 0 t) (V c main_arg16 : S64x32.Idx → EReal) j
    = matProd (V c main_v91 : S50000x64.Idx → EReal) (V c main_arg16 : S64x32.Idx → EReal) (((cfg4.win 2).blk t).view.emb j)
  refine matProd_rows (V c main_v91 : S50000x64.Idx → EReal) (iblk4 V c 0 t) (V c main_arg16 : S64x32.Idx → EReal) j
    (((cfg4.win 2).blk t).view.emb j) (fun k => ?_) ?_
  · show (V c main_v91 : S50000x64.Idx → EReal) (((cfg4.win 0).blk t).view.emb (ix2 (⟨(j 0).val, idx2_lt0 j⟩ : Fin 5000) k)) = _
    refine congrArg _ ?_
    funext a; apply Fin.ext
    match a with
    | ⟨0, _⟩ => show win4_0.index t (0 : Fin 2) * 5000 + 1 * (j 0).val = win4_2.index t (0 : Fin 2) * 5000 + 1 * (j 0).val; omega
    | ⟨1, _⟩ => show win4_0.index t (1 : Fin 2) * 64 + 1 * k.val = k.val; omega
  · show (j 1).val = win4_2.index t (1 : Fin 2) * 32 + 1 * (j 1).val; omega

/-- An index of the output array is in point t's block iff each coordinate is in the block's range on its axis. -/
theorem mem_blk (t : Fin cfg4.N) (i : S50000x32.Idx) :
    i ∈ ((cfg4.win 2).blk t).view.set ↔ ∀ a : Fin 2, win4_2.index t a * S5000x32.size a ≤ (i a).val
      ∧ (i a).val < win4_2.index t a * S5000x32.size a + S5000x32.size a := by
  show i ∈ ((View.whole main_v92).slice (win4_2.rect t)).set ↔ _
  rw [View.set_slice_whole, Rect.mem_set_unit]
  exact Iff.rfl

/-- The ten blocks tile the output array: row r lies in the block of point r / 5000. -/
theorem covered (i : S50000x32.Idx) :
    ∃ t : Fin cfg4.N, (cfg4.win 2).flush t = true ∧ i ∈ ((cfg4.win 2).blk t).view.set := by
  have hi0 : (i 0).val < 50000 := (i 0).isLt
  have hi1 : (i 1).val < 32 := (i 1).isLt
  obtain ⟨t, ht⟩ := block_onto ⟨(i 0).val / 5000, by omega⟩
  have q0 : win4_2.index t (0 : Fin 2) = (i 0).val / 5000 := congrFun ht 0
  have q1 : win4_2.index t (1 : Fin 2) = 0 := congrFun ht 1
  refine ⟨t, flush4_2 t, ?_⟩
  rw [mem_blk]
  intro a
  match a with
  | ⟨0, _⟩ => show win4_2.index t (0 : Fin 2) * 5000 ≤ (i 0).val ∧ (i 0).val < win4_2.index t (0 : Fin 2) * 5000 + 5000; omega
  | ⟨1, _⟩ => show win4_2.index t (1 : Fin 2) * 32 ≤ (i 1).val ∧ (i 1).val < win4_2.index t (1 : Fin 2) * 32 + 32; omega

/-- After the region the output array is the product of the feature array with the weights, as the region found
    them. -/
theorem final (c : Dev nD) :
    (dat4 V c).arrAt 2 cfg4.N = matProd (V c main_v91 : S50000x64.Idx → EReal) (V c main_arg16 : S64x32.Idx → EReal) :=
  (dat4 V c).arrAt_eq_of_cover 2 _ (fun t _ => flushed_eq V c t) covered

end Cert.KernelIdeal.Projection2

end
-- ==== Proof.LayerSpec.lean ====
/-
  One layer of the graph network after the neighbour aggregation, on the extended reals, as whole-array functions.

  Given the aggregated array c (one row per node) the layer adds a bias vector, normalises every column by a given
  mean and variance (subtract the mean, multiply by the reciprocal square root of the variance plus a fixed small
  word), scales and shifts by two more vectors, clamps below at zero, and adds a residual: the layer's own input x
  when the widths agree (`withInput`), or x times a skip matrix plus a skip bias when they do not (`withSkip`).
  An entry depends on its own row of c and of x only, on column q of the vectors, and (the skip form) on column q of
  the skip matrix. Nothing here mentions a program; no finiteness is asked: the two programs this file serves group
  every sum and product the same way.
-/
import Idealize.ShloMosaic.PureOps.Ideal
import Idealize.ShloMosaic.PureOps.Ideal.Laws
import Idealize.ShloMosaic.Lib.ValueIdx
import proofs.«182117_j80625126080954_1_alg».proof.Proof.LibMatProd

open scoped BigOperators

noncomputable section

namespace Cert.Layer

open Idealize.ShloMosaic Idealize.ShloMosaic.ValueIdx Cert.Lib.MatProd

variable {r n k : Nat}

/-- Column q of a vector of n entries, for the column of a rank-2 index. -/
abbrev col (i : (⟨2, ![r, n]⟩ : Shape).Idx) : (⟨1, ![n]⟩ : Shape).Idx := ix1 (⟨(i 1).val, idx2_lt1 i⟩ : Fin n)

/-- Bias, normalisation by the given mean μ and variance v, scale γ, shift β, clamp at zero: one entry. -/
def normRelu (c : (⟨2, ![r, n]⟩ : Shape).Idx → EReal) (b μ v γ β : (⟨1, ![n]⟩ : Shape).Idx → EReal) :
    (⟨2, ![r, n]⟩ : Shape).Idx → EReal := fun i =>
  max ((((c i + b (col i)) - μ (col i)) * Ideal.rsqrt (v (col i) + Ideal.ofBits .f32 0x3727C5AC#32)) * γ (col i)
    + β (col i)) (Ideal.ofBits .f32 0x00000000#32)

/-- The layer whose residual is its own input. -/
def withInput (x c : (⟨2, ![r, n]⟩ : Shape).Idx → EReal) (b μ v γ β : (⟨1, ![n]⟩ : Shape).Idx → EReal) :
    (⟨2, ![r, n]⟩ : Shape).Idx → EReal := fun i => normRelu c b μ v γ β i + x i

/-- The layer whose residual is the input times a skip matrix plus a skip bias. -/
def withSkip (x : (⟨2, ![r, k]⟩ : Shape).Idx → EReal) (c : (⟨2, ![r, n]⟩ : Shape).Idx → EReal)
    (b μ v γ β : (⟨1, ![n]⟩ : Shape).Idx → EReal) (S : (⟨2, ![k, n]⟩ : Shape).Idx → EReal)
    (s : (⟨1, ![n]⟩ : Shape).Idx → EReal) : (⟨2, ![r, n]⟩ : Shape).Idx → EReal :=
  fun i => normRelu c b μ v γ β i + (matProd x S i + s (col i))

end Cert.Layer

end
-- ==== Proof.Layer0.lean ====
/-
  Layer 0 of the network after its neighbour aggregation, as the kernel region computes it.

  The region walks the node axis in ten blocks of 5000 rows. At each point its body is handed the same block of rows
  of the layer's input x and of the aggregated array c, and the whole of each per-column vector as a 1×128 row
  (bias, scale, shift, mean, variance); it adds the bias row to c, subtracts the mean row,
  multiplies by the reciprocal square root of the variance row plus a fixed small word, by the scale row, adds the
  shift row, clamps at zero and adds the block of x. Every step is entry by entry, so
  the block written back at point t is rows 5000·t … 5000·t + 4999 of the layer function of the WHOLE arrays; the
  ten blocks tile the output array. Stated for any contents of the buffers at the region's entry, the per-column
  vectors being whatever the 1×128 rows hold.
-/
import proofs.«182117_j80625126080954_1_alg».proof.Proof.Gen.KernelIdeal.Frame
import proofs.«182117_j80625126080954_1_alg».proof.Proof.LibBlockReads
import proofs.«182117_j80625126080954_1_alg».proof.Proof.LibMatProd
import proofs.«182117_j80625126080954_1_alg».proof.Proof.LibRowBlocks
import proofs.«182117_j80625126080954_1_alg».proof.Proof.LayerSpec
import Idealize.ShloMosaic.Lib.Pipeline.Value
import Idealize.ShloMosaic.Lib.ValueIdx

set_option maxRecDepth 16384

noncomputable section

namespace Cert.KernelIdeal.Layer0

open Cert.KernelIdeal Cert.KernelIdeal.Gen Idealize.ShloMosaic Idealize.ShloMosaic.TcCoe Idealize.SL.Sem
open Idealize.ShloMosaic.ValueIdx
open Idealize.ShloMosaic.Pipeline (Dat)
open Cert.Lib.MatProd Cert.Lib.RowBlocks Cert.Lib.BlockReads Cert.Layer

variable (V : (c : Dev nD) → (b : Ref sig .tc) → Buf (Elt Ideal) ((c : Thread nD τ).loc b))

/-- The body's stored value at row p, column q of its block, from the blocks it loaded. -/
theorem body_at (c : Vec Ideal S5000x128 .f32) (rb rμ rv rγ rβ : Vec Ideal S1x128 .f32) (x : Vec Ideal S5000x128 .f32) (p : Fin 5000) (q : Fin 128) :
    k1_pay1 (F := Ideal) c rb rμ rv rγ rβ x (ix2 p q)
      = max ((((c (ix2 p q) + rb (ix2 0 q)) - rμ (ix2 0 q)) * Ideal.rsqrt (rv (ix2 0 q) + Ideal.ofBits .f32 0x3727C5AC#32))
          * rγ (ix2 0 q) + rβ (ix2 0 q)) (Ideal.ofBits .f32 0x00000000#32) + x (ix2 p q) := by
  unfold k1_pay1
  simp only [shapeCast_self]
  simp only [addf_apply, subf_apply, mulf_apply, maximumf_apply, broadcast_row_apply, broadcast_apply]
  rfl

/-- Where the windows' blocks sit at each grid point: x, c and the output at block-row t, everything else whole. -/
theorem block_index : ∀ t : Fin cfg1.N, win1_0.index t (0 : Fin 2) = win1_7.index t (0 : Fin 2)
    ∧ win1_0.index t (1 : Fin 2) = 0
    ∧ win1_1.index t (0 : Fin 2) = win1_7.index t (0 : Fin 2)
    ∧ win1_1.index t (1 : Fin 2) = 0
    ∧ win1_2.index t (0 : Fin 2) = 0
    ∧ win1_2.index t (1 : Fin 2) = 0
    ∧ win1_3.index t (0 : Fin 2) = 0
    ∧ win1_3.index t (1 : Fin 2) = 0
    ∧ win1_4.index t (0 : Fin 2) = 0
    ∧ win1_4.index t (1 : Fin 2) = 0
    ∧ win1_5.index t (0 : Fin 2) = 0
    ∧ win1_5.index t (1 : Fin 2) = 0
    ∧ win1_6.index t (0 : Fin 2) = 0
    ∧ win1_6.index t (1 : Fin 2) = 0
    ∧ win1_7.index t (0 : Fin 2) ≤ 9
    ∧ win1_7.index t (1 : Fin 2) = 0 :=
  (by decide +kernel : ∀ t : Fin grid1.N, _)

/-- Every block-row of the output is some point's. -/
theorem block_onto : ∀ q : Fin 10, ∃ t : Fin cfg1.N, win1_7.index t = ![q.val, 0] :=
  (by decide +kernel : ∀ q : Fin 10, ∃ t : Fin grid1.N, win1_7.index t = ![q.val, 0])

/-- Window 2 is its whole 1×128 row at every point. -/
theorem row2 (c : Dev nD) (t : Fin cfg1.N) (y : S1x128.Idx) :
    iblk1 V c 2 t y = (V c main_v45 : S1x128.Idx → EReal) y := by
  obtain ⟨e0, e1, e2, e3, e4, e5, e6, e7, e8, e9, e10, e11, e12, e13, e14, e15⟩ := block_index t
  show (V c main_v45 : S1x128.Idx → EReal) (((cfg1.win 2).blk t).view.emb y) = V c main_v45 y
  refine congrArg _ ?_
  funext a; apply Fin.ext
  match a with
  | ⟨0, _⟩ => show win1_2.index t (0 : Fin 2) * 1 + 1 * (y 0).val = (y 0).val; omega
  | ⟨1, _⟩ => show win1_2.index t (1 : Fin 2) * 128 + 1 * (y 1).val = (y 1).val; omega

/-- Window 3 is its whole 1×128 row at every point. -/
theorem row3 (c : Dev nD) (t : Fin cfg1.N) (y : S1x128.Idx) :
    iblk1 V c 3 t y = (V c main_v46 : S1x128.Idx → EReal) y := by
  obtain ⟨e0, e1, e2, e3, e4, e5, e6, e7, e8, e9, e10, e11, e12, e13, e14, e15⟩ := block_index t
  show (V c main_v46 : S1x128.Idx → EReal) (((cfg1.win 3).blk t).view.emb y) = V c main_v46 y
  refine congrArg _ ?_
  funext a; apply Fin.ext
  match a with
  | ⟨0, _⟩ => show win1_3.index t (0 : Fin 2) * 1 + 1 * (y 0).val = (y 0).val; omega
  | ⟨1, _⟩ => show win1_3.index t (1 : Fin 2) * 128 + 1 * (y 1).val = (y 1).val; omega

/-- Window 4 is its whole 1×128 row at every point. -/
theorem row4 (c : Dev nD) (t : Fin cfg1.N) (y : S1x128.Idx) :
    iblk1 V c 4 t y = (V c main_v47 : S1x128.Idx → EReal) y := by
  obtain ⟨e0, e1, e2, e3, e4, e5, e6, e7, e8, e9, e10, e11, e12, e13, e14, e15⟩ := block_index t
  show (V c main_v47 : S1x128.Idx → EReal) (((cfg1.win 4).blk t).view.emb y) = V c main_v47 y
  refine congrArg _ ?_
  funext a; apply Fin.ext
  match a with
  | ⟨0, _⟩ => show win1_4.index t (0 : Fin 2) * 1 + 1 * (y 0).val = (y 0).val; omega
  | ⟨1, _⟩ => show win1_4.index t (1 : Fin 2) * 128 + 1 * (y 1).val = (y 1).val; omega

/-- Window 5 is its whole 1×128 row at every point. -/
theorem row5 (c : Dev nD) (t : Fin cfg1.N) (y : S1x128.Idx) :
    iblk1 V c 5 t y = (V c main_v48 : S1x128.Idx → EReal) y := by
  obtain ⟨e0, e1, e2, e3, e4, e5, e6, e7, e8, e9, e10, e11, e12, e13, e14, e15⟩ := block_index t
  show (V c main_v48 : S1x128.Idx → EReal) (((cfg1.win 5).blk t).view.emb y) = V c main_v48 y
  refine congrArg _ ?_
  funext a; apply Fin.ext
  match a with
  | ⟨0, _⟩ => show win1_5.index t (0 : Fin 2) * 1 + 1 * (y 0).val = (y 0).val; omega
  | ⟨1, _⟩ => show win1_5.index t (1 : Fin 2) * 128 + 1 * (y 1).val = (y 1).val; omega

/-- Window 6 is its whole 1×128 row at every point. -/
theorem row6 (c : Dev nD) (t : Fin cfg1.N) (y : S1x128.Idx) :
    iblk1 V c 6 t y = (V c main_v49 : S1x128.Idx → EReal) y := by
  obtain ⟨e0, e1, e2, e3, e4, e5, e6, e7, e8, e9, e10, e11, e12, e13, e14, e15⟩ := block_index t
  show (V c main_v49 : S1x128.Idx → EReal) (((cfg1.win 6).blk t).view.emb y) = V c main_v49 y
  refine congrArg _ ?_
  funext a; apply Fin.ext
  match a with
  | ⟨0, _⟩ => show win1_6.index t (0 : Fin 2) * 1 + 1 * (y 0).val = (y 0).val; omega
  | ⟨1, _⟩ => show win1_6.index t (1 : Fin 2) * 128 + 1 * (y 1).val = (y 1).val; omega

/-- What point t writes back is block t of the layer function of the whole arrays. -/
theorem flushed_eq (c : Dev nD) (t : Fin cfg1.N) (b μ v γ β : S128.Idx → EReal)
    (hb : ∀ q : Fin 128, (V c main_v45 : S1x128.Idx → EReal) (ix2 0 q) = b (ix1 q))
    (hγ : ∀ q : Fin 128, (V c main_v46 : S1x128.Idx → EReal) (ix2 0 q) = γ (ix1 q))
    (hβ : ∀ q : Fin 128, (V c main_v47 : S1x128.Idx → EReal) (ix2 0 q) = β (ix1 q))
    (hμ : ∀ q : Fin 128, (V c main_v48 : S1x128.Idx → EReal) (ix2 0 q) = μ (ix1 q))
    (hv : ∀ q : Fin 128, (V c main_v49 : S1x128.Idx → EReal) (ix2 0 q) = v (ix1 q)) :
    (dat1 V c).flushed 7 t = ((cfg1.win 7).blk t).view.read (Elt Ideal)
      (withInput (V c main_arg0 : S50000x128.Idx → EReal) (V c main_v44 : S50000x128.Idx → EReal) b μ v γ β) := by
  show (cfg1.win 7).cut (grid1.coords t) ((dat1 V c).after 7 t) = _
  rw [after1_7]
  unfold out1_7
  rw [View.canon_unit_zero zero_offset2]
  simp only [View.ld_unit_zero (S := S5000x128) zero_offset2, View.ld_unit_zero (S := S1x128) zero_offset2]
  obtain ⟨e0, e1, e2, e3, e4, e5, e6, e7, e8, e9, e10, e11, e12, e13, e14, e15⟩ := block_index t
  funext j
  obtain ⟨p, q, rfl⟩ : ∃ (p : Fin 5000) (q : Fin 128), j = ix2 p q := ⟨j 0, j 1, eq_ix2 j⟩
  show k1_pay1 (F := Ideal) (iblk1 V c 1 t) (iblk1 V c 2 t) (iblk1 V c 5 t) (iblk1 V c 6 t) (iblk1 V c 3 t) (iblk1 V c 4 t) (iblk1 V c 0 t) (ix2 p q)
    = withInput (V c main_arg0 : S50000x128.Idx → EReal) (V c main_v44 : S50000x128.Idx → EReal) b μ v γ β (((cfg1.win 7).blk t).view.emb (ix2 p q))
  refine (body_at (iblk1 V c 1 t) (iblk1 V c 2 t) (iblk1 V c 5 t) (iblk1 V c 6 t) (iblk1 V c 3 t) (iblk1 V c 4 t) (iblk1 V c 0 t) p q).trans ?_
  have hcol : col (((cfg1.win 7).blk t).view.emb (ix2 p q) : S50000x128.Idx) = ix1 q := by
    refine congrArg ix1 (Fin.ext ?_)
    show win1_7.index t (1 : Fin 2) * 128 + 1 * q.val = q.val; omega
  have hc : iblk1 V c 1 t (ix2 p q) = (V c main_v44 : S50000x128.Idx → EReal) (((cfg1.win 7).blk t).view.emb (ix2 p q)) := by
    show (V c main_v44 : S50000x128.Idx → EReal) (((cfg1.win 1).blk t).view.emb (ix2 p q)) = _
    refine congrArg _ ?_
    funext a; apply Fin.ext
    match a with
    | ⟨0, _⟩ => show win1_1.index t (0 : Fin 2) * 5000 + 1 * p.val = win1_7.index t (0 : Fin 2) * 5000 + 1 * p.val; omega
    | ⟨1, _⟩ => show win1_1.index t (1 : Fin 2) * 128 + 1 * q.val = win1_7.index t (1 : Fin 2) * 128 + 1 * q.val; omega
  have hx : iblk1 V c 0 t (ix2 p q) = (V c main_arg0 : S50000x128.Idx → EReal) (((cfg1.win 7).blk t).view.emb (ix2 p q)) := by
    show (V c main_arg0 : S50000x128.Idx → EReal) (((cfg1.win 0).blk t).view.emb (ix2 p q)) = _
    refine congrArg _ ?_
    funext a; apply Fin.ext
    match a with
    | ⟨0, _⟩ => show win1_0.index t (0 : Fin 2) * 5000 + 1 * p.val = win1_7.index t (0 : Fin 2) * 5000 + 1 * p.val; omega
    | ⟨1, _⟩ => show win1_0.index t (1 : Fin 2) * 128 + 1 * q.val = win1_7.index t (1 : Fin 2) * 128 + 1 * q.val; omega
  rw [hc, hx, row2 V c t, row3 V c t, row4 V c t, row5 V c t, row6 V c t, hb q, hγ q, hβ q, hμ q, hv q]
  show _ = normRelu _ b μ v γ β _ + _
  unfold normRelu
  rw [hcol]

/-- An index of the output array is in point t's block iff each coordinate is in the block's range on its axis. -/
theorem mem_blk (t : Fin cfg1.N) (i : S50000x128.Idx) :
    i ∈ ((cfg1.win 7).blk t).view.set ↔ ∀ a : Fin 2, win1_7.index t a * S5000x128.size a ≤ (i a).val
      ∧ (i a).val < win1_7.index t a * S5000x128.size a + S5000x128.size a := by
  show i ∈ ((View.whole main_v50).slice (win1_7.rect t)).set ↔ _
  rw [View.set_slice_whole, Rect.mem_set_unit]
  exact Iff.rfl

/-- The ten blocks tile the output array: row r lies in the block of point r / 5000. -/
theorem covered (i : S50000x128.Idx) :
    ∃ t : Fin cfg1.N, (cfg1.win 7).flush t = true ∧ i ∈ ((cfg1.win 7).blk t).view.set := by
  have hi0 : (i 0).val < 50000 := (i 0).isLt
  have hi1 : (i 1).val < 128 := (i 1).isLt
  obtain ⟨t, ht⟩ := block_onto ⟨(i 0).val / 5000, by omega⟩
  have q0 : win1_7.index t (0 : Fin 2) = (i 0).val / 5000 := congrFun ht 0
  have q1 : win1_7.index t (1 : Fin 2) = 0 := congrFun ht 1
  refine ⟨t, flush1_7 t, ?_⟩
  rw [mem_blk]
  intro a
  match a with
  | ⟨0, _⟩ => show win1_7.index t (0 : Fin 2) * 5000 ≤ (i 0).val ∧ (i 0).val < win1_7.index t (0 : Fin 2) * 5000 + 5000; omega
  | ⟨1, _⟩ => show win1_7.index t (1 : Fin 2) * 128 ≤ (i 1).val ∧ (i 1).val < win1_7.index t (1 : Fin 2) * 128 + 128; omega

/-- After the region the output array is the layer function of the arrays as the region found them. -/
theorem final (c : Dev nD) (b μ v γ β : S128.Idx → EReal)
    (hb : ∀ q : Fin 128, (V c main_v45 : S1x128.Idx → EReal) (ix2 0 q) = b (ix1 q))
    (hγ : ∀ q : Fin 128, (V c main_v46 : S1x128.Idx → EReal) (ix2 0 q) = γ (ix1 q))
    (hβ : ∀ q : Fin 128, (V c main_v47 : S1x128.Idx → EReal) (ix2 0 q) = β (ix1 q))
    (hμ : ∀ q : Fin 128, (V c main_v48 : S1x128.Idx → EReal) (ix2 0 q) = μ (ix1 q))
    (hv : ∀ q : Fin 128, (V c main_v49 : S1x128.Idx → EReal) (ix2 0 q) = v (ix1 q)) :
    (dat1 V c).arrAt 7 cfg1.N = withInput (V c main_arg0 : S50000x128.Idx → EReal) (V c main_v44 : S50000x128.Idx → EReal) b μ v γ β :=
  (dat1 V c).arrAt_eq_of_cover 7 _ (fun t _ => flushed_eq V c t b μ v γ β hb hγ hβ hμ hv) covered

end Cert.KernelIdeal.Layer0

end
-- ==== Proof.Layer1.lean ====
/-
  Layer 1 of the network after its neighbour aggregation, as the kernel region computes it.

  The region walks the node axis in ten blocks of 5000 rows. At each point its body is handed the same block of rows
  of the layer's input x and of the aggregated array c, and the whole of each per-column vector as a 1×64 row
  (bias, scale, shift, mean, variance, skip bias) and of the 128×64 skip matrix; it adds the bias row to c, subtracts the mean row,
  multiplies by the reciprocal square root of the variance row plus a fixed small word, by the scale row, adds the
  shift row, clamps at zero and adds the block of x times the skip matrix plus the skip bias row. Every step is entry by entry but the product, whose entry depends on one row of x, so
  the block written back at point t is rows 5000·t … 5000·t + 4999 of the layer function of the WHOLE arrays; the
  ten blocks tile the output array. Stated for any contents of the buffers at the region's entry, the per-column
  vectors being whatever the 1×64 rows hold.
-/
import proofs.«182117_j80625126080954_1_alg».proof.Proof.Gen.KernelIdeal.Frame
import proofs.«182117_j80625126080954_1_alg».proof.Proof.LibBlockReads
import proofs.«182117_j80625126080954_1_alg».proof.Proof.LibMatProd
import proofs.«182117_j80625126080954_1_alg».proof.Proof.LibRowBlocks
import proofs.«182117_j80625126080954_1_alg».proof.Proof.LayerSpec
import Idealize.ShloMosaic.Lib.Pipeline.Value
import Idealize.ShloMosaic.Lib.ValueIdx

set_option maxRecDepth 16384

noncomputable section

namespace Cert.KernelIdeal.Layer1

open Cert.KernelIdeal Cert.KernelIdeal.Gen Idealize.ShloMosaic Idealize.ShloMosaic.TcCoe Idealize.SL.Sem
open Idealize.ShloMosaic.ValueIdx
open Idealize.ShloMosaic.Pipeline (Dat)
open Cert.Lib.MatProd Cert.Lib.RowBlocks Cert.Lib.BlockReads Cert.Layer

variable (V : (c : Dev nD) → (b : Ref sig .tc) → Buf (Elt Ideal) ((c : Thread nD τ).loc b))

/-- The body's stored value at row p, column q of its block, from the blocks it loaded. -/
theorem body_at (c : Vec Ideal S5000x64 .f32) (rb rμ rv rγ rβ : Vec Ideal S1x64 .f32) (x : Vec Ideal S5000x128 .f32)
    (S : Vec Ideal S128x64 .f32) (rs : Vec Ideal S1x64 .f32) (p : Fin 5000) (q : Fin 64) :
    k3_pay1 (F := Ideal) c rb rμ rv rγ rβ x S rs (ix2 p q)
      = max ((((c (ix2 p q) + rb (ix2 0 q)) - rμ (ix2 0 q)) * Ideal.rsqrt (rv (ix2 0 q) + Ideal.ofBits .f32 0x3727C5AC#32))
          * rγ (ix2 0 q) + rβ (ix2 0 q)) (Ideal.ofBits .f32 0x00000000#32) + (matProd x S (ix2 p q) + rs (ix2 0 q)) := by
  unfold k3_pay1
  simp only [shapeCast_self]
  rw [matmul_zero_eq_matProd dot_S5000x128_S128x64_S5000x64_1_0_0_1_n_n rfl rfl rfl rfl rfl rfl none]
  simp only [addf_apply, subf_apply, mulf_apply, maximumf_apply, broadcast_row_apply, broadcast_apply]
  rfl

/-- Where the windows' blocks sit at each grid point: x, c and the output at block-row t, everything else whole. -/
theorem block_index : ∀ t : Fin cfg3.N, win3_0.index t (0 : Fin 2) = win3_9.index t (0 : Fin 2)
    ∧ win3_0.index t (1 : Fin 2) = 0
    ∧ win3_1.index t (0 : Fin 2) = win3_9.index t (0 : Fin 2)
    ∧ win3_1.index t (1 : Fin 2) = 0
    ∧ win3_2.index t (0 : Fin 2) = 0
    ∧ win3_2.index t (1 : Fin 2) = 0
    ∧ win3_3.index t (0 : Fin 2) = 0
    ∧ win3_3.index t (1 : Fin 2) = 0
    ∧ win3_4.index t (0 : Fin 2) = 0
    ∧ win3_4.index t (1 : Fin 2) = 0
    ∧ win3_5.index t (0 : Fin 2) = 0
    ∧ win3_5.index t (1 : Fin 2) = 0
    ∧ win3_6.index t (0 : Fin 2) = 0
    ∧ win3_6.index t (1 : Fin 2) = 0
    ∧ win3_7.index t (0 : Fin 2) = 0
    ∧ win3_7.index t (1 : Fin 2) = 0
    ∧ win3_8.index t (0 : Fin 2) = 0
    ∧ win3_8.index t (1 : Fin 2) = 0
    ∧ win3_9.index t (0 : Fin 2) ≤ 9
    ∧ win3_9.index t (1 : Fin 2) = 0 :=
  (by decide +kernel : ∀ t : Fin grid3.N, _)

/-- Every block-row of the output is some point's. -/
theorem block_onto : ∀ q : Fin 10, ∃ t : Fin cfg3.N, win3_9.index t = ![q.val, 0] :=
  (by decide +kernel : ∀ q : Fin 10, ∃ t : Fin grid3.N, win3_9.index t = ![q.val, 0])

/-- Window 2 is its whole 1×64 row at every point. -/
theorem row2 (c : Dev nD) (t : Fin cfg3.N) (y : S1x64.Idx) :
    iblk3 V c 2 t y = (V c main_v85 : S1x64.Idx → EReal) y := by
  obtain ⟨e0, e1, e2, e3, e4, e5, e6, e7, e8, e9, e10, e11, e12, e13, e14, e15, e16, e17, e18, e19⟩ := block_index t
  show (V c main_v85 : S1x64.Idx → EReal) (((cfg3.win 2).blk t).view.emb y) = V c main_v85 y
  refine congrArg _ ?_
  funext a; apply Fin.ext
  match a with
  | ⟨0, _⟩ => show win3_2.index t (0 : Fin 2) * 1 + 1 * (y 0).val = (y 0).val; omega
  | ⟨1, _⟩ => show win3_2.index t (1 : Fin 2) * 64 + 1 * (y 1).val = (y 1).val; omega

/-- Window 3 is its whole 1×64 row at every point. -/
theorem row3 (c : Dev nD) (t : Fin cfg3.N) (y : S1x64.Idx) :
    iblk3 V c 3 t y = (V c main_v86 : S1x64.Idx → EReal) y := by
  obtain ⟨e0, e1, e2, e3, e4, e5, e6, e7, e8, e9, e10, e11, e12, e13, e14, e15, e16, e17, e18, e19⟩ := block_index t
  show (V c main_v86 : S1x64.Idx → EReal) (((cfg3.win 3).blk t).view.emb y) = V c main_v86 y
  refine congrArg _ ?_
  funext a; apply Fin.ext
  match a with
  | ⟨0, _⟩ => show win3_3.index t (0 : Fin 2) * 1 + 1 * (y 0).val = (y 0).val; omega
  | ⟨1, _⟩ => show win3_3.index t (1 : Fin 2) * 64 + 1 * (y 1).val = (y 1).val; omega

/-- Window 4 is its whole 1×64 row at every point. -/
theorem row4 (c : Dev nD) (t : Fin cfg3.N) (y : S1x64.Idx) :
    iblk3 V c 4 t y = (V c main_v87 : S1x64.Idx → EReal) y := by
  obtain ⟨e0, e1, e2, e3, e4, e5, e6, e7, e8, e9, e10, e11, e12, e13, e14, e15, e16, e17, e18, e19⟩ := block_index t
  show (V c main_v87 : S1x64.Idx → EReal) (((cfg3.win 4).blk t).view.emb y) = V c main_v87 y
  refine congrArg _ ?_
  funext a; apply Fin.ext
  match a with
  | ⟨0, _⟩ => show win3_4.index t (0 : Fin 2) * 1 + 1 * (y 0).val = (y 0).val; omega
  | ⟨1, _⟩ => show win3_4.index t (1 : Fin 2) * 64 + 1 * (y 1).val = (y 1).val; omega

/-- Window 5 is its whole 1×64 row at every point. -/
theorem row5 (c : Dev nD) (t : Fin cfg3.N) (y : S1x64.Idx) :
    iblk3 V c 5 t y = (V c main_v88 : S1x64.Idx → EReal) y := by
  obtain ⟨e0, e1, e2, e3, e4, e5, e6, e7, e8, e9, e10, e11, e12, e13, e14, e15, e16, e17, e18, e19⟩ := block_index t
  show (V c main_v88 : S1x64.Idx → EReal) (((cfg3.win 5).blk t).view.emb y) = V c main_v88 y
  refine congrArg _ ?_
  funext a; apply Fin.ext
  match a with
  | ⟨0, _⟩ => show win3_5.index t (0 : Fin 2) * 1 + 1 * (y 0).val = (y 0).val; omega
  | ⟨1, _⟩ => show win3_5.index t (1 : Fin 2) * 64 + 1 * (y 1).val = (y 1).val; omega

/-- Window 6 is its whole 1×64 row at every point. -/
theorem row6 (c : Dev nD) (t : Fin cfg3.N) (y : S1x64.Idx) :
    iblk3 V c 6 t y = (V c main_v89 : S1x64.Idx → EReal) y := by
  obtain ⟨e0, e1, e2, e3, e4, e5, e6, e7, e8, e9, e10, e11, e12, e13, e14, e15, e16, e17, e18, e19⟩ := block_index t
  show (V c main_v89 : S1x64.Idx → EReal) (((cfg3.win 6).blk t).view.emb y) = V c main_v89 y
  refine congrArg _ ?_
  funext a; apply Fin.ext
  match a with
  | ⟨0, _⟩ => show win3_6.index t (0 : Fin 2) * 1 + 1 * (y 0).val = (y 0).val; omega
  | ⟨1, _⟩ => show win3_6.index t (1 : Fin 2) * 64 + 1 * (y 1).val = (y 1).val; omega

/-- Window 8 is its whole 1×64 row at every point. -/
theorem row8 (c : Dev nD) (t : Fin cfg3.N) (y : S1x64.Idx) :
    iblk3 V c 8 t y = (V c main_v90 : S1x64.Idx → EReal) y := by
  obtain ⟨e0, e1, e2, e3, e4, e5, e6, e7, e8, e9, e10, e11, e12, e13, e14, e15, e16, e17, e18, e19⟩ := block_index t
  show (V c main_v90 : S1x64.Idx → EReal) (((cfg3.win 8).blk t).view.emb y) = V c main_v90 y
  refine congrArg _ ?_
  funext a; apply Fin.ext
  match a with
  | ⟨0, _⟩ => show win3_8.index t (0 : Fin 2) * 1 + 1 * (y 0).val = (y 0).val; omega
  | ⟨1, _⟩ => show win3_8.index t (1 : Fin 2) * 64 + 1 * (y 1).val = (y 1).val; omega

/-- The skip matrix's window is the whole 128×64 matrix at every point. -/
theorem skip_whole (c : Dev nD) (t : Fin cfg3.N) : iblk3 V c 7 t = (V c main_arg14 : S128x64.Idx → EReal) := by
  obtain ⟨e0, e1, e2, e3, e4, e5, e6, e7, e8, e9, e10, e11, e12, e13, e14, e15, e16, e17, e18, e19⟩ := block_index t
  funext y
  show (V c main_arg14 : S128x64.Idx → EReal) (((cfg3.win 7).blk t).view.emb y) = V c main_arg14 y
  refine congrArg _ ?_
  funext a; apply Fin.ext
  match a with
  | ⟨0, _⟩ => show win3_7.index t (0 : Fin 2) * 128 + 1 * (y 0).val = (y 0).val; omega
  | ⟨1, _⟩ => show win3_7.index t (1 : Fin 2) * 64 + 1 * (y 1).val = (y 1).val; omega

/-- What point t writes back is block t of the layer function of the whole arrays. -/
theorem flushed_eq (c : Dev nD) (t : Fin cfg3.N) (b μ v γ β s : S64.Idx → EReal)
    (hb : ∀ q : Fin 64, (V c main_v85 : S1x64.Idx → EReal) (ix2 0 q) = b (ix1 q))
    (hγ : ∀ q : Fin 64, (V c main_v86 : S1x64.Idx → EReal) (ix2 0 q) = γ (ix1 q))
    (hβ : ∀ q : Fin 64, (V c main_v87 : S1x64.Idx → EReal) (ix2 0 q) = β (ix1 q))
    (hμ : ∀ q : Fin 64, (V c main_v88 : S1x64.Idx → EReal) (ix2 0 q) = μ (ix1 q))
    (hv : ∀ q : Fin 64, (V c main_v89 : S1x64.Idx → EReal) (ix2 0 q) = v (ix1 q))
    (hs : ∀ q : Fin 64, (V c main_v90 : S1x64.Idx → EReal) (ix2 0 q) = s (ix1 q)) :
    (dat3 V c).flushed 9 t = ((cfg3.win 9).blk t).view.read (Elt Ideal)
      (withSkip (V c main_v50 : S50000x128.Idx → EReal) (V c main_v84 : S50000x64.Idx → EReal) b μ v γ β (V c main_arg14 : S128x64.Idx → EReal) s) := by
  show (cfg3.win 9).cut (grid3.coords t) ((dat3 V c).after 9 t) = _
  rw [after3_9]
  unfold out3_9
  rw [View.canon_unit_zero zero_offset2]
  simp only [View.ld_unit_zero (S := S5000x64) zero_offset2, View.ld_unit_zero (S := S1x64) zero_offset2, View.ld_unit_zero (S := S5000x128) zero_offset2, View.ld_unit_zero (S := S128x64) zero_offset2]
  obtain ⟨e0, e1, e2, e3, e4, e5, e6, e7, e8, e9, e10, e11, e12, e13, e14, e15, e16, e17, e18, e19⟩ := block_index t
  funext j
  obtain ⟨p, q, rfl⟩ : ∃ (p : Fin 5000) (q : Fin 64), j = ix2 p q := ⟨j 0, j 1, eq_ix2 j⟩
  show k3_pay1 (F := Ideal) (iblk3 V c 1 t) (iblk3 V c 2 t) (iblk3 V c 5 t) (iblk3 V c 6 t) (iblk3 V c 3 t) (iblk3 V c 4 t) (iblk3 V c 0 t) (iblk3 V c 7 t) (iblk3 V c 8 t) (ix2 p q)
    = withSkip (V c main_v50 : S50000x128.Idx → EReal) (V c main_v84 : S50000x64.Idx → EReal) b μ v γ β (V c main_arg14 : S128x64.Idx → EReal) s (((cfg3.win 9).blk t).view.emb (ix2 p q))
  refine (body_at (iblk3 V c 1 t) (iblk3 V c 2 t) (iblk3 V c 5 t) (iblk3 V c 6 t) (iblk3 V c 3 t) (iblk3 V c 4 t) (iblk3 V c 0 t) (iblk3 V c 7 t) (iblk3 V c 8 t) p q).trans ?_
  have hcol : col (((cfg3.win 9).blk t).view.emb (ix2 p q) : S50000x64.Idx) = ix1 q := by
    refine congrArg ix1 (Fin.ext ?_)
    show win3_9.index t (1 : Fin 2) * 64 + 1 * q.val = q.val; omega
  have hc : iblk3 V c 1 t (ix2 p q) = (V c main_v84 : S50000x64.Idx → EReal) (((cfg3.win 9).blk t).view.emb (ix2 p q)) := by
    show (V c main_v84 : S50000x64.Idx → EReal) (((cfg3.win 1).blk t).view.emb (ix2 p q)) = _
    refine congrArg _ ?_
    funext a; apply Fin.ext
    match a with
    | ⟨0, _⟩ => show win3_1.index t (0 : Fin 2) * 5000 + 1 * p.val = win3_9.index t (0 : Fin 2) * 5000 + 1 * p.val; omega
    | ⟨1, _⟩ => show win3_1.index t (1 : Fin 2) * 64 + 1 * q.val = win3_9.index t (1 : Fin 2) * 64 + 1 * q.val; omega
  have hx : matProd (iblk3 V c 0 t) (iblk3 V c 7 t) (ix2 p q)
      = matProd (V c main_v50 : S50000x128.Idx → EReal) (V c main_arg14 : S128x64.Idx → EReal) (((cfg3.win 9).blk t).view.emb (ix2 p q)) := by
    rw [skip_whole V c t]
    refine matProd_rows (V c main_v50 : S50000x128.Idx → EReal) (iblk3 V c 0 t) (V c main_arg14 : S128x64.Idx → EReal) (ix2 p q)
      (((cfg3.win 9).blk t).view.emb (ix2 p q)) (fun k => ?_) ?_
    · show (V c main_v50 : S50000x128.Idx → EReal) (((cfg3.win 0).blk t).view.emb (ix2 (⟨p.val, p.isLt⟩ : Fin 5000) k)) = _
      refine congrArg _ ?_
      funext a; apply Fin.ext
      match a with
      | ⟨0, _⟩ => show win3_0.index t (0 : Fin 2) * 5000 + 1 * p.val = win3_9.index t (0 : Fin 2) * 5000 + 1 * p.val; omega
      | ⟨1, _⟩ => show win3_0.index t (1 : Fin 2) * 128 + 1 * k.val = k.val; omega
    · show q.val = win3_9.index t (1 : Fin 2) * 64 + 1 * q.val; omega
  rw [hc, hx, row2 V c t, row3 V c t, row4 V c t, row5 V c t, row6 V c t, row8 V c t, hb q, hγ q, hβ q, hμ q, hv q, hs q]
  show _ = normRelu _ b μ v γ β _ + _
  unfold normRelu
  rw [hcol]

/-- An index of the output array is in point t's block iff each coordinate is in the block's range on its axis. -/
theorem mem_blk (t : Fin cfg3.N) (i : S50000x64.Idx) :
    i ∈ ((cfg3.win 9).blk t).view.set ↔ ∀ a : Fin 2, win3_9.index t a * S5000x64.size a ≤ (i a).val
      ∧ (i a).val < win3_9.index t a * S5000x64.size a + S5000x64.size a := by
  show i ∈ ((View.whole main_v91).slice (win3_9.rect t)).set ↔ _
  rw [View.set_slice_whole, Rect.mem_set_unit]
  exact Iff.rfl

/-- The ten blocks tile the output array: row r lies in the block of point r / 5000. -/
theorem covered (i : S50000x64.Idx) :
    ∃ t : Fin cfg3.N, (cfg3.win 9).flush t = true ∧ i ∈ ((cfg3.win 9).blk t).view.set := by
  have hi0 : (i 0).val < 50000 := (i 0).isLt
  have hi1 : (i 1).val < 64 := (i 1).isLt
  obtain ⟨t, ht⟩ := block_onto ⟨(i 0).val / 5000, by omega⟩
  have q0 : win3_9.index t (0 : Fin 2) = (i 0).val / 5000 := congrFun ht 0
  have q1 : win3_9.index t (1 : Fin 2) = 0 := congrFun ht 1
  refine ⟨t, flush3_9 t, ?_⟩
  rw [mem_blk]
  intro a
  match a with
  | ⟨0, _⟩ => show win3_9.index t (0 : Fin 2) * 5000 ≤ (i 0).val ∧ (i 0).val < win3_9.index t (0 : Fin 2) * 5000 + 5000; omega
  | ⟨1, _⟩ => show win3_9.index t (1 : Fin 2) * 64 ≤ (i 1).val ∧ (i 1).val < win3_9.index t (1 : Fin 2) * 64 + 64; omega

/-- After the region the output array is the layer function of the arrays as the region found them. -/
theorem final (c : Dev nD) (b μ v γ β s : S64.Idx → EReal)
    (hb : ∀ q : Fin 64, (V c main_v85 : S1x64.Idx → EReal) (ix2 0 q) = b (ix1 q))
    (hγ : ∀ q : Fin 64, (V c main_v86 : S1x64.Idx → EReal) (ix2 0 q) = γ (ix1 q))
    (hβ : ∀ q : Fin 64, (V c main_v87 : S1x64.Idx → EReal) (ix2 0 q) = β (ix1 q))
    (hμ : ∀ q : Fin 64, (V c main_v88 : S1x64.Idx → EReal) (ix2 0 q) = μ (ix1 q))
    (hv : ∀ q : Fin 64, (V c main_v89 : S1x64.Idx → EReal) (ix2 0 q) = v (ix1 q))
    (hs : ∀ q : Fin 64, (V c main_v90 : S1x64.Idx → EReal) (ix2 0 q) = s (ix1 q)) :
    (dat3 V c).arrAt 9 cfg3.N = withSkip (V c main_v50 : S50000x128.Idx → EReal) (V c main_v84 : S50000x64.Idx → EReal) b μ v γ β (V c main_arg14 : S128x64.Idx → EReal) s :=
  (dat3 V c).arrAt_eq_of_cover 9 _ (fun t _ => flushed_eq V c t b μ v γ β s hb hγ hβ hμ hv hs) covered

end Cert.KernelIdeal.Layer1

end
-- ==== Proof.Layer2.lean ====
/-
  Layer 2 of the network after its neighbour aggregation, as the kernel region computes it.

  The region walks the node axis in ten blocks of 5000 rows. At each point its body is handed the same block of rows
  of the layer's input x and of the aggregated array c, and the whole of each per-column vector as a 1×32 row
  (bias, scale, shift, mean, variance, skip bias) and of the 64×32 skip matrix; it adds the bias row to c, subtracts the mean row,
  multiplies by the reciprocal square root of the variance row plus a fixed small word, by the scale row, adds the
  shift row, clamps at zero and adds the block of x times the skip matrix plus the skip bias row. Every step is entry by entry but the product, whose entry depends on one row of x, so
  the block written back at point t is rows 5000·t … 5000·t + 4999 of the layer function of the WHOLE arrays; the
  ten blocks tile the output array. Stated for any contents of the buffers at the region's entry, the per-column
  vectors being whatever the 1×32 rows hold.
-/
import proofs.«182117_j80625126080954_1_alg».proof.Proof.Gen.KernelIdeal.Frame
import proofs.«182117_j80625126080954_1_alg».proof.Proof.LibBlockReads
import proofs.«182117_j80625126080954_1_alg».proof.Proof.LibMatProd
import proofs.«182117_j80625126080954_1_alg».proof.Proof.LibRowBlocks
import proofs.«182117_j80625126080954_1_alg».proof.Proof.LayerSpec
import Idealize.ShloMosaic.Lib.Pipeline.Value
import Idealize.ShloMosaic.Lib.ValueIdx

set_option maxRecDepth 16384

noncomputable section

namespace Cert.KernelIdeal.Layer2

open Cert.KernelIdeal Cert.KernelIdeal.Gen Idealize.ShloMosaic Idealize.ShloMosaic.TcCoe Idealize.SL.Sem
open Idealize.ShloMosaic.ValueIdx
open Idealize.ShloMosaic.Pipeline (Dat)
open Cert.Lib.MatProd Cert.Lib.RowBlocks Cert.Lib.BlockReads Cert.Layer

variable (V : (c : Dev nD) → (b : Ref sig .tc) → Buf (Elt Ideal) ((c : Thread nD τ).loc b))

/-- The body's stored value at row p, column q of its block, from the blocks it loaded. -/
theorem body_at (c : Vec Ideal S5000x32 .f32) (rb rμ rv rγ rβ : Vec Ideal S1x32 .f32) (x : Vec Ideal S5000x64 .f32)
    (S : Vec Ideal S64x32 .f32) (rs : Vec Ideal S1x32 .f32) (p : Fin 5000) (q : Fin 32) :
    k5_pay1 (F := Ideal) c rb rμ rv rγ rβ x S rs (ix2 p q)
      = max ((((c (ix2 p q) + rb (ix2 0 q)) - rμ (ix2 0 q)) * Ideal.rsqrt (rv (ix2 0 q) + Ideal.ofBits .f32 0x3727C5AC#32))
          * rγ (ix2 0 q) + rβ (ix2 0 q)) (Ideal.ofBits .f32 0x00000000#32) + (matProd x S (ix2 p q) + rs (ix2 0 q)) := by
  unfold k5_pay1
  simp only [shapeCast_self]
  rw [matmul_zero_eq_matProd dot_S5000x64_S64x32_S5000x32_1_0_0_1_n_n rfl rfl rfl rfl rfl rfl none]
  simp only [addf_apply, subf_apply, mulf_apply, maximumf_apply, broadcast_row_apply, broadcast_apply]
  rfl

/-- Where the windows' blocks sit at each grid point: x, c and the output at block-row t, everything else whole. -/
theorem block_index : ∀ t : Fin cfg5.N, win5_0.index t (0 : Fin 2) = win5_9.index t (0 : Fin 2)
    ∧ win5_0.index t (1 : Fin 2) = 0
    ∧ win5_1.index t (0 : Fin 2) = win5_9.index t (0 : Fin 2)
    ∧ win5_1.index t (1 : Fin 2) = 0
    ∧ win5_2.index t (0 : Fin 2) = 0
    ∧ win5_2.index t (1 : Fin 2) = 0
    ∧ win5_3.index t (0 : Fin 2) = 0
    ∧ win5_3.index t (1 : Fin 2) = 0
    ∧ win5_4.index t (0 : Fin 2) = 0
    ∧ win5_4.index t (1 : Fin 2) = 0
    ∧ win5_5.index t (0 : Fin 2) = 0
    ∧ win5_5.index t (1 : Fin 2) = 0
    ∧ win5_6.index t (0 : Fin 2) = 0
    ∧ win5_6.index t (1 : Fin 2) = 0
    ∧ win5_7.index t (0 : Fin 2) = 0
    ∧ win5_7.index t (1 : Fin 2) = 0
    ∧ win5_8.index t (0 : Fin 2) = 0
    ∧ win5_8.index t (1 : Fin 2) = 0
    ∧ win5_9.index t (0 : Fin 2) ≤ 9
    ∧ win5_9.index t (1 : Fin 2) = 0 :=
  (by decide +kernel : ∀ t : Fin grid5.N, _)

/-- Every block-row of the output is some point's. -/
theorem block_onto : ∀ q : Fin 10, ∃ t : Fin cfg5.N, win5_9.index t = ![q.val, 0] :=
  (by decide +kernel : ∀ q : Fin 10, ∃ t : Fin grid5.N, win5_9.index t = ![q.val, 0])

/-- Window 2 is its whole 1×32 row at every point. -/
theorem row2 (c : Dev nD) (t : Fin cfg5.N) (y : S1x32.Idx) :
    iblk5 V c 2 t y = (V c main_v126 : S1x32.Idx → EReal) y := by
  obtain ⟨e0, e1, e2, e3, e4, e5, e6, e7, e8, e9, e10, e11, e12, e13, e14, e15, e16, e17, e18, e19⟩ := block_index t
  show (V c main_v126 : S1x32.Idx → EReal) (((cfg5.win 2).blk t).view.emb y) = V c main_v126 y
  refine congrArg _ ?_
  funext a; apply Fin.ext
  match a with
  | ⟨0, _⟩ => show win5_2.index t (0 : Fin 2) * 1 + 1 * (y 0).val = (y 0).val; omega
  | ⟨1, _⟩ => show win5_2.index t (1 : Fin 2) * 32 + 1 * (y 1).val = (y 1).val; omega

/-- Window 3 is its whole 1×32 row at every point. -/
theorem row3 (c : Dev nD) (t : Fin cfg5.N) (y : S1x32.Idx) :
    iblk5 V c 3 t y = (V c main_v127 : S1x32.Idx → EReal) y := by
  obtain ⟨e0, e1, e2, e3, e4, e5, e6, e7, e8, e9, e10, e11, e12, e13, e14, e15, e16, e17, e18, e19⟩ := block_index t
  show (V c main_v127 : S1x32.Idx → EReal) (((cfg5.win 3).blk t).view.emb y) = V c main_v127 y
  refine congrArg _ ?_
  funext a; apply Fin.ext
  match a with
  | ⟨0, _⟩ => show win5_3.index t (0 : Fin 2) * 1 + 1 * (y 0).val = (y 0).val; omega
  | ⟨1, _⟩ => show win5_3.index t (1 : Fin 2) * 32 + 1 * (y 1).val = (y 1).val; omega

/-- Window 4 is its whole 1×32 row at every point. -/
theorem row4 (c : Dev nD) (t : Fin cfg5.N) (y : S1x32.Idx) :
    iblk5 V c 4 t y = (V c main_v128 : S1x32.Idx → EReal) y := by
  obtain ⟨e0, e1, e2, e3, e4, e5, e6, e7, e8, e9, e10, e11, e12, e13, e14, e15, e16, e17, e18, e19⟩ := block_index t
  show (V c main_v128 : S1x32.Idx → EReal) (((cfg5.win 4).blk t).view.emb y) = V c main_v128 y
  refine congrArg _ ?_
  funext a; apply Fin.ext
  match a with
  | ⟨0, _⟩ => show win5_4.index t (0 : Fin 2) * 1 + 1 * (y 0).val = (y 0).val; omega
  | ⟨1, _⟩ => show win5_4.index t (1 : Fin 2) * 32 + 1 * (y 1).val = (y 1).val; omega

/-- Window 5 is its whole 1×32 row at every point. -/
theorem row5 (c : Dev nD) (t : Fin cfg5.N) (y : S1x32.Idx) :
    iblk5 V c 5 t y = (V c main_v129 : S1x32.Idx → EReal) y := by
  obtain ⟨e0, e1, e2, e3, e4, e5, e6, e7, e8, e9, e10, e11, e12, e13, e14, e15, e16, e17, e18, e19⟩ := block_index t
  show (V c main_v129 : S1x32.Idx → EReal) (((cfg5.win 5).blk t).view.emb y) = V c main_v129 y
  refine congrArg _ ?_
  funext a; apply Fin.ext
  match a with
  | ⟨0, _⟩ => show win5_5.index t (0 : Fin 2) * 1 + 1 * (y 0).val = (y 0).val; omega
  | ⟨1, _⟩ => show win5_5.index t (1 : Fin 2) * 32 + 1 * (y 1).val = (y 1).val; omega

/-- Window 6 is its whole 1×32 row at every point. -/
theorem row6 (c : Dev nD) (t : Fin cfg5.N) (y : S1x32.Idx) :
    iblk5 V c 6 t y = (V c main_v130 : S1x32.Idx → EReal) y := by
  obtain ⟨e0, e1, e2, e3, e4, e5, e6, e7, e8, e9, e10, e11, e12, e13, e14, e15, e16, e17, e18, e19⟩ := block_index t
  show (V c main_v130 : S1x32.Idx → EReal) (((cfg5.win 6).blk t).view.emb y) = V c main_v130 y
  refine congrArg _ ?_
  funext a; apply Fin.ext
  match a with
  | ⟨0, _⟩ => show win5_6.index t (0 : Fin 2) * 1 + 1 * (y 0).val = (y 0).val; omega
  | ⟨1, _⟩ => show win5_6.index t (1 : Fin 2) * 32 + 1 * (y 1).val = (y 1).val; omega

/-- Window 8 is its whole 1×32 row at every point. -/
theorem row8 (c : Dev nD) (t : Fin cfg5.N) (y : S1x32.Idx) :
    iblk5 V c 8 t y = (V c main_v131 : S1x32.Idx → EReal) y := by
  obtain ⟨e0, e1, e2, e3, e4, e5, e6, e7, e8, e9, e10, e11, e12, e13, e14, e15, e16, e17, e18, e19⟩ := block_index t
  show (V c main_v131 : S1x32.Idx → EReal) (((cfg5.win 8).blk t).view.emb y) = V c main_v131 y
  refine congrArg _ ?_
  funext a; apply Fin.ext
  match a with
  | ⟨0, _⟩ => show win5_8.index t (0 : Fin 2) * 1 + 1 * (y 0).val = (y 0).val; omega
  | ⟨1, _⟩ => show win5_8.index t (1 : Fin 2) * 32 + 1 * (y 1).val = (y 1).val; omega

/-- The skip matrix's window is the whole 64×32 matrix at every point. -/
theorem skip_whole (c : Dev nD) (t : Fin cfg5.N) : iblk5 V c 7 t = (V c main_arg22 : S64x32.Idx → EReal) := by
  obtain ⟨e0, e1, e2, e3, e4, e5, e6, e7, e8, e9, e10, e11, e12, e13, e14, e15, e16, e17, e18, e19⟩ := block_index t
  funext y
  show (V c main_arg22 : S64x32.Idx → EReal) (((cfg5.win 7).blk t).view.emb y) = V c main_arg22 y
  refine congrArg _ ?_
  funext a; apply Fin.ext
  match a with
  | ⟨0, _⟩ => show win5_7.index t (0 : Fin 2) * 64 + 1 * (y 0).val = (y 0).val; omega
  | ⟨1, _⟩ => show win5_7.index t (1 : Fin 2) * 32 + 1 * (y 1).val = (y 1).val; omega

/-- What point t writes back is block t of the layer function of the whole arrays. -/
theorem flushed_eq (c : Dev nD) (t : Fin cfg5.N) (b μ v γ β s : S32.Idx → EReal)
    (hb : ∀ q : Fin 32, (V c main_v126 : S1x32.Idx → EReal) (ix2 0 q) = b (ix1 q))
    (hγ : ∀ q : Fin 32, (V c main_v127 : S1x32.Idx → EReal) (ix2 0 q) = γ (ix1 q))
    (hβ : ∀ q : Fin 32, (V c main_v128 : S1x32.Idx → EReal) (ix2 0 q) = β (ix1 q))
    (hμ : ∀ q : Fin 32, (V c main_v129 : S1x32.Idx → EReal) (ix2 0 q) = μ (ix1 q))
    (hv : ∀ q : Fin 32, (V c main_v130 : S1x32.Idx → EReal) (ix2 0 q) = v (ix1 q))
    (hs : ∀ q : Fin 32, (V c main_v131 : S1x32.Idx → EReal) (ix2 0 q) = s (ix1 q)) :
    (dat5 V c).flushed 9 t = ((cfg5.win 9).blk t).view.read (Elt Ideal)
      (withSkip (V c main_v91 : S50000x64.Idx → EReal) (V c main_v125 : S50000x32.Idx → EReal) b μ v γ β (V c main_arg22 : S64x32.Idx → EReal) s) := by
  show (cfg5.win 9).cut (grid5.coords t) ((dat5 V c).after 9 t) = _
  rw [after5_9]
  unfold out5_9
  rw [View.canon_unit_zero zero_offset2]
  simp only [View.ld_unit_zero (S := S5000x32) zero_offset2, View.ld_unit_zero (S := S1x32) zero_offset2, View.ld_unit_zero (S := S5000x64) zero_offset2, View.ld_unit_zero (S := S64x32) zero_offset2]
  obtain ⟨e0, e1, e2, e3, e4, e5, e6, e7, e8, e9, e10, e11, e12, e13, e14, e15, e16, e17, e18, e19⟩ := block_index t
  funext j
  obtain ⟨p, q, rfl⟩ : ∃ (p : Fin 5000) (q : Fin 32), j = ix2 p q := ⟨j 0, j 1, eq_ix2 j⟩
  show k5_pay1 (F := Ideal) (iblk5 V c 1 t) (iblk5 V c 2 t) (iblk5 V c 5 t) (iblk5 V c 6 t) (iblk5 V c 3 t) (iblk5 V c 4 t) (iblk5 V c 0 t) (iblk5 V c 7 t) (iblk5 V c 8 t) (ix2 p q)
    = withSkip (V c main_v91 : S50000x64.Idx → EReal) (V c main_v125 : S50000x32.Idx → EReal) b μ v γ β (V c main_arg22 : S64x32.Idx → EReal) s (((cfg5.win 9).blk t).view.emb (ix2 p q))
  refine (body_at (iblk5 V c 1 t) (iblk5 V c 2 t) (iblk5 V c 5 t) (iblk5 V c 6 t) (iblk5 V c 3 t) (iblk5 V c 4 t) (iblk5 V c 0 t) (iblk5 V c 7 t) (iblk5 V c 8 t) p q).trans ?_
  have hcol : col (((cfg5.win 9).blk t).view.emb (ix2 p q) : S50000x32.Idx) = ix1 q := by
    refine congrArg ix1 (Fin.ext ?_)
    show win5_9.index t (1 : Fin 2) * 32 + 1 * q.val = q.val; omega
  have hc : iblk5 V c 1 t (ix2 p q) = (V c main_v125 : S50000x32.Idx → EReal) (((cfg5.win 9).blk t).view.emb (ix2 p q)) := by
    show (V c main_v125 : S50000x32.Idx → EReal) (((cfg5.win 1).blk t).view.emb (ix2 p q)) = _
    refine congrArg _ ?_
    funext a; apply Fin.ext
    match a with
    | ⟨0, _⟩ => show win5_1.index t (0 : Fin 2) * 5000 + 1 * p.val = win5_9.index t (0 : Fin 2) * 5000 + 1 * p.val; omega
    | ⟨1, _⟩ => show win5_1.index t (1 : Fin 2) * 32 + 1 * q.val = win5_9.index t (1 : Fin 2) * 32 + 1 * q.val; omega
  have hx : matProd (iblk5 V c 0 t) (iblk5 V c 7 t) (ix2 p q)
      = matProd (V c main_v91 : S50000x64.Idx → EReal) (V c main_arg22 : S64x32.Idx → EReal) (((cfg5.win 9).blk t).view.emb (ix2 p q)) := by
    rw [skip_whole V c t]
    refine matProd_rows (V c main_v91 : S50000x64.Idx → EReal) (iblk5 V c 0 t) (V c main_arg22 : S64x32.Idx → EReal) (ix2 p q)
      (((cfg5.win 9).blk t).view.emb (ix2 p q)) (fun k => ?_) ?_
    · show (V c main_v91 : S50000x64.Idx → EReal) (((cfg5.win 0).blk t).view.emb (ix2 (⟨p.val, p.isLt⟩ : Fin 5000) k)) = _
      refine congrArg _ ?_
      funext a; apply Fin.ext
      match a with
      | ⟨0, _⟩ => show win5_0.index t (0 : Fin 2) * 5000 + 1 * p.val = win5_9.index t (0 : Fin 2) * 5000 + 1 * p.val; omega
      | ⟨1, _⟩ => show win5_0.index t (1 : Fin 2) * 64 + 1 * k.val = k.val; omega
    · show q.val = win5_9.index t (1 : Fin 2) * 32 + 1 * q.val; omega
  rw [hc, hx, row2 V c t, row3 V c t, row4 V c t, row5 V c t, row6 V c t, row8 V c t, hb q, hγ q, hβ q, hμ q, hv q, hs q]
  show _ = normRelu _ b μ v γ β _ + _
  unfold normRelu
  rw [hcol]

/-- An index of the output array is in point t's block iff each coordinate is in the block's range on its axis. -/
theorem mem_blk (t : Fin cfg5.N) (i : S50000x32.Idx) :
    i ∈ ((cfg5.win 9).blk t).view.set ↔ ∀ a : Fin 2, win5_9.index t a * S5000x32.size a ≤ (i a).val
      ∧ (i a).val < win5_9.index t a * S5000x32.size a + S5000x32.size a := by
  show i ∈ ((View.whole main_v132).slice (win5_9.rect t)).set ↔ _
  rw [View.set_slice_whole, Rect.mem_set_unit]
  exact Iff.rfl

/-- The ten blocks tile the output array: row r lies in the block of point r / 5000. -/
theorem covered (i : S50000x32.Idx) :
    ∃ t : Fin cfg5.N, (cfg5.win 9).flush t = true ∧ i ∈ ((cfg5.win 9).blk t).view.set := by
  have hi0 : (i 0).val < 50000 := (i 0).isLt
  have hi1 : (i 1).val < 32 := (i 1).isLt
  obtain ⟨t, ht⟩ := block_onto ⟨(i 0).val / 5000, by omega⟩
  have q0 : win5_9.index t (0 : Fin 2) = (i 0).val / 5000 := congrFun ht 0
  have q1 : win5_9.index t (1 : Fin 2) = 0 := congrFun ht 1
  refine ⟨t, flush5_9 t, ?_⟩
  rw [mem_blk]
  intro a
  match a with
  | ⟨0, _⟩ => show win5_9.index t (0 : Fin 2) * 5000 ≤ (i 0).val ∧ (i 0).val < win5_9.index t (0 : Fin 2) * 5000 + 5000; omega
  | ⟨1, _⟩ => show win5_9.index t (1 : Fin 2) * 32 ≤ (i 1).val ∧ (i 1).val < win5_9.index t (1 : Fin 2) * 32 + 32; omega

/-- After the region the output array is the layer function of the arrays as the region found them. -/
theorem final (c : Dev nD) (b μ v γ β s : S32.Idx → EReal)
    (hb : ∀ q : Fin 32, (V c main_v126 : S1x32.Idx → EReal) (ix2 0 q) = b (ix1 q))
    (hγ : ∀ q : Fin 32, (V c main_v127 : S1x32.Idx → EReal) (ix2 0 q) = γ (ix1 q))
    (hβ : ∀ q : Fin 32, (V c main_v128 : S1x32.Idx → EReal) (ix2 0 q) = β (ix1 q))
    (hμ : ∀ q : Fin 32, (V c main_v129 : S1x32.Idx → EReal) (ix2 0 q) = μ (ix1 q))
    (hv : ∀ q : Fin 32, (V c main_v130 : S1x32.Idx → EReal) (ix2 0 q) = v (ix1 q))
    (hs : ∀ q : Fin 32, (V c main_v131 : S1x32.Idx → EReal) (ix2 0 q) = s (ix1 q)) :
    (dat5 V c).arrAt 9 cfg5.N = withSkip (V c main_v91 : S50000x64.Idx → EReal) (V c main_v125 : S50000x32.Idx → EReal) b μ v γ β (V c main_arg22 : S64x32.Idx → EReal) s :=
  (dat5 V c).arrAt_eq_of_cover 9 _ (fun t _ => flushed_eq V c t b μ v γ β s hb hγ hβ hμ hv hs) covered

end Cert.KernelIdeal.Layer2

end
-- ==== Proof.Degrees.lean ====
/-
  The edge lists and the degree normalisation, as the kernel program's first stretch of host operations computes
  them, are the reference's: the source row and the target row of the edge array sliced out and flattened, and the
  reciprocal square root of one plus the number of edges aimed at each node (ones scatter-added along the target
  row into zeros). The two programs spell these stages with the same operations on the same operands, so each
  buffer after the stretch is the reference's stage of the edge array. The reference recomputes the normalisation
  before every layer; the three copies are one function.
-/
import proofs.«182117_j80625126080954_1_alg».proof.Proof.Gen.KernelIdeal.Frame
import proofs.«182117_j80625126080954_1_alg».proof.Proof.RefStagesP
import Idealize.ShloMosaic.Lib.StableHlo.Run

set_option maxRecDepth 16384

noncomputable section

namespace Cert.KernelIdeal.Degrees

open Cert.KernelIdeal Cert.KernelIdeal.Gen Idealize.ShloMosaic Idealize.ShloMosaic.TcCoe Idealize.SL.Sem
open Idealize.ShloMosaic.StableHlo (after_nil after_cons)
open Cert.ReferenceIdeal.ReadP

variable (W : Valuation τ sig (Elt Ideal))

/-- The source nodes of the edges. -/
theorem sources (x1 : (⟨S2x800000, .i32⟩ : BufTy).Contents (Elt Ideal)) (h : W (Proc.devRef .tc main_arg1) = x1) :
    StableHlo.after hostOps0 W (Proc.devRef .tc main_v1) = val_main_v1 x1 := by
  subst h
  after_results_simp <;> rfl

/-- The target nodes of the edges. -/
theorem targets (x1 : (⟨S2x800000, .i32⟩ : BufTy).Contents (Elt Ideal)) (h : W (Proc.devRef .tc main_arg1) = x1) :
    StableHlo.after hostOps0 W (Proc.devRef .tc main_v3) = val_main_v3 x1 := by
  subst h
  after_results_simp <;> rfl

set_option maxHeartbeats 4000000 in
/-- The reciprocal square root of each node's degree (counting its self loop). -/
theorem normalisation (x1 : (⟨S2x800000, .i32⟩ : BufTy).Contents (Elt Ideal)) (h : W (Proc.devRef .tc main_arg1) = x1) :
    StableHlo.after hostOps0 W (Proc.devRef .tc main_v10) = val_main_v11 x1 := by
  subst h
  after_results_simp <;> rfl

/-- The reference's second and third computations of the normalisation are the first. -/
theorem normalisation_again (x1 : (⟨S2x800000, .i32⟩ : BufTy).Contents (Elt Ideal)) : val_main_v76 (F := Ideal) x1 = val_main_v11 x1 := rfl
theorem normalisation_third (x1 : (⟨S2x800000, .i32⟩ : BufTy).Contents (Elt Ideal)) : val_main_v141 (F := Ideal) x1 = val_main_v11 x1 := rfl

end Cert.KernelIdeal.Degrees

end
-- ==== Proof.Aggregate0.lean ====
/-
  The neighbour aggregation of layer 0, as the kernel program's host stretch computes it, is the reference's.

  From the projected features h the stretch gathers the row of every edge's source node, scales it by the product of
  the two end nodes' degree normalisations, scatter-adds the scaled rows at the edges' target nodes into zeros, and
  adds each node's own row times the square of its normalisation. The reference computes the same array by the same
  operations on the same operands in the same order, so once the stretch's inputs — the projected features, the
  normalisation, the two edge lists — are the reference's stages, its result is the reference's stage. The same
  stretch lays each per-column vector of the layer out as a 1×128 row for the kernel region that follows.
-/
import proofs.«182117_j80625126080954_1_alg».proof.Proof.Gen.KernelIdeal.Frame
import proofs.«182117_j80625126080954_1_alg».proof.Proof.RefStagesP
import Idealize.ShloMosaic.Lib.StableHlo.Run
import Idealize.ShloMosaic.Lib.ValueLayout
import Idealize.ShloMosaic.Lib.ValueIdx

set_option maxRecDepth 16384

noncomputable section

namespace Cert.KernelIdeal.Aggregate0

open Cert.KernelIdeal Cert.KernelIdeal.Gen Idealize.ShloMosaic Idealize.ShloMosaic.TcCoe Idealize.SL.Sem
open Idealize.ShloMosaic.StableHlo (after_nil after_cons)
open Cert.ReferenceIdeal.ReadP Idealize.ShloMosaic.ValueIdx

variable (W : Valuation τ sig (Elt Ideal))

set_option maxHeartbeats 8000000 in
/-- The aggregated array of layer 0. -/
theorem aggregated (x0 : (⟨S50000x128, .f32⟩ : BufTy).Contents (Elt Ideal))
    (x1 : (⟨S2x800000, .i32⟩ : BufTy).Contents (Elt Ideal))
    (x2 : (⟨S128x128, .f32⟩ : BufTy).Contents (Elt Ideal))
    (hh : W (Proc.devRef .tc main_v11) = val_main_v4 x0 x2)
    (hd : W (Proc.devRef .tc main_v10) = val_main_v11 x1)
    (hs : W (Proc.devRef .tc main_v1) = val_main_v1 x1)
    (ht : W (Proc.devRef .tc main_v3) = val_main_v3 x1) :
    StableHlo.after hostOps1 W (Proc.devRef .tc main_v44) = val_main_v44 x0 x1 x2 := by
  after_results_simp
  rw [hh, hd, hs, ht]
  rfl

/-- The bias vector laid out as a 1×128 row reads, at column q, the vector's entry q. -/
theorem row_bias (q : Fin 128) :
    (StableHlo.after hostOps1 W (Proc.devRef .tc main_v45) : S1x128.Idx → EReal) (ix2 0 q)
      = (W (Proc.devRef .tc main_arg3) : S128.Idx → EReal) (ix1 q) := by
  have e : (StableHlo.after hostOps1 W (Proc.devRef .tc main_v45) : S1x128.Idx → EReal)
      = shapeCast S1x128 (W (Proc.devRef .tc main_arg3) : S128.Idx → EReal) shapeCasts_S128_S1x128 := by
    after_results_simp <;> rfl
  rw [e]
  exact shapeCast_a_1a_apply _ _ 0 q

/-- The scale vector laid out as a 1×128 row reads, at column q, the vector's entry q. -/
theorem row_scale (q : Fin 128) :
    (StableHlo.after hostOps1 W (Proc.devRef .tc main_v46) : S1x128.Idx → EReal) (ix2 0 q)
      = (W (Proc.devRef .tc main_arg4) : S128.Idx → EReal) (ix1 q) := by
  have e : (StableHlo.after hostOps1 W (Proc.devRef .tc main_v46) : S1x128.Idx → EReal)
      = shapeCast S1x128 (W (Proc.devRef .tc main_arg4) : S128.Idx → EReal) shapeCasts_S128_S1x128 := by
    after_results_simp <;> rfl
  rw [e]
  exact shapeCast_a_1a_apply _ _ 0 q

/-- The shift vector laid out as a 1×128 row reads, at column q, the vector's entry q. -/
theorem row_shift (q : Fin 128) :
    (StableHlo.after hostOps1 W (Proc.devRef .tc main_v47) : S1x128.Idx → EReal) (ix2 0 q)
      = (W (Proc.devRef .tc main_arg5) : S128.Idx → EReal) (ix1 q) := by
  have e : (StableHlo.after hostOps1 W (Proc.devRef .tc main_v47) : S1x128.Idx → EReal)
      = shapeCast S1x128 (W (Proc.devRef .tc main_arg5) : S128.Idx → EReal) shapeCasts_S128_S1x128 := by
    after_results_simp <;> rfl
  rw [e]
  exact shapeCast_a_1a_apply _ _ 0 q

/-- The mean vector laid out as a 1×128 row reads, at column q, the vector's entry q. -/
theorem row_mean (q : Fin 128) :
    (StableHlo.after hostOps1 W (Proc.devRef .tc main_v48) : S1x128.Idx → EReal) (ix2 0 q)
      = (W (Proc.devRef .tc main_arg6) : S128.Idx → EReal) (ix1 q) := by
  have e : (StableHlo.after hostOps1 W (Proc.devRef .tc main_v48) : S1x128.Idx → EReal)
      = shapeCast S1x128 (W (Proc.devRef .tc main_arg6) : S128.Idx → EReal) shapeCasts_S128_S1x128 := by
    after_results_simp <;> rfl
  rw [e]
  exact shapeCast_a_1a_apply _ _ 0 q

/-- The variance vector laid out as a 1×128 row reads, at column q, the vector's entry q. -/
theorem row_variance (q : Fin 128) :
    (StableHlo.after hostOps1 W (Proc.devRef .tc main_v49) : S1x128.Idx → EReal) (ix2 0 q)
      = (W (Proc.devRef .tc main_arg7) : S128.Idx → EReal) (ix1 q) := by
  have e : (StableHlo.after hostOps1 W (Proc.devRef .tc main_v49) : S1x128.Idx → EReal)
      = shapeCast S1x128 (W (Proc.devRef .tc main_arg7) : S128.Idx → EReal) shapeCasts_S128_S1x128 := by
    after_results_simp <;> rfl
  rw [e]
  exact shapeCast_a_1a_apply _ _ 0 q

end Cert.KernelIdeal.Aggregate0

end
-- ==== Proof.Aggregate1.lean ====
/-
  The neighbour aggregation of layer 1, as the kernel program's host stretch computes it, is the reference's.

  From the projected features h the stretch gathers the row of every edge's source node, scales it by the product of
  the two end nodes' degree normalisations, scatter-adds the scaled rows at the edges' target nodes into zeros, and
  adds each node's own row times the square of its normalisation. The reference computes the same array by the same
  operations on the same operands in the same order, so once the stretch's inputs — the projected features, the
  normalisation, the two edge lists — are the reference's stages, its result is the reference's stage. The same
  stretch lays each per-column vector of the layer out as a 1×64 row for the kernel region that follows.
-/
import proofs.«182117_j80625126080954_1_alg».proof.Proof.Gen.KernelIdeal.Frame
import proofs.«182117_j80625126080954_1_alg».proof.Proof.RefStagesP
import Idealize.ShloMosaic.Lib.StableHlo.Run
import Idealize.ShloMosaic.Lib.ValueLayout
import Idealize.ShloMosaic.Lib.ValueIdx

set_option maxRecDepth 16384

noncomputable section

namespace Cert.KernelIdeal.Aggregate1

open Cert.KernelIdeal Cert.KernelIdeal.Gen Idealize.ShloMosaic Idealize.ShloMosaic.TcCoe Idealize.SL.Sem
open Idealize.ShloMosaic.StableHlo (after_nil after_cons)
open Cert.ReferenceIdeal.ReadP Idealize.ShloMosaic.ValueIdx

variable (W : Valuation τ sig (Elt Ideal))

set_option maxHeartbeats 8000000 in
/-- The aggregated array of layer 1. -/
theorem aggregated (x0 : (⟨S50000x128, .f32⟩ : BufTy).Contents (Elt Ideal))
    (x1 : (⟨S2x800000, .i32⟩ : BufTy).Contents (Elt Ideal))
    (x2 : (⟨S128x128, .f32⟩ : BufTy).Contents (Elt Ideal))
    (x3 x4 x5 x6 x7 : (⟨S128, .f32⟩ : BufTy).Contents (Elt Ideal))
    (x8 : (⟨S128x64, .f32⟩ : BufTy).Contents (Elt Ideal))
    (hh : W (Proc.devRef .tc main_v51) = val_main_v69 x0 x1 x2 x3 x4 x5 x6 x7 x8)
    (hd : W (Proc.devRef .tc main_v10) = val_main_v76 x1)
    (hs : W (Proc.devRef .tc main_v1) = val_main_v1 x1)
    (ht : W (Proc.devRef .tc main_v3) = val_main_v3 x1) :
    StableHlo.after hostOps3 W (Proc.devRef .tc main_v84) = val_main_v109 x0 x1 x2 x3 x4 x5 x6 x7 x8 := by
  after_results_simp
  rw [hh, hd, hs, ht]
  rfl

/-- The bias vector laid out as a 1×64 row reads, at column q, the vector's entry q. -/
theorem row_bias (q : Fin 64) :
    (StableHlo.after hostOps3 W (Proc.devRef .tc main_v85) : S1x64.Idx → EReal) (ix2 0 q)
      = (W (Proc.devRef .tc main_arg9) : S64.Idx → EReal) (ix1 q) := by
  have e : (StableHlo.after hostOps3 W (Proc.devRef .tc main_v85) : S1x64.Idx → EReal)
      = shapeCast S1x64 (W (Proc.devRef .tc main_arg9) : S64.Idx → EReal) shapeCasts_S64_S1x64 := by
    after_results_simp <;> rfl
  rw [e]
  exact shapeCast_a_1a_apply _ _ 0 q

/-- The scale vector laid out as a 1×64 row reads, at column q, the vector's entry q. -/
theorem row_scale (q : Fin 64) :
    (StableHlo.after hostOps3 W (Proc.devRef .tc main_v86) : S1x64.Idx → EReal) (ix2 0 q)
      = (W (Proc.devRef .tc main_arg10) : S64.Idx → EReal) (ix1 q) := by
  have e : (StableHlo.after hostOps3 W (Proc.devRef .tc main_v86) : S1x64.Idx → EReal)
      = shapeCast S1x64 (W (Proc.devRef .tc main_arg10) : S64.Idx → EReal) shapeCasts_S64_S1x64 := by
    after_results_simp <;> rfl
  rw [e]
  exact shapeCast_a_1a_apply _ _ 0 q

/-- The shift vector laid out as a 1×64 row reads, at column q, the vector's entry q. -/
theorem row_shift (q : Fin 64) :
    (StableHlo.after hostOps3 W (Proc.devRef .tc main_v87) : S1x64.Idx → EReal) (ix2 0 q)
      = (W (Proc.devRef .tc main_arg11) : S64.Idx → EReal) (ix1 q) := by
  have e : (StableHlo.after hostOps3 W (Proc.devRef .tc main_v87) : S1x64.Idx → EReal)
      = shapeCast S1x64 (W (Proc.devRef .tc main_arg11) : S64.Idx → EReal) shapeCasts_S64_S1x64 := by
    after_results_simp <;> rfl
  rw [e]
  exact shapeCast_a_1a_apply _ _ 0 q

/-- The mean vector laid out as a 1×64 row reads, at column q, the vector's entry q. -/
theorem row_mean (q : Fin 64) :
    (StableHlo.after hostOps3 W (Proc.devRef .tc main_v88) : S1x64.Idx → EReal) (ix2 0 q)
      = (W (Proc.devRef .tc main_arg12) : S64.Idx → EReal) (ix1 q) := by
  have e : (StableHlo.after hostOps3 W (Proc.devRef .tc main_v88) : S1x64.Idx → EReal)
      = shapeCast S1x64 (W (Proc.devRef .tc main_arg12) : S64.Idx → EReal) shapeCasts_S64_S1x64 := by
    after_results_simp <;> rfl
  rw [e]
  exact shapeCast_a_1a_apply _ _ 0 q

/-- The variance vector laid out as a 1×64 row reads, at column q, the vector's entry q. -/
theorem row_variance (q : Fin 64) :
    (StableHlo.after hostOps3 W (Proc.devRef .tc main_v89) : S1x64.Idx → EReal) (ix2 0 q)
      = (W (Proc.devRef .tc main_arg13) : S64.Idx → EReal) (ix1 q) := by
  have e : (StableHlo.after hostOps3 W (Proc.devRef .tc main_v89) : S1x64.Idx → EReal)
      = shapeCast S1x64 (W (Proc.devRef .tc main_arg13) : S64.Idx → EReal) shapeCasts_S64_S1x64 := by
    after_results_simp <;> rfl
  rw [e]
  exact shapeCast_a_1a_apply _ _ 0 q

/-- The skip bias vector laid out as a 1×64 row reads, at column q, the vector's entry q. -/
theorem row_skip (q : Fin 64) :
    (StableHlo.after hostOps3 W (Proc.devRef .tc main_v90) : S1x64.Idx → EReal) (ix2 0 q)
      = (W (Proc.devRef .tc main_arg15) : S64.Idx → EReal) (ix1 q) := by
  have e : (StableHlo.after hostOps3 W (Proc.devRef .tc main_v90) : S1x64.Idx → EReal)
      = shapeCast S1x64 (W (Proc.devRef .tc main_arg15) : S64.Idx → EReal) shapeCasts_S64_S1x64 := by
    after_results_simp <;> rfl
  rw [e]
  exact shapeCast_a_1a_apply _ _ 0 q

end Cert.KernelIdeal.Aggregate1

end
-- ==== Proof.Aggregate2.lean ====
/-
  The neighbour aggregation of layer 2, as the kernel program's host stretch computes it, is the reference's.

  From the projected features h the stretch gathers the row of every edge's source node, scales it by the product of
  the two end nodes' degree normalisations, scatter-adds the scaled rows at the edges' target nodes into zeros, and
  adds each node's own row times the square of its normalisation. The reference computes the same array by the same
  operations on the same operands in the same order, so once the stretch's inputs — the projected features, the
  normalisation, the two edge lists — are the reference's stages, its result is the reference's stage. The same
  stretch lays each per-column vector of the layer out as a 1×32 row for the kernel region that follows.
-/
import proofs.«182117_j80625126080954_1_alg».proof.Proof.Gen.KernelIdeal.Frame
import proofs.«182117_j80625126080954_1_alg».proof.Proof.RefStagesP
import Idealize.ShloMosaic.Lib.StableHlo.Run
import Idealize.ShloMosaic.Lib.ValueLayout
import Idealize.ShloMosaic.Lib.ValueIdx

set_option maxRecDepth 16384

noncomputable section

namespace Cert.KernelIdeal.Aggregate2

open Cert.KernelIdeal Cert.KernelIdeal.Gen Idealize.ShloMosaic Idealize.ShloMosaic.TcCoe Idealize.SL.Sem
open Idealize.ShloMosaic.StableHlo (after_nil after_cons)
open Cert.ReferenceIdeal.ReadP Idealize.ShloMosaic.ValueIdx

variable (W : Valuation τ sig (Elt Ideal))

set_option maxHeartbeats 8000000 in
/-- The aggregated array of layer 2. -/
theorem aggregated (x0 : (⟨S50000x128, .f32⟩ : BufTy).Contents (Elt Ideal))
    (x1 : (⟨S2x800000, .i32⟩ : BufTy).Contents (Elt Ideal))
    (x2 : (⟨S128x128, .f32⟩ : BufTy).Contents (Elt Ideal))
    (x3 x4 x5 x6 x7 : (⟨S128, .f32⟩ : BufTy).Contents (Elt Ideal))
    (x8 : (⟨S128x64, .f32⟩ : BufTy).Contents (Elt Ideal))
    (x9 x10 x11 x12 x13 : (⟨S64, .f32⟩ : BufTy).Contents (Elt Ideal))
    (x14 : (⟨S128x64, .f32⟩ : BufTy).Contents (Elt Ideal))
    (x15 : (⟨S64, .f32⟩ : BufTy).Contents (Elt Ideal))
    (x16 : (⟨S64x32, .f32⟩ : BufTy).Contents (Elt Ideal))
    (hh : W (Proc.devRef .tc main_v92) = val_main_v134 x0 x1 x2 x3 x4 x5 x6 x7 x8 x9 x10 x11 x12 x13 x14 x15 x16)
    (hd : W (Proc.devRef .tc main_v10) = val_main_v141 x1)
    (hs : W (Proc.devRef .tc main_v1) = val_main_v1 x1)
    (ht : W (Proc.devRef .tc main_v3) = val_main_v3 x1) :
    StableHlo.after hostOps5 W (Proc.devRef .tc main_v125) = val_main_v174 x0 x1 x2 x3 x4 x5 x6 x7 x8 x9 x10 x11 x12 x13 x14 x15 x16 := by
  after_results_simp
  rw [hh, hd, hs, ht]
  rfl

/-- The bias vector laid out as a 1×32 row reads, at column q, the vector's entry q. -/
theorem row_bias (q : Fin 32) :
    (StableHlo.after hostOps5 W (Proc.devRef .tc main_v126) : S1x32.Idx → EReal) (ix2 0 q)
      = (W (Proc.devRef .tc main_arg17) : S32.Idx → EReal) (ix1 q) := by
  have e : (StableHlo.after hostOps5 W (Proc.devRef .tc main_v126) : S1x32.Idx → EReal)
      = shapeCast S1x32 (W (Proc.devRef .tc main_arg17) : S32.Idx → EReal) shapeCasts_S32_S1x32 := by
    after_results_simp <;> rfl
  rw [e]
  exact shapeCast_a_1a_apply _ _ 0 q

/-- The scale vector laid out as a 1×32 row reads, at column q, the vector's entry q. -/
theorem row_scale (q : Fin 32) :
    (StableHlo.after hostOps5 W (Proc.devRef .tc main_v127) : S1x32.Idx → EReal) (ix2 0 q)
      = (W (Proc.devRef .tc main_arg18) : S32.Idx → EReal) (ix1 q) := by
  have e : (StableHlo.after hostOps5 W (Proc.devRef .tc main_v127) : S1x32.Idx → EReal)
      = shapeCast S1x32 (W (Proc.devRef .tc main_arg18) : S32.Idx → EReal) shapeCasts_S32_S1x32 := by
    after_results_simp <;> rfl
  rw [e]
  exact shapeCast_a_1a_apply _ _ 0 q

/-- The shift vector laid out as a 1×32 row reads, at column q, the vector's entry q. -/
theorem row_shift (q : Fin 32) :
    (StableHlo.after hostOps5 W (Proc.devRef .tc main_v128) : S1x32.Idx → EReal) (ix2 0 q)
      = (W (Proc.devRef .tc main_arg19) : S32.Idx → EReal) (ix1 q) := by
  have e : (StableHlo.after hostOps5 W (Proc.devRef .tc main_v128) : S1x32.Idx → EReal)
      = shapeCast S1x32 (W (Proc.devRef .tc main_arg19) : S32.Idx → EReal) shapeCasts_S32_S1x32 := by
    after_results_simp <;> rfl
  rw [e]
  exact shapeCast_a_1a_apply _ _ 0 q

/-- The mean vector laid out as a 1×32 row reads, at column q, the vector's entry q. -/
theorem row_mean (q : Fin 32) :
    (StableHlo.after hostOps5 W (Proc.devRef .tc main_v129) : S1x32.Idx → EReal) (ix2 0 q)
      = (W (Proc.devRef .tc main_arg20) : S32.Idx → EReal) (ix1 q) := by
  have e : (StableHlo.after hostOps5 W (Proc.devRef .tc main_v129) : S1x32.Idx → EReal)
      = shapeCast S1x32 (W (Proc.devRef .tc main_arg20) : S32.Idx → EReal) shapeCasts_S32_S1x32 := by
    after_results_simp <;> rfl
  rw [e]
  exact shapeCast_a_1a_apply _ _ 0 q

/-- The variance vector laid out as a 1×32 row reads, at column q, the vector's entry q. -/
theorem row_variance (q : Fin 32) :
    (StableHlo.after hostOps5 W (Proc.devRef .tc main_v130) : S1x32.Idx → EReal) (ix2 0 q)
      = (W (Proc.devRef .tc main_arg21) : S32.Idx → EReal) (ix1 q) := by
  have e : (StableHlo.after hostOps5 W (Proc.devRef .tc main_v130) : S1x32.Idx → EReal)
      = shapeCast S1x32 (W (Proc.devRef .tc main_arg21) : S32.Idx → EReal) shapeCasts_S32_S1x32 := by
    after_results_simp <;> rfl
  rw [e]
  exact shapeCast_a_1a_apply _ _ 0 q

/-- The skip bias vector laid out as a 1×32 row reads, at column q, the vector's entry q. -/
theorem row_skip (q : Fin 32) :
    (StableHlo.after hostOps5 W (Proc.devRef .tc main_v131) : S1x32.Idx → EReal) (ix2 0 q)
      = (W (Proc.devRef .tc main_arg23) : S32.Idx → EReal) (ix1 q) := by
  have e : (StableHlo.after hostOps5 W (Proc.devRef .tc main_v131) : S1x32.Idx → EReal)
      = shapeCast S1x32 (W (Proc.devRef .tc main_arg23) : S32.Idx → EReal) shapeCasts_S32_S1x32 := by
    after_results_simp <;> rfl
  rw [e]
  exact shapeCast_a_1a_apply _ _ 0 q

end Cert.KernelIdeal.Aggregate2

end
-- ==== Proof.LibTypedRefs.lean ====
/-
  A typed reference to a buffer carries contents to the buffer's own type and back along the equation between the two
  types; carried there and back they are unchanged. Nothing here mentions a program.
-/
import Idealize.ShloMosaic.Lib.StableHlo

namespace Cert.Lib.TypedRefs

open Idealize.ShloMosaic Idealize.ShloMosaic.StableHlo

variable {sig : RefSig} {Val : EltTy → Type}

/-- Contents carried to a buffer's own type and back are unchanged. -/
theorem ofBuf_toBuf {T : BufTy} (x : TRef sig T) (v : T.Contents Val) : x.ofBuf (x.toBuf v) = v := by
  obtain ⟨r, h, _, _⟩ := x
  subst h
  rfl

end Cert.Lib.TypedRefs
-- ==== Proof.Head.lean ====
/-
  The classifier head and the logarithm of the softmax, as the kernel program's last stretches of host operations
  compute them, are the reference's.

  Both programs end with the same operations on the last layer's output: a dense layer clamped at zero, a second
  dense layer to two columns, and along each row the entry minus the row maximum minus the logarithm of the sum of
  the exponentials of those differences. So once the last layer's output and the head's four weight arrays are the
  reference's, the result is the reference's result stage.
-/
import proofs.«182117_j80625126080954_1_alg».proof.Proof.Gen.KernelIdeal.Frame
import proofs.«182117_j80625126080954_1_alg».proof.Proof.RefStagesP
import Idealize.ShloMosaic.Lib.StableHlo.Run
import proofs.«182117_j80625126080954_1_alg».proof.Proof.LibTypedRefs

set_option maxRecDepth 16384

noncomputable section

namespace Cert.KernelIdeal.Head

open Cert.KernelIdeal Cert.KernelIdeal.Gen Idealize.ShloMosaic Idealize.ShloMosaic.TcCoe Idealize.SL.Sem
open Idealize.ShloMosaic.StableHlo (after_nil after_cons)
open Cert.ReferenceIdeal.ReadP

variable (W : Valuation τ sig (Elt Ideal))

set_option maxHeartbeats 8000000 in
/-- The program's result after the four last stretches. -/
theorem result (x0 : (⟨S50000x128, .f32⟩ : BufTy).Contents (Elt Ideal))
    (x1 : (⟨S2x800000, .i32⟩ : BufTy).Contents (Elt Ideal))
    (x2 : (⟨S128x128, .f32⟩ : BufTy).Contents (Elt Ideal))
    (x3 x4 x5 x6 x7 : (⟨S128, .f32⟩ : BufTy).Contents (Elt Ideal))
    (x8 : (⟨S128x64, .f32⟩ : BufTy).Contents (Elt Ideal))
    (x9 x10 x11 x12 x13 : (⟨S64, .f32⟩ : BufTy).Contents (Elt Ideal))
    (x14 : (⟨S128x64, .f32⟩ : BufTy).Contents (Elt Ideal))
    (x15 : (⟨S64, .f32⟩ : BufTy).Contents (Elt Ideal))
    (x16 : (⟨S64x32, .f32⟩ : BufTy).Contents (Elt Ideal))
    (x17 x18 x19 x20 x21 : (⟨S32, .f32⟩ : BufTy).Contents (Elt Ideal))
    (x22 : (⟨S64x32, .f32⟩ : BufTy).Contents (Elt Ideal))
    (x23 : (⟨S32, .f32⟩ : BufTy).Contents (Elt Ideal))
    (x24 : (⟨S32x16, .f32⟩ : BufTy).Contents (Elt Ideal))
    (x25 : (⟨S16, .f32⟩ : BufTy).Contents (Elt Ideal))
    (x26 : (⟨S16x2, .f32⟩ : BufTy).Contents (Elt Ideal))
    (x27 : (⟨S2, .f32⟩ : BufTy).Contents (Elt Ideal))
    (hh : W (Proc.devRef .tc main_v132) = val_main_v194 x0 x1 x2 x3 x4 x5 x6 x7 x8 x9 x10 x11 x12 x13 x14 x15 x16 x17 x18 x19 x20 x21 x22 x23)
    (h24 : W (Proc.devRef .tc main_arg24) = x24) (h25 : W (Proc.devRef .tc main_arg25) = x25)
    (h26 : W (Proc.devRef .tc main_arg26) = x26) (h27 : W (Proc.devRef .tc main_arg27) = x27) :
    StableHlo.after hostOps6_3 (StableHlo.after hostOps6_2 (StableHlo.after hostOps6_1 (StableHlo.after hostOps6 W)))
      (Proc.devRef .tc main_v142) = val_main_v204 x0 x1 x2 x3 x4 x5 x6 x7 x8 x9 x10 x11 x12 x13 x14 x15 x16 x17 x18 x19 x20 x21 x22 x23 x24 x25 x26 x27 := by
  subst h24 h25 h26 h27
  after_results_simp
  simp only [Cert.Lib.TypedRefs.ofBuf_toBuf]
  simp only [StableHlo.TRef.ofBuf, StableHlo.TRef.toBuf, cast_eq]
  rw [hh]
  simp only [val_main_v204, val_main_call4_v5, val_main_v203, val_main_v200, val_main_v199, val_main_v198, val_main_v195, val_main_v197, val_main_v196, val_main_call3_v0, val_main_call3_cst, val_main_v202, val_main_v201, val_main_call4_v4, val_main_call4_v3, val_main_call4_v2, val_main_call4_v1, val_main_call4_cst_0, val_main_call4_v0, val_main_call4_cst, val_main_call4_v10, val_main_call4_v9, val_main_call4_v8, val_main_call4_v7, val_main_call4_v6, val_main_call4_cst_1]
  rfl

end Cert.KernelIdeal.Head

end
-- ==== Proof.RefLayers.lean ====
/-
  The reference program's three layers, read stage by stage, are the layer functions.

  After the neighbour aggregation the reference adds the bias vector (broadcast along the rows), subtracts the mean
  vector, multiplies by the reciprocal square root of the variance vector plus the small word, by the scale vector,
  adds the shift vector, takes the maximum with zero and adds the residual — its own input in the first layer, the
  previous layer's output times the skip matrix plus the skip bias in the other two. Each vector reaches an entry
  (p, q) through two broadcasts whose composed index map is "column q"; everything else is entry by entry, and the
  host's matrix product is the product function. The sums and products are grouped exactly as in the layer functions,
  so after the broadcasts are read the two sides are the same expression.
-/
import proofs.«182117_j80625126080954_1_alg».proof.Proof.RefStagesP
import proofs.«182117_j80625126080954_1_alg».proof.Proof.LibMatProd
import proofs.«182117_j80625126080954_1_alg».proof.Proof.LayerSpec
import Idealize.ShloMosaic.Lib.ValueIdx

set_option maxRecDepth 16384

noncomputable section

namespace Cert.ReferenceIdeal.Layers

open Cert.ReferenceIdeal Cert.ReferenceIdeal.ReadP Idealize.ShloMosaic Idealize.ShloMosaic.ValueIdx
open Cert.Lib.MatProd Cert.Layer

/-! ## Layer 0 -/

/-- The reference's layer 0, stage by stage, is the layer function of its aggregated array and the input. -/
theorem layer0_eq (x0 : (⟨S50000x128, .f32⟩ : BufTy).Contents (Elt Ideal))
    (x1 : (⟨S2x800000, .i32⟩ : BufTy).Contents (Elt Ideal))
    (x2 : (⟨S128x128, .f32⟩ : BufTy).Contents (Elt Ideal))
    (x3 x4 x5 x6 x7 : (⟨S128, .f32⟩ : BufTy).Contents (Elt Ideal)) :
    val_main_v64 (F := Ideal) x0 x1 x2 x3 x4 x5 x6 x7 = withInput x0 (val_main_v44 x0 x1 x2) x3 x6 x7 x4 x5 := by
  funext i
  have eb : idx_main_v45 (idx_main_v46 i) = col i := funext fun a => by match a with | ⟨0, _⟩ => rfl
  have eμ : idx_main_v48 (idx_main_v49 i) = col i := funext fun a => by match a with | ⟨0, _⟩ => rfl
  have ev : idx_main_v54 (idx_main_v55 i) = col i := funext fun a => by match a with | ⟨0, _⟩ => rfl
  have eγ : idx_main_v57 (idx_main_v58 i) = col i := funext fun a => by match a with | ⟨0, _⟩ => rfl
  have eβ : idx_main_v60 (idx_main_v61 i) = col i := funext fun a => by match a with | ⟨0, _⟩ => rfl
  rw [val_main_v64_apply, val_main_v63_apply, val_main_v62_apply, val_main_v61_apply, val_main_v60_apply, val_main_v59_apply, val_main_v58_apply, val_main_v57_apply, val_main_v56_apply, val_main_v55_apply, val_main_v54_apply, val_main_v53_apply, val_main_v52_apply, val_main_v51_apply, val_main_cst_8_apply, val_main_v50_apply, val_main_v49_apply, val_main_v48_apply, val_main_v47_apply, val_main_v46_apply, val_main_v45_apply, val_main_call0_v0_apply, val_main_call0_cst_apply]
  rw [eb, eμ, ev, eγ, eβ]
  simp only [withInput, normRelu]
  generalize val_main_v44 x0 x1 x2 i = ci
  generalize x0 i = xi
  rfl

/-! ## Layer 1 -/

/-- The reference's skip product of layer 1 is the matrix product of the previous layer's output with the skip matrix. -/
theorem skip1_eq (x0 : (⟨S50000x128, .f32⟩ : BufTy).Contents (Elt Ideal))
    (x1 : (⟨S2x800000, .i32⟩ : BufTy).Contents (Elt Ideal))
    (x2 : (⟨S128x128, .f32⟩ : BufTy).Contents (Elt Ideal))
    (x3 x4 x5 x6 x7 : (⟨S128, .f32⟩ : BufTy).Contents (Elt Ideal))
    (x14 : (⟨S128x64, .f32⟩ : BufTy).Contents (Elt Ideal)) :
    val_main_v65 (F := Ideal) x0 x1 x2 x3 x4 x5 x6 x7 x14 = matProd (val_main_v64 x0 x1 x2 x3 x4 x5 x6 x7) x14 := by
  unfold val_main_v65
  exact dotGeneral_eq_matProd dot_S50000x128_S128x64_S50000x64_1_0_0_1_n_n rfl rfl rfl rfl rfl rfl none .single _ _

/-- The reference's layer 1, stage by stage, is the layer function of its aggregated array, the previous layer's output and the skip weights. -/
theorem layer1_eq (x0 : (⟨S50000x128, .f32⟩ : BufTy).Contents (Elt Ideal))
    (x1 : (⟨S2x800000, .i32⟩ : BufTy).Contents (Elt Ideal))
    (x2 : (⟨S128x128, .f32⟩ : BufTy).Contents (Elt Ideal))
    (x3 x4 x5 x6 x7 : (⟨S128, .f32⟩ : BufTy).Contents (Elt Ideal))
    (x8 : (⟨S128x64, .f32⟩ : BufTy).Contents (Elt Ideal))
    (x9 x10 x11 x12 x13 : (⟨S64, .f32⟩ : BufTy).Contents (Elt Ideal))
    (x14 : (⟨S128x64, .f32⟩ : BufTy).Contents (Elt Ideal))
    (x15 : (⟨S64, .f32⟩ : BufTy).Contents (Elt Ideal)) :
    val_main_v129 (F := Ideal) x0 x1 x2 x3 x4 x5 x6 x7 x8 x9 x10 x11 x12 x13 x14 x15 = withSkip (val_main_v64 x0 x1 x2 x3 x4 x5 x6 x7) (val_main_v109 x0 x1 x2 x3 x4 x5 x6 x7 x8) x9 x12 x13 x10 x11 x14 x15 := by
  funext i
  have eb : idx_main_v110 (idx_main_v111 i) = col i := funext fun a => by match a with | ⟨0, _⟩ => rfl
  have eμ : idx_main_v113 (idx_main_v114 i) = col i := funext fun a => by match a with | ⟨0, _⟩ => rfl
  have ev : idx_main_v119 (idx_main_v120 i) = col i := funext fun a => by match a with | ⟨0, _⟩ => rfl
  have eγ : idx_main_v122 (idx_main_v123 i) = col i := funext fun a => by match a with | ⟨0, _⟩ => rfl
  have eβ : idx_main_v125 (idx_main_v126 i) = col i := funext fun a => by match a with | ⟨0, _⟩ => rfl
  have es : idx_main_v66 (idx_main_v67 i) = col i := funext fun a => by match a with | ⟨0, _⟩ => rfl
  rw [val_main_v129_apply, val_main_v128_apply, val_main_v127_apply, val_main_v126_apply, val_main_v125_apply, val_main_v124_apply, val_main_v123_apply, val_main_v122_apply, val_main_v121_apply, val_main_v120_apply, val_main_v119_apply, val_main_v118_apply, val_main_v117_apply, val_main_v116_apply, val_main_cst_19_apply, val_main_v115_apply, val_main_v114_apply, val_main_v113_apply, val_main_v112_apply, val_main_v111_apply, val_main_v110_apply, val_main_call1_v0_apply, val_main_call1_cst_apply, val_main_v68_apply, val_main_v67_apply, val_main_v66_apply]
  rw [eb, eμ, ev, eγ, eβ, es]
  rw [skip1_eq]
  simp only [withSkip, normRelu]
  generalize val_main_v109 x0 x1 x2 x3 x4 x5 x6 x7 x8 i = ci
  generalize matProd (val_main_v64 x0 x1 x2 x3 x4 x5 x6 x7) x14 i = pi
  rfl

/-! ## Layer 2 -/

/-- The reference's skip product of layer 2 is the matrix product of the previous layer's output with the skip matrix. -/
theorem skip2_eq (x0 : (⟨S50000x128, .f32⟩ : BufTy).Contents (Elt Ideal))
    (x1 : (⟨S2x800000, .i32⟩ : BufTy).Contents (Elt Ideal))
    (x2 : (⟨S128x128, .f32⟩ : BufTy).Contents (Elt Ideal))
    (x3 x4 x5 x6 x7 : (⟨S128, .f32⟩ : BufTy).Contents (Elt Ideal))
    (x8 : (⟨S128x64, .f32⟩ : BufTy).Contents (Elt Ideal))
    (x9 x10 x11 x12 x13 : (⟨S64, .f32⟩ : BufTy).Contents (Elt Ideal))
    (x14 : (⟨S128x64, .f32⟩ : BufTy).Contents (Elt Ideal))
    (x15 : (⟨S64, .f32⟩ : BufTy).Contents (Elt Ideal))
    (x22 : (⟨S64x32, .f32⟩ : BufTy).Contents (Elt Ideal)) :
    val_main_v130 (F := Ideal) x0 x1 x2 x3 x4 x5 x6 x7 x8 x9 x10 x11 x12 x13 x14 x15 x22 = matProd (val_main_v129 x0 x1 x2 x3 x4 x5 x6 x7 x8 x9 x10 x11 x12 x13 x14 x15) x22 := by
  unfold val_main_v130
  exact dotGeneral_eq_matProd dot_S50000x64_S64x32_S50000x32_1_0_0_1_n_n rfl rfl rfl rfl rfl rfl none .single _ _

/-- The reference's layer 2, stage by stage, is the layer function of its aggregated array, the previous layer's output and the skip weights. -/
theorem layer2_eq (x0 : (⟨S50000x128, .f32⟩ : BufTy).Contents (Elt Ideal))
    (x1 : (⟨S2x800000, .i32⟩ : BufTy).Contents (Elt Ideal))
    (x2 : (⟨S128x128, .f32⟩ : BufTy).Contents (Elt Ideal))
    (x3 x4 x5 x6 x7 : (⟨S128, .f32⟩ : BufTy).Contents (Elt Ideal))
    (x8 : (⟨S128x64, .f32⟩ : BufTy).Contents (Elt Ideal))
    (x9 x10 x11 x12 x13 : (⟨S64, .f32⟩ : BufTy).Contents (Elt Ideal))
    (x14 : (⟨S128x64, .f32⟩ : BufTy).Contents (Elt Ideal))
    (x15 : (⟨S64, .f32⟩ : BufTy).Contents (Elt Ideal))
    (x16 : (⟨S64x32, .f32⟩ : BufTy).Contents (Elt Ideal))
    (x17 x18 x19 x20 x21 : (⟨S32, .f32⟩ : BufTy).Contents (Elt Ideal))
    (x22 : (⟨S64x32, .f32⟩ : BufTy).Contents (Elt Ideal))
    (x23 : (⟨S32, .f32⟩ : BufTy).Contents (Elt Ideal)) :
    val_main_v194 (F := Ideal) x0 x1 x2 x3 x4 x5 x6 x7 x8 x9 x10 x11 x12 x13 x14 x15 x16 x17 x18 x19 x20 x21 x22 x23 = withSkip (val_main_v129 x0 x1 x2 x3 x4 x5 x6 x7 x8 x9 x10 x11 x12 x13 x14 x15) (val_main_v174 x0 x1 x2 x3 x4 x5 x6 x7 x8 x9 x10 x11 x12 x13 x14 x15 x16) x17 x20 x21 x18 x19 x22 x23 := by
  funext i
  have eb : idx_main_v175 (idx_main_v176 i) = col i := funext fun a => by match a with | ⟨0, _⟩ => rfl
  have eμ : idx_main_v178 (idx_main_v179 i) = col i := funext fun a => by match a with | ⟨0, _⟩ => rfl
  have ev : idx_main_v184 (idx_main_v185 i) = col i := funext fun a => by match a with | ⟨0, _⟩ => rfl
  have eγ : idx_main_v187 (idx_main_v188 i) = col i := funext fun a => by match a with | ⟨0, _⟩ => rfl
  have eβ : idx_main_v190 (idx_main_v191 i) = col i := funext fun a => by match a with | ⟨0, _⟩ => rfl
  have es : idx_main_v131 (idx_main_v132 i) = col i := funext fun a => by match a with | ⟨0, _⟩ => rfl
  rw [val_main_v194_apply, val_main_v193_apply, val_main_v192_apply, val_main_v191_apply, val_main_v190_apply, val_main_v189_apply, val_main_v188_apply, val_main_v187_apply, val_main_v186_apply, val_main_v185_apply, val_main_v184_apply, val_main_v183_apply, val_main_v182_apply, val_main_v181_apply, val_main_cst_30_apply, val_main_v180_apply, val_main_v179_apply, val_main_v178_apply, val_main_v177_apply, val_main_v176_apply, val_main_v175_apply, val_main_call2_v0_apply, val_main_call2_cst_apply, val_main_v133_apply, val_main_v132_apply, val_main_v131_apply]
  rw [eb, eμ, ev, eγ, eβ, es]
  rw [skip2_eq]
  simp only [withSkip, normRelu]
  generalize val_main_v174 x0 x1 x2 x3 x4 x5 x6 x7 x8 x9 x10 x11 x12 x13 x14 x15 x16 i = ci
  generalize matProd (val_main_v129 x0 x1 x2 x3 x4 x5 x6 x7 x8 x9 x10 x11 x12 x13 x14 x15) x22 i = pi
  rfl

/-! ## The projections -/

/-- The reference's projection of layer 0 is the matrix product of the layer's input with its weights. -/
theorem proj0_eq (x0 : (⟨S50000x128, .f32⟩ : BufTy).Contents (Elt Ideal))
    (x2 : (⟨S128x128, .f32⟩ : BufTy).Contents (Elt Ideal)) :
    val_main_v4 (F := Ideal) x0 x2 = matProd x0 x2 := by
  unfold val_main_v4
  exact dotGeneral_eq_matProd dot_S50000x128_S128x128_S50000x128_1_0_0_1_n_n rfl rfl rfl rfl rfl rfl none .single _ _

/-- The reference's projection of layer 1 is the matrix product of the layer's input with its weights. -/
theorem proj1_eq (x0 : (⟨S50000x128, .f32⟩ : BufTy).Contents (Elt Ideal))
    (x1 : (⟨S2x800000, .i32⟩ : BufTy).Contents (Elt Ideal))
    (x2 : (⟨S128x128, .f32⟩ : BufTy).Contents (Elt Ideal))
    (x3 x4 x5 x6 x7 : (⟨S128, .f32⟩ : BufTy).Contents (Elt Ideal))
    (x8 : (⟨S128x64, .f32⟩ : BufTy).Contents (Elt Ideal)) :
    val_main_v69 (F := Ideal) x0 x1 x2 x3 x4 x5 x6 x7 x8 = matProd (val_main_v64 x0 x1 x2 x3 x4 x5 x6 x7) x8 := by
  unfold val_main_v69
  exact dotGeneral_eq_matProd dot_S50000x128_S128x64_S50000x64_1_0_0_1_n_n rfl rfl rfl rfl rfl rfl none .single _ _

/-- The reference's projection of layer 2 is the matrix product of the layer's input with its weights. -/
theorem proj2_eq (x0 : (⟨S50000x128, .f32⟩ : BufTy).Contents (Elt Ideal))
    (x1 : (⟨S2x800000, .i32⟩ : BufTy).Contents (Elt Ideal))
    (x2 : (⟨S128x128, .f32⟩ : BufTy).Contents (Elt Ideal))
    (x3 x4 x5 x6 x7 : (⟨S128, .f32⟩ : BufTy).Contents (Elt Ideal))
    (x8 : (⟨S128x64, .f32⟩ : BufTy).Contents (Elt Ideal))
    (x9 x10 x11 x12 x13 : (⟨S64, .f32⟩ : BufTy).Contents (Elt Ideal))
    (x14 : (⟨S128x64, .f32⟩ : BufTy).Contents (Elt Ideal))
    (x15 : (⟨S64, .f32⟩ : BufTy).Contents (Elt Ideal))
    (x16 : (⟨S64x32, .f32⟩ : BufTy).Contents (Elt Ideal)) :
    val_main_v134 (F := Ideal) x0 x1 x2 x3 x4 x5 x6 x7 x8 x9 x10 x11 x12 x13 x14 x15 x16 = matProd (val_main_v129 x0 x1 x2 x3 x4 x5 x6 x7 x8 x9 x10 x11 x12 x13 x14 x15) x16 := by
  unfold val_main_v134
  exact dotGeneral_eq_matProd dot_S50000x64_S64x32_S50000x32_1_0_0_1_n_n rfl rfl rfl rfl rfl rfl none .single _ _

end Cert.ReferenceIdeal.Layers

end
-- ==== Proof.Chain.lean ====
/-
  The kernel program's buffers, boundary by boundary, are the reference's stages of the arguments.

  @main is six kernel regions among stretches of host operations. Walking it once: the first stretch computes the
  edge lists and the degree normalisation; then, three times, a region multiplies the layer's input by its weights,
  a stretch aggregates the products over the edges, and a region normalises, clamps and adds the residual; the last
  stretches are the classifier head and the logarithm of the softmax. At every boundary each buffer still to be read
  is named here by the reference program's stage function of the launch arguments: a product region by the
  product (which is the reference's dot_general), an aggregation stretch by the reference's aggregation of that
  product, a layer region by the layer function (which is the reference's normalisation, clamp and residual, stage by
  stage). Buffers that a segment does not write are carried across it unchanged. The last boundary gives the
  program's result as the reference's result stage of the arguments.
-/
import proofs.«182117_j80625126080954_1_alg».proof.Proof.Gen.KernelIdeal.Frame
import proofs.«182117_j80625126080954_1_alg».proof.Proof.RefStagesP
import proofs.«182117_j80625126080954_1_alg».proof.Proof.Carry
import proofs.«182117_j80625126080954_1_alg».proof.Proof.Projection0
import proofs.«182117_j80625126080954_1_alg».proof.Proof.Projection1
import proofs.«182117_j80625126080954_1_alg».proof.Proof.Projection2
import proofs.«182117_j80625126080954_1_alg».proof.Proof.Layer0
import proofs.«182117_j80625126080954_1_alg».proof.Proof.Layer1
import proofs.«182117_j80625126080954_1_alg».proof.Proof.Layer2
import proofs.«182117_j80625126080954_1_alg».proof.Proof.Degrees
import proofs.«182117_j80625126080954_1_alg».proof.Proof.Aggregate0
import proofs.«182117_j80625126080954_1_alg».proof.Proof.Aggregate1
import proofs.«182117_j80625126080954_1_alg».proof.Proof.Aggregate2
import proofs.«182117_j80625126080954_1_alg».proof.Proof.Head
import proofs.«182117_j80625126080954_1_alg».proof.Proof.RefLayers

set_option maxRecDepth 16384

noncomputable section

namespace Cert.KernelIdeal.Chain

open Cert.KernelIdeal Cert.KernelIdeal.Gen Idealize.ShloMosaic Idealize.ShloMosaic.TcCoe Idealize.SL.Sem
open Idealize.ShloMosaic.ValueIdx
open Cert.ReferenceIdeal.ReadP Cert.Layer Cert.Lib.MatProd

variable (m : (ℓ : Loc nD τ sig) → Buf (Elt Ideal) ℓ) (ρ : Dev nD → PrngReg) (c : Dev nD)

/-- An argument of @main holds its launch contents at every boundary up to the last region's exit. -/
theorem arg_at (r : Ref sig .tc) (h : Carry.Unwritten r) :
    W1 m ρ c (Proc.devRef .tc r) = m ((c : Thread nD τ).loc r)
    ∧ W2 m ρ c (Proc.devRef .tc r) = m ((c : Thread nD τ).loc r)
    ∧ W3 m ρ c (Proc.devRef .tc r) = m ((c : Thread nD τ).loc r)
    ∧ W4 m ρ c (Proc.devRef .tc r) = m ((c : Thread nD τ).loc r)
    ∧ W5 m ρ c (Proc.devRef .tc r) = m ((c : Thread nD τ).loc r)
    ∧ W6 m ρ c (Proc.devRef .tc r) = m ((c : Thread nD τ).loc r)
    ∧ W7 m ρ c (Proc.devRef .tc r) = m ((c : Thread nD τ).loc r)
    ∧ W8 m ρ c (Proc.devRef .tc r) = m ((c : Thread nD τ).loc r)
    ∧ W9 m ρ c (Proc.devRef .tc r) = m ((c : Thread nD τ).loc r)
    ∧ W10 m ρ c (Proc.devRef .tc r) = m ((c : Thread nD τ).loc r) :=
  Carry.unwritten_at m ρ c r h

/-! ## The edge lists and the degree normalisation -/

theorem src1 : W1 m ρ c (Proc.devRef .tc main_v1) = val_main_v1 (m ((c : Thread nD τ).loc main_arg1)) := Degrees.sources (W0 m ρ c) _ rfl
theorem dst1 : W1 m ρ c (Proc.devRef .tc main_v3) = val_main_v3 (m ((c : Thread nD τ).loc main_arg1)) := Degrees.targets (W0 m ρ c) _ rfl
theorem nrm1 : W1 m ρ c (Proc.devRef .tc main_v10) = val_main_v11 (m ((c : Thread nD τ).loc main_arg1)) := Degrees.normalisation (W0 m ρ c) _ rfl

/-- The three are written by the first stretch only: they reach every later boundary unchanged. -/
theorem src2 : W2 m ρ c (Proc.devRef .tc main_v1) = val_main_v1 (m ((c : Thread nD τ).loc main_arg1)) := (Carry.keep_region0 m ρ c main_v1 (by decide)).trans (src1 m ρ c)
theorem dst2 : W2 m ρ c (Proc.devRef .tc main_v3) = val_main_v3 (m ((c : Thread nD τ).loc main_arg1)) := (Carry.keep_region0 m ρ c main_v3 (by decide)).trans (dst1 m ρ c)
theorem nrm2 : W2 m ρ c (Proc.devRef .tc main_v10) = val_main_v11 (m ((c : Thread nD τ).loc main_arg1)) := (Carry.keep_region0 m ρ c main_v10 (by decide)).trans (nrm1 m ρ c)
theorem src5 : W5 m ρ c (Proc.devRef .tc main_v1) = val_main_v1 (m ((c : Thread nD τ).loc main_arg1)) :=
  (Carry.keep_region2 m ρ c main_v1 (by decide)).trans ((Carry.keep_region1 m ρ c main_v1 (by decide)).trans
    ((Carry.keep_hostOps1 m ρ c main_v1 (by decide)).trans (src2 m ρ c)))
theorem src8 : W8 m ρ c (Proc.devRef .tc main_v1) = val_main_v1 (m ((c : Thread nD τ).loc main_arg1)) :=
  (Carry.keep_region4 m ρ c main_v1 (by decide)).trans ((Carry.keep_region3 m ρ c main_v1 (by decide)).trans
    ((Carry.keep_hostOps3 m ρ c main_v1 (by decide)).trans (src5 m ρ c)))
theorem dst5 : W5 m ρ c (Proc.devRef .tc main_v3) = val_main_v3 (m ((c : Thread nD τ).loc main_arg1)) :=
  (Carry.keep_region2 m ρ c main_v3 (by decide)).trans ((Carry.keep_region1 m ρ c main_v3 (by decide)).trans
    ((Carry.keep_hostOps1 m ρ c main_v3 (by decide)).trans (dst2 m ρ c)))
theorem dst8 : W8 m ρ c (Proc.devRef .tc main_v3) = val_main_v3 (m ((c : Thread nD τ).loc main_arg1)) :=
  (Carry.keep_region4 m ρ c main_v3 (by decide)).trans ((Carry.keep_region3 m ρ c main_v3 (by decide)).trans
    ((Carry.keep_hostOps3 m ρ c main_v3 (by decide)).trans (dst5 m ρ c)))
theorem nrm5 : W5 m ρ c (Proc.devRef .tc main_v10) = val_main_v11 (m ((c : Thread nD τ).loc main_arg1)) :=
  (Carry.keep_region2 m ρ c main_v10 (by decide)).trans ((Carry.keep_region1 m ρ c main_v10 (by decide)).trans
    ((Carry.keep_hostOps1 m ρ c main_v10 (by decide)).trans (nrm2 m ρ c)))
theorem nrm8 : W8 m ρ c (Proc.devRef .tc main_v10) = val_main_v11 (m ((c : Thread nD τ).loc main_arg1)) :=
  (Carry.keep_region4 m ρ c main_v10 (by decide)).trans ((Carry.keep_region3 m ρ c main_v10 (by decide)).trans
    ((Carry.keep_hostOps3 m ρ c main_v10 (by decide)).trans (nrm5 m ρ c)))

/-! ## Layer 0 -/

/-- Region 0 leaves the projection of the input features. -/
theorem proj0 : W2 m ρ c (Proc.devRef .tc main_v11) = val_main_v4 (m ((c : Thread nD τ).loc main_arg0)) (m ((c : Thread nD τ).loc main_arg2)) := by
  have e0 : V1 m ρ c main_arg0 = (m ((c : Thread nD τ).loc main_arg0)) := (arg_at m ρ c main_arg0 (by decide)).1
  have e2 : V1 m ρ c main_arg2 = (m ((c : Thread nD τ).loc main_arg2)) := (arg_at m ρ c main_arg2 (by decide)).1
  refine (W2_arr m ρ c 2).trans ((Projection0.final (V1 m ρ) c).trans ?_)
  rw [e0, e2]
  exact (Cert.ReferenceIdeal.Layers.proj0_eq _ _).symm

/-- The stretch after it leaves the aggregated array. -/
theorem agg0 : W3 m ρ c (Proc.devRef .tc main_v44) = val_main_v44 (m ((c : Thread nD τ).loc main_arg0)) (m ((c : Thread nD τ).loc main_arg1)) (m ((c : Thread nD τ).loc main_arg2)) :=
  Aggregate0.aggregated (W2 m ρ c) _ _ _ (proj0 m ρ c) (nrm2 m ρ c) (src2 m ρ c) (dst2 m ρ c)

/-- Region 1 leaves the layer's output. -/
theorem out0 : W4 m ρ c (Proc.devRef .tc main_v50) = val_main_v64 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  have ex : V3 m ρ c main_arg0 = (m ((c : Thread nD τ).loc main_arg0)) := (arg_at m ρ c main_arg0 (by decide)).2.2.1
  have ec : V3 m ρ c main_v44 = val_main_v44 (m ((c : Thread nD τ).loc main_arg0)) (m ((c : Thread nD τ).loc main_arg1)) (m ((c : Thread nD τ).loc main_arg2)) := agg0 m ρ c
  refine (W4_arr m ρ c 7).trans ((Layer0.final (V3 m ρ) c (m ((c : Thread nD τ).loc main_arg3)) (m ((c : Thread nD τ).loc main_arg6)) (m ((c : Thread nD τ).loc main_arg7)) (m ((c : Thread nD τ).loc main_arg4)) (m ((c : Thread nD τ).loc main_arg5))
    (fun q => (Aggregate0.row_bias (W2 m ρ c) q).trans (congrFun ((arg_at m ρ c main_arg3 (by decide)).2.1) (ix1 q)))
    (fun q => (Aggregate0.row_scale (W2 m ρ c) q).trans (congrFun ((arg_at m ρ c main_arg4 (by decide)).2.1) (ix1 q)))
    (fun q => (Aggregate0.row_shift (W2 m ρ c) q).trans (congrFun ((arg_at m ρ c main_arg5 (by decide)).2.1) (ix1 q)))
    (fun q => (Aggregate0.row_mean (W2 m ρ c) q).trans (congrFun ((arg_at m ρ c main_arg6 (by decide)).2.1) (ix1 q)))
    (fun q => (Aggregate0.row_variance (W2 m ρ c) q).trans (congrFun ((arg_at m ρ c main_arg7 (by decide)).2.1) (ix1 q)))).trans ?_)
  rw [ex, ec]
  exact (Cert.ReferenceIdeal.Layers.layer0_eq (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))).symm

/-! ## Layer 1 -/

/-- Region 2 leaves the projection of layer 0's output. -/
theorem proj1 : W5 m ρ c (Proc.devRef .tc main_v51) = val_main_v69 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  have ex : V4 m ρ c main_v50 = val_main_v64 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := out0 m ρ c
  have ew : V4 m ρ c main_arg8 = (m ((c : Thread nD τ).loc main_arg8)) := (arg_at m ρ c main_arg8 (by decide)).2.2.2.1
  refine (W5_arr m ρ c 2).trans ((Projection1.final (V4 m ρ) c).trans ?_)
  rw [ex, ew]
  exact (Cert.ReferenceIdeal.Layers.proj1_eq (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))).symm

/-- Layer 0's output is still there for the skip connection. -/
theorem out0_5 : W5 m ρ c (Proc.devRef .tc main_v50) = val_main_v64 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) :=
  (Carry.keep_region2 m ρ c main_v50 (by decide)).trans (out0 m ρ c)
theorem out0_6 : W6 m ρ c (Proc.devRef .tc main_v50) = val_main_v64 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) :=
  (Carry.keep_hostOps3 m ρ c main_v50 (by decide)).trans (out0_5 m ρ c)

theorem agg1 : W6 m ρ c (Proc.devRef .tc main_v84) = val_main_v109 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) :=
  Aggregate1.aggregated (W5 m ρ c) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (proj1 m ρ c)
    ((nrm5 m ρ c).trans (Degrees.normalisation_again _).symm) (src5 m ρ c) (dst5 m ρ c)

/-- Region 3 leaves the layer's output. -/
theorem out1 : W7 m ρ c (Proc.devRef .tc main_v91) = val_main_v129 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) := by
  have ex : V6 m ρ c main_v50 = val_main_v64 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := out0_6 m ρ c
  have ec : V6 m ρ c main_v84 = val_main_v109 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := agg1 m ρ c
  have eS : V6 m ρ c main_arg14 = (m ((c : Thread nD τ).loc main_arg14)) := (arg_at m ρ c main_arg14 (by decide)).2.2.2.2.2.1
  refine (W7_arr m ρ c 9).trans ((Layer1.final (V6 m ρ) c (m ((c : Thread nD τ).loc main_arg9)) (m ((c : Thread nD τ).loc main_arg12)) (m ((c : Thread nD τ).loc main_arg13)) (m ((c : Thread nD τ).loc main_arg10)) (m ((c : Thread nD τ).loc main_arg11)) (m ((c : Thread nD τ).loc main_arg15))
    (fun q => (Aggregate1.row_bias (W5 m ρ c) q).trans (congrFun ((arg_at m ρ c main_arg9 (by decide)).2.2.2.2.1) (ix1 q)))
    (fun q => (Aggregate1.row_scale (W5 m ρ c) q).trans (congrFun ((arg_at m ρ c main_arg10 (by decide)).2.2.2.2.1) (ix1 q)))
    (fun q => (Aggregate1.row_shift (W5 m ρ c) q).trans (congrFun ((arg_at m ρ c main_arg11 (by decide)).2.2.2.2.1) (ix1 q)))
    (fun q => (Aggregate1.row_mean (W5 m ρ c) q).trans (congrFun ((arg_at m ρ c main_arg12 (by decide)).2.2.2.2.1) (ix1 q)))
    (fun q => (Aggregate1.row_variance (W5 m ρ c) q).trans (congrFun ((arg_at m ρ c main_arg13 (by decide)).2.2.2.2.1) (ix1 q)))
    (fun q => (Aggregate1.row_skip (W5 m ρ c) q).trans (congrFun ((arg_at m ρ c main_arg15 (by decide)).2.2.2.2.1) (ix1 q)))).trans ?_)
  rw [ex, ec, eS]
  exact (Cert.ReferenceIdeal.Layers.layer1_eq (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15))).symm

/-! ## Layer 2 -/

/-- Region 4 leaves the projection of layer 1's output. -/
theorem proj2 : W8 m ρ c (Proc.devRef .tc main_v92) = val_main_v134 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) := by
  have ex : V7 m ρ c main_v91 = val_main_v129 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) := out1 m ρ c
  have ew : V7 m ρ c main_arg16 = (m ((c : Thread nD τ).loc main_arg16)) := (arg_at m ρ c main_arg16 (by decide)).2.2.2.2.2.2.1
  refine (W8_arr m ρ c 2).trans ((Projection2.final (V7 m ρ) c).trans ?_)
  rw [ex, ew]
  exact (Cert.ReferenceIdeal.Layers.proj2_eq (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16))).symm

theorem out1_8 : W8 m ρ c (Proc.devRef .tc main_v91) = val_main_v129 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) :=
  (Carry.keep_region4 m ρ c main_v91 (by decide)).trans (out1 m ρ c)
theorem out1_9 : W9 m ρ c (Proc.devRef .tc main_v91) = val_main_v129 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) :=
  (Carry.keep_hostOps5 m ρ c main_v91 (by decide)).trans (out1_8 m ρ c)

theorem agg2 : W9 m ρ c (Proc.devRef .tc main_v125) = val_main_v174 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) :=
  Aggregate2.aggregated (W8 m ρ c) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (proj2 m ρ c)
    ((nrm8 m ρ c).trans (Degrees.normalisation_third _).symm) (src8 m ρ c) (dst8 m ρ c)

/-- Region 5 leaves the layer's output. -/
theorem out2 : W10 m ρ c (Proc.devRef .tc main_v132) = val_main_v194 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) := by
  have ex : V9 m ρ c main_v91 = val_main_v129 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) := out1_9 m ρ c
  have ec : V9 m ρ c main_v125 = val_main_v174 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) := agg2 m ρ c
  have eS : V9 m ρ c main_arg22 = (m ((c : Thread nD τ).loc main_arg22)) := (arg_at m ρ c main_arg22 (by decide)).2.2.2.2.2.2.2.2.1
  refine (W10_arr m ρ c 9).trans ((Layer2.final (V9 m ρ) c (m ((c : Thread nD τ).loc main_arg17)) (m ((c : Thread nD τ).loc main_arg20)) (m ((c : Thread nD τ).loc main_arg21)) (m ((c : Thread nD τ).loc main_arg18)) (m ((c : Thread nD τ).loc main_arg19)) (m ((c : Thread nD τ).loc main_arg23))
    (fun q => (Aggregate2.row_bias (W8 m ρ c) q).trans (congrFun ((arg_at m ρ c main_arg17 (by decide)).2.2.2.2.2.2.2.1) (ix1 q)))
    (fun q => (Aggregate2.row_scale (W8 m ρ c) q).trans (congrFun ((arg_at m ρ c main_arg18 (by decide)).2.2.2.2.2.2.2.1) (ix1 q)))
    (fun q => (Aggregate2.row_shift (W8 m ρ c) q).trans (congrFun ((arg_at m ρ c main_arg19 (by decide)).2.2.2.2.2.2.2.1) (ix1 q)))
    (fun q => (Aggregate2.row_mean (W8 m ρ c) q).trans (congrFun ((arg_at m ρ c main_arg20 (by decide)).2.2.2.2.2.2.2.1) (ix1 q)))
    (fun q => (Aggregate2.row_variance (W8 m ρ c) q).trans (congrFun ((arg_at m ρ c main_arg21 (by decide)).2.2.2.2.2.2.2.1) (ix1 q)))
    (fun q => (Aggregate2.row_skip (W8 m ρ c) q).trans (congrFun ((arg_at m ρ c main_arg23 (by decide)).2.2.2.2.2.2.2.1) (ix1 q)))).trans ?_)
  rw [ex, ec, eS]
  exact (Cert.ReferenceIdeal.Layers.layer2_eq (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23))).symm

/-! ## The classifier head -/

/-- The program's result is the reference's result stage of the arguments. -/
theorem result : W14 m ρ c (Proc.devRef .tc main_v142) = val_main_v204 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) (m ((c : Thread nD τ).loc main_arg25)) (m ((c : Thread nD τ).loc main_arg26)) (m ((c : Thread nD τ).loc main_arg27)) :=
  Head.result (W10 m ρ c) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) (m ((c : Thread nD τ).loc main_arg25)) (m ((c : Thread nD τ).loc main_arg26)) (m ((c : Thread nD τ).loc main_arg27)) (out2 m ρ c)
    ((arg_at m ρ c main_arg24 (by decide)).2.2.2.2.2.2.2.2.2) ((arg_at m ρ c main_arg25 (by decide)).2.2.2.2.2.2.2.2.2) ((arg_at m ρ c main_arg26 (by decide)).2.2.2.2.2.2.2.2.2) ((arg_at m ρ c main_arg27 (by decide)).2.2.2.2.2.2.2.2.2)

end Cert.KernelIdeal.Chain

end
-- ==== Proof.RefRead.lean ====
/-
  The reference program read stretch by stretch.

  The reference's @main is a straight line of 260 host operations; after a run each buffer holds the fold of the
  operations' results over the launch contents. Read in one piece that fold is an enormous term (the degree
  normalisation is recomputed before every layer, and every consumer repeats its operand's term), so it is read here as
  the program is written: twelve consecutive stretches — the edge lists, degrees and first projection; a layer's
  aggregation; its normalisation and residual; the next layer's two products; … ; the classifier head —, each
  stretch's few results named by the stage functions of the arguments, given that the buffers the stretch reads hold
  theirs. A buffer a stretch does not write keeps its contents, which carries a stage from the stretch that
  computes it to the stretches that read it, and the arguments to the end.
-/
import proofs.«182117_j80625126080954_1_alg».proof.Proof.RefOpsP
import proofs.«182117_j80625126080954_1_alg».proof.Proof.RefStagesP
import Idealize.ShloMosaic.Lib.StableHlo.Run
import proofs.«182117_j80625126080954_1_alg».proof.Proof.LibTypedRefs

set_option maxRecDepth 16384

noncomputable section

namespace Cert.ReferenceIdeal.Stretches

open Cert.ReferenceIdeal Cert.ReferenceIdeal.Gen Cert.ReferenceIdeal.ValueP Cert.ReferenceIdeal.ReadP
open Idealize.ShloMosaic Idealize.ShloMosaic.TcCoe Idealize.SL.Sem Idealize.ShloMosaic.StableHlo

/-- Two lines of operations one after the other: the second from what the first leaves. -/
theorem after_append {Val : EltTy → Type} (l₁ l₂ : List (HloOp τ sig Val)) (V : Valuation τ sig Val) :
    after (l₁ ++ l₂) V = after l₂ (after l₁ V) := by
  induction l₁ generalizing V with
  | nil => rfl
  | cons op l ih => simp only [List.cons_append, after_cons, ih]

/-! ## What each stretch writes, and what it leaves alone -/

/-- One operation's written reference is in the stretch's list. -/
local macro "written_here" : tactic =>
  `(tactic| (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)))

section Stretch
variable (W : Valuation τ sig (Elt Ideal))

/-- The references stretch 0's operations write. -/
abbrev ops0_W : List (Ref sig .tc) := [main_v0, main_v1, main_v2, main_v3, main_v4, main_cst, main_v5, main_cst_0, main_v6, main_v7, main_v8, main_cst_1, main_v9, main_v10, main_v11]
theorem ops0_writes : (ops0 : List (HloOp τ sig (Elt Ideal))).Forall fun op => op.writes ⊆ (ops0_W.map (Proc.devRef (τ := τ) .tc)).toFinset := by
  simp only [List.Forall]
  repeat' apply And.intro
  all_goals written_here
/-- A reference they do not write keeps its contents across the stretch. -/
theorem keep0 (r : Ref sig .tc) (h : r ∉ (ops0_W : List (Ref sig .tc))) : after ops0 W (Proc.devRef .tc r) = W (Proc.devRef .tc r) :=
  after_of_writes_sub ops0 W ops0_writes h

/-- The references stretch 1's operations write. -/
abbrev ops1_W : List (Ref sig .tc) := [main_c, main_v12, main_v13, main_c_2, main_v14, main_v15, main_v16, main_v17, main_v18, main_c_3, main_v19, main_v20, main_c_4, main_v21, main_v22, main_v23, main_v24, main_v25, main_v26, main_c_5, main_v27, main_v28, main_c_6, main_v29, main_v30, main_v31, main_v32, main_v33, main_v34, main_v35, main_v36, main_cst_7, main_v37, main_v38, main_v39, main_v40, main_v41, main_v42, main_v43, main_v44]
theorem ops1_writes : (ops1 : List (HloOp τ sig (Elt Ideal))).Forall fun op => op.writes ⊆ (ops1_W.map (Proc.devRef (τ := τ) .tc)).toFinset := by
  simp only [List.Forall]
  repeat' apply And.intro
  all_goals written_here
/-- A reference they do not write keeps its contents across the stretch. -/
theorem keep1 (r : Ref sig .tc) (h : r ∉ (ops1_W : List (Ref sig .tc))) : after ops1 W (Proc.devRef .tc r) = W (Proc.devRef .tc r) :=
  after_of_writes_sub ops1 W ops1_writes h

/-- The references stretch 2's operations write. -/
abbrev ops2_W : List (Ref sig .tc) := [main_v45, main_v46, main_v47, main_v48, main_v49, main_v50, main_cst_8, main_v51, main_v52, main_v53, main_v54, main_v55, main_v56, main_v57, main_v58, main_v59, main_v60, main_v61, main_v62, main_call0_cst, main_call0_v0, main_v63, main_v64]
theorem ops2_writes : (ops2 : List (HloOp τ sig (Elt Ideal))).Forall fun op => op.writes ⊆ (ops2_W.map (Proc.devRef (τ := τ) .tc)).toFinset := by
  simp only [List.Forall]
  repeat' apply And.intro
  all_goals written_here
/-- A reference they do not write keeps its contents across the stretch. -/
theorem keep2 (r : Ref sig .tc) (h : r ∉ (ops2_W : List (Ref sig .tc))) : after ops2 W (Proc.devRef .tc r) = W (Proc.devRef .tc r) :=
  after_of_writes_sub ops2 W ops2_writes h

/-- The references stretch 3's operations write. -/
abbrev ops3_W : List (Ref sig .tc) := [main_v65, main_v66, main_v67, main_v68, main_v69]
theorem ops3_writes : (ops3 : List (HloOp τ sig (Elt Ideal))).Forall fun op => op.writes ⊆ (ops3_W.map (Proc.devRef (τ := τ) .tc)).toFinset := by
  simp only [List.Forall]
  repeat' apply And.intro
  all_goals written_here
/-- A reference they do not write keeps its contents across the stretch. -/
theorem keep3 (r : Ref sig .tc) (h : r ∉ (ops3_W : List (Ref sig .tc))) : after ops3 W (Proc.devRef .tc r) = W (Proc.devRef .tc r) :=
  after_of_writes_sub ops3 W ops3_writes h

/-- The references stretch 4's operations write. -/
abbrev ops4_W : List (Ref sig .tc) := [main_cst_9, main_v70, main_cst_10, main_v71, main_v72, main_v73, main_cst_11, main_v74, main_v75, main_v76]
theorem ops4_writes : (ops4 : List (HloOp τ sig (Elt Ideal))).Forall fun op => op.writes ⊆ (ops4_W.map (Proc.devRef (τ := τ) .tc)).toFinset := by
  simp only [List.Forall]
  repeat' apply And.intro
  all_goals written_here
/-- A reference they do not write keeps its contents across the stretch. -/
theorem keep4 (r : Ref sig .tc) (h : r ∉ (ops4_W : List (Ref sig .tc))) : after ops4 W (Proc.devRef .tc r) = W (Proc.devRef .tc r) :=
  after_of_writes_sub ops4 W ops4_writes h

/-- The references stretch 5's operations write. -/
abbrev ops5_W : List (Ref sig .tc) := [main_c_12, main_v77, main_v78, main_c_13, main_v79, main_v80, main_v81, main_v82, main_v83, main_c_14, main_v84, main_v85, main_c_15, main_v86, main_v87, main_v88, main_v89, main_v90, main_v91, main_c_16, main_v92, main_v93, main_c_17, main_v94, main_v95, main_v96, main_v97, main_v98, main_v99, main_v100, main_v101, main_cst_18, main_v102, main_v103, main_v104, main_v105, main_v106, main_v107, main_v108, main_v109]
theorem ops5_writes : (ops5 : List (HloOp τ sig (Elt Ideal))).Forall fun op => op.writes ⊆ (ops5_W.map (Proc.devRef (τ := τ) .tc)).toFinset := by
  simp only [List.Forall]
  repeat' apply And.intro
  all_goals written_here
/-- A reference they do not write keeps its contents across the stretch. -/
theorem keep5 (r : Ref sig .tc) (h : r ∉ (ops5_W : List (Ref sig .tc))) : after ops5 W (Proc.devRef .tc r) = W (Proc.devRef .tc r) :=
  after_of_writes_sub ops5 W ops5_writes h

/-- The references stretch 6's operations write. -/
abbrev ops6_W : List (Ref sig .tc) := [main_v110, main_v111, main_v112, main_v113, main_v114, main_v115, main_cst_19, main_v116, main_v117, main_v118, main_v119, main_v120, main_v121, main_v122, main_v123, main_v124, main_v125, main_v126, main_v127, main_call1_cst, main_call1_v0, main_v128, main_v129]
theorem ops6_writes : (ops6 : List (HloOp τ sig (Elt Ideal))).Forall fun op => op.writes ⊆ (ops6_W.map (Proc.devRef (τ := τ) .tc)).toFinset := by
  simp only [List.Forall]
  repeat' apply And.intro
  all_goals written_here
/-- A reference they do not write keeps its contents across the stretch. -/
theorem keep6 (r : Ref sig .tc) (h : r ∉ (ops6_W : List (Ref sig .tc))) : after ops6 W (Proc.devRef .tc r) = W (Proc.devRef .tc r) :=
  after_of_writes_sub ops6 W ops6_writes h

/-- The references stretch 7's operations write. -/
abbrev ops7_W : List (Ref sig .tc) := [main_v130, main_v131, main_v132, main_v133, main_v134]
theorem ops7_writes : (ops7 : List (HloOp τ sig (Elt Ideal))).Forall fun op => op.writes ⊆ (ops7_W.map (Proc.devRef (τ := τ) .tc)).toFinset := by
  simp only [List.Forall]
  repeat' apply And.intro
  all_goals written_here
/-- A reference they do not write keeps its contents across the stretch. -/
theorem keep7 (r : Ref sig .tc) (h : r ∉ (ops7_W : List (Ref sig .tc))) : after ops7 W (Proc.devRef .tc r) = W (Proc.devRef .tc r) :=
  after_of_writes_sub ops7 W ops7_writes h

/-- The references stretch 8's operations write. -/
abbrev ops8_W : List (Ref sig .tc) := [main_cst_20, main_v135, main_cst_21, main_v136, main_v137, main_v138, main_cst_22, main_v139, main_v140, main_v141]
theorem ops8_writes : (ops8 : List (HloOp τ sig (Elt Ideal))).Forall fun op => op.writes ⊆ (ops8_W.map (Proc.devRef (τ := τ) .tc)).toFinset := by
  simp only [List.Forall]
  repeat' apply And.intro
  all_goals written_here
/-- A reference they do not write keeps its contents across the stretch. -/
theorem keep8 (r : Ref sig .tc) (h : r ∉ (ops8_W : List (Ref sig .tc))) : after ops8 W (Proc.devRef .tc r) = W (Proc.devRef .tc r) :=
  after_of_writes_sub ops8 W ops8_writes h

/-- The references stretch 9's operations write. -/
abbrev ops9_W : List (Ref sig .tc) := [main_c_23, main_v142, main_v143, main_c_24, main_v144, main_v145, main_v146, main_v147, main_v148, main_c_25, main_v149, main_v150, main_c_26, main_v151, main_v152, main_v153, main_v154, main_v155, main_v156, main_c_27, main_v157, main_v158, main_c_28, main_v159, main_v160, main_v161, main_v162, main_v163, main_v164, main_v165, main_v166, main_cst_29, main_v167, main_v168, main_v169, main_v170, main_v171, main_v172, main_v173, main_v174]
theorem ops9_writes : (ops9 : List (HloOp τ sig (Elt Ideal))).Forall fun op => op.writes ⊆ (ops9_W.map (Proc.devRef (τ := τ) .tc)).toFinset := by
  simp only [List.Forall]
  repeat' apply And.intro
  all_goals written_here
/-- A reference they do not write keeps its contents across the stretch. -/
theorem keep9 (r : Ref sig .tc) (h : r ∉ (ops9_W : List (Ref sig .tc))) : after ops9 W (Proc.devRef .tc r) = W (Proc.devRef .tc r) :=
  after_of_writes_sub ops9 W ops9_writes h

/-- The references stretch 10's operations write. -/
abbrev ops10_W : List (Ref sig .tc) := [main_v175, main_v176, main_v177, main_v178, main_v179, main_v180, main_cst_30, main_v181, main_v182, main_v183, main_v184, main_v185, main_v186, main_v187, main_v188, main_v189, main_v190, main_v191, main_v192, main_call2_cst, main_call2_v0, main_v193, main_v194]
theorem ops10_writes : (ops10 : List (HloOp τ sig (Elt Ideal))).Forall fun op => op.writes ⊆ (ops10_W.map (Proc.devRef (τ := τ) .tc)).toFinset := by
  simp only [List.Forall]
  repeat' apply And.intro
  all_goals written_here
/-- A reference they do not write keeps its contents across the stretch. -/
theorem keep10 (r : Ref sig .tc) (h : r ∉ (ops10_W : List (Ref sig .tc))) : after ops10 W (Proc.devRef .tc r) = W (Proc.devRef .tc r) :=
  after_of_writes_sub ops10 W ops10_writes h

/-- The references stretch 11's operations write. -/
abbrev ops11_W : List (Ref sig .tc) := [main_v195, main_v196, main_v197, main_v198, main_call3_cst, main_call3_v0, main_v199, main_v200, main_v201, main_v202, main_v203, main_call4_cst, main_call4_v0, main_call4_cst_0, main_call4_v1, main_call4_v2, main_call4_v3, main_call4_v4, main_call4_v5, main_call4_v6, main_call4_cst_1, main_call4_v7, main_call4_v8, main_call4_v9, main_call4_v10, main_v204]
theorem ops11_writes : (ops11 : List (HloOp τ sig (Elt Ideal))).Forall fun op => op.writes ⊆ (ops11_W.map (Proc.devRef (τ := τ) .tc)).toFinset := by
  simp only [List.Forall]
  repeat' apply And.intro
  all_goals written_here
/-- A reference they do not write keeps its contents across the stretch. -/
theorem keep11 (r : Ref sig .tc) (h : r ∉ (ops11_W : List (Ref sig .tc))) : after ops11 W (Proc.devRef .tc r) = W (Proc.devRef .tc r) :=
  after_of_writes_sub ops11 W ops11_writes h

/-! ## What each stretch computes -/

set_option maxHeartbeats 8000000 in
/-- Stretch 0 leaves `main_v1` at its stage, when the buffers it reads hold theirs. -/
theorem at_v1 (x1 : (⟨S2x800000, .i32⟩ : BufTy).Contents (Elt Ideal))
    (h0 : W (Proc.devRef .tc main_arg1) = x1) :
    after ops0 W (Proc.devRef .tc main_v1) = val_main_v1 x1 := by
  after_results_simp
  try simp only [Cert.Lib.TypedRefs.ofBuf_toBuf]
  try simp only [StableHlo.TRef.ofBuf, StableHlo.TRef.toBuf, cast_eq]
  rw [h0]
  rfl

set_option maxHeartbeats 8000000 in
/-- Stretch 0 leaves `main_v3` at its stage, when the buffers it reads hold theirs. -/
theorem at_v3 (x1 : (⟨S2x800000, .i32⟩ : BufTy).Contents (Elt Ideal))
    (h0 : W (Proc.devRef .tc main_arg1) = x1) :
    after ops0 W (Proc.devRef .tc main_v3) = val_main_v3 x1 := by
  after_results_simp
  try simp only [Cert.Lib.TypedRefs.ofBuf_toBuf]
  try simp only [StableHlo.TRef.ofBuf, StableHlo.TRef.toBuf, cast_eq]
  rw [h0]
  rfl

set_option maxHeartbeats 8000000 in
/-- Stretch 0 leaves `main_v4` at its stage, when the buffers it reads hold theirs. -/
theorem at_v4 (x0 : (⟨S50000x128, .f32⟩ : BufTy).Contents (Elt Ideal))
    (x2 : (⟨S128x128, .f32⟩ : BufTy).Contents (Elt Ideal))
    (h0 : W (Proc.devRef .tc main_arg0) = x0)
    (h1 : W (Proc.devRef .tc main_arg2) = x2) :
    after ops0 W (Proc.devRef .tc main_v4) = val_main_v4 x0 x2 := by
  after_results_simp
  try simp only [Cert.Lib.TypedRefs.ofBuf_toBuf]
  try simp only [StableHlo.TRef.ofBuf, StableHlo.TRef.toBuf, cast_eq]
  rw [h0, h1]
  rfl

set_option maxHeartbeats 8000000 in
/-- Stretch 0 leaves `main_v11` at its stage, when the buffers it reads hold theirs. -/
theorem at_v11 (x1 : (⟨S2x800000, .i32⟩ : BufTy).Contents (Elt Ideal))
    (h0 : W (Proc.devRef .tc main_arg1) = x1) :
    after ops0 W (Proc.devRef .tc main_v11) = val_main_v11 x1 := by
  after_results_simp
  try simp only [Cert.Lib.TypedRefs.ofBuf_toBuf]
  try simp only [StableHlo.TRef.ofBuf, StableHlo.TRef.toBuf, cast_eq]
  rw [h0]
  rfl

set_option maxHeartbeats 8000000 in
/-- Stretch 1 leaves `main_v44` at its stage, when the buffers it reads hold theirs. -/
theorem at_v44 (x0 : (⟨S50000x128, .f32⟩ : BufTy).Contents (Elt Ideal))
    (x1 : (⟨S2x800000, .i32⟩ : BufTy).Contents (Elt Ideal))
    (x2 : (⟨S128x128, .f32⟩ : BufTy).Contents (Elt Ideal))
    (h0 : W (Proc.devRef .tc main_v3) = val_main_v3 x1)
    (h1 : W (Proc.devRef .tc main_v4) = val_main_v4 x0 x2)
    (h2 : W (Proc.devRef .tc main_v1) = val_main_v1 x1)
    (h3 : W (Proc.devRef .tc main_v11) = val_main_v11 x1) :
    after ops1 W (Proc.devRef .tc main_v44) = val_main_v44 x0 x1 x2 := by
  after_results_simp
  try simp only [Cert.Lib.TypedRefs.ofBuf_toBuf]
  try simp only [StableHlo.TRef.ofBuf, StableHlo.TRef.toBuf, cast_eq]
  rw [h0, h1, h2, h3]
  rfl

set_option maxHeartbeats 8000000 in
/-- Stretch 2 leaves `main_v64` at its stage, when the buffers it reads hold theirs. -/
theorem at_v64 (x0 : (⟨S50000x128, .f32⟩ : BufTy).Contents (Elt Ideal))
    (x1 : (⟨S2x800000, .i32⟩ : BufTy).Contents (Elt Ideal))
    (x2 : (⟨S128x128, .f32⟩ : BufTy).Contents (Elt Ideal))
    (x3 x4 x5 x6 x7 : (⟨S128, .f32⟩ : BufTy).Contents (Elt Ideal))
    (h0 : W (Proc.devRef .tc main_v44) = val_main_v44 x0 x1 x2)
    (h1 : W (Proc.devRef .tc main_arg3) = x3)
    (h2 : W (Proc.devRef .tc main_arg6) = x6)
    (h3 : W (Proc.devRef .tc main_arg7) = x7)
    (h4 : W (Proc.devRef .tc main_arg4) = x4)
    (h5 : W (Proc.devRef .tc main_arg5) = x5)
    (h6 : W (Proc.devRef .tc main_arg0) = x0) :
    after ops2 W (Proc.devRef .tc main_v64) = val_main_v64 x0 x1 x2 x3 x4 x5 x6 x7 := by
  after_results_simp
  try simp only [Cert.Lib.TypedRefs.ofBuf_toBuf]
  try simp only [StableHlo.TRef.ofBuf, StableHlo.TRef.toBuf, cast_eq]
  rw [h0, h1, h2, h3, h4, h5, h6]
  rfl

set_option maxHeartbeats 8000000 in
/-- Stretch 3 leaves `main_v68` at its stage, when the buffers it reads hold theirs. -/
theorem at_v68 (x0 : (⟨S50000x128, .f32⟩ : BufTy).Contents (Elt Ideal))
    (x1 : (⟨S2x800000, .i32⟩ : BufTy).Contents (Elt Ideal))
    (x2 : (⟨S128x128, .f32⟩ : BufTy).Contents (Elt Ideal))
    (x3 x4 x5 x6 x7 : (⟨S128, .f32⟩ : BufTy).Contents (Elt Ideal))
    (x14 : (⟨S128x64, .f32⟩ : BufTy).Contents (Elt Ideal))
    (x15 : (⟨S64, .f32⟩ : BufTy).Contents (Elt Ideal))
    (h0 : W (Proc.devRef .tc main_v64) = val_main_v64 x0 x1 x2 x3 x4 x5 x6 x7)
    (h1 : W (Proc.devRef .tc main_arg14) = x14)
    (h2 : W (Proc.devRef .tc main_arg15) = x15) :
    after ops3 W (Proc.devRef .tc main_v68) = val_main_v68 x0 x1 x2 x3 x4 x5 x6 x7 x14 x15 := by
  after_results_simp
  try simp only [Cert.Lib.TypedRefs.ofBuf_toBuf]
  try simp only [StableHlo.TRef.ofBuf, StableHlo.TRef.toBuf, cast_eq]
  rw [h0, h1, h2]
  rfl

set_option maxHeartbeats 8000000 in
/-- Stretch 3 leaves `main_v69` at its stage, when the buffers it reads hold theirs. -/
theorem at_v69 (x0 : (⟨S50000x128, .f32⟩ : BufTy).Contents (Elt Ideal))
    (x1 : (⟨S2x800000, .i32⟩ : BufTy).Contents (Elt Ideal))
    (x2 : (⟨S128x128, .f32⟩ : BufTy).Contents (Elt Ideal))
    (x3 x4 x5 x6 x7 : (⟨S128, .f32⟩ : BufTy).Contents (Elt Ideal))
    (x8 : (⟨S128x64, .f32⟩ : BufTy).Contents (Elt Ideal))
    (h0 : W (Proc.devRef .tc main_v64) = val_main_v64 x0 x1 x2 x3 x4 x5 x6 x7)
    (h1 : W (Proc.devRef .tc main_arg8) = x8) :
    after ops3 W (Proc.devRef .tc main_v69) = val_main_v69 x0 x1 x2 x3 x4 x5 x6 x7 x8 := by
  after_results_simp
  try simp only [Cert.Lib.TypedRefs.ofBuf_toBuf]
  try simp only [StableHlo.TRef.ofBuf, StableHlo.TRef.toBuf, cast_eq]
  rw [h0, h1]
  rfl

set_option maxHeartbeats 8000000 in
/-- Stretch 4 leaves `main_v76` at its stage, when the buffers it reads hold theirs. -/
theorem at_v76 (x1 : (⟨S2x800000, .i32⟩ : BufTy).Contents (Elt Ideal))
    (h0 : W (Proc.devRef .tc main_v3) = val_main_v3 x1) :
    after ops4 W (Proc.devRef .tc main_v76) = val_main_v76 x1 := by
  after_results_simp
  try simp only [Cert.Lib.TypedRefs.ofBuf_toBuf]
  try simp only [StableHlo.TRef.ofBuf, StableHlo.TRef.toBuf, cast_eq]
  rw [h0]
  rfl

set_option maxHeartbeats 8000000 in
/-- Stretch 5 leaves `main_v109` at its stage, when the buffers it reads hold theirs. -/
theorem at_v109 (x0 : (⟨S50000x128, .f32⟩ : BufTy).Contents (Elt Ideal))
    (x1 : (⟨S2x800000, .i32⟩ : BufTy).Contents (Elt Ideal))
    (x2 : (⟨S128x128, .f32⟩ : BufTy).Contents (Elt Ideal))
    (x3 x4 x5 x6 x7 : (⟨S128, .f32⟩ : BufTy).Contents (Elt Ideal))
    (x8 : (⟨S128x64, .f32⟩ : BufTy).Contents (Elt Ideal))
    (h0 : W (Proc.devRef .tc main_v3) = val_main_v3 x1)
    (h1 : W (Proc.devRef .tc main_v69) = val_main_v69 x0 x1 x2 x3 x4 x5 x6 x7 x8)
    (h2 : W (Proc.devRef .tc main_v1) = val_main_v1 x1)
    (h3 : W (Proc.devRef .tc main_v76) = val_main_v76 x1) :
    after ops5 W (Proc.devRef .tc main_v109) = val_main_v109 x0 x1 x2 x3 x4 x5 x6 x7 x8 := by
  after_results_simp
  try simp only [Cert.Lib.TypedRefs.ofBuf_toBuf]
  try simp only [StableHlo.TRef.ofBuf, StableHlo.TRef.toBuf, cast_eq]
  rw [h0, h1, h2, h3]
  rfl

set_option maxHeartbeats 8000000 in
/-- Stretch 6 leaves `main_v129` at its stage, when the buffers it reads hold theirs. -/
theorem at_v129 (x0 : (⟨S50000x128, .f32⟩ : BufTy).Contents (Elt Ideal))
    (x1 : (⟨S2x800000, .i32⟩ : BufTy).Contents (Elt Ideal))
    (x2 : (⟨S128x128, .f32⟩ : BufTy).Contents (Elt Ideal))
    (x3 x4 x5 x6 x7 : (⟨S128, .f32⟩ : BufTy).Contents (Elt Ideal))
    (x8 : (⟨S128x64, .f32⟩ : BufTy).Contents (Elt Ideal))
    (x9 x10 x11 x12 x13 : (⟨S64, .f32⟩ : BufTy).Contents (Elt Ideal))
    (x14 : (⟨S128x64, .f32⟩ : BufTy).Contents (Elt Ideal))
    (x15 : (⟨S64, .f32⟩ : BufTy).Contents (Elt Ideal))
    (h0 : W (Proc.devRef .tc main_v109) = val_main_v109 x0 x1 x2 x3 x4 x5 x6 x7 x8)
    (h1 : W (Proc.devRef .tc main_arg9) = x9)
    (h2 : W (Proc.devRef .tc main_arg12) = x12)
    (h3 : W (Proc.devRef .tc main_arg13) = x13)
    (h4 : W (Proc.devRef .tc main_arg10) = x10)
    (h5 : W (Proc.devRef .tc main_arg11) = x11)
    (h6 : W (Proc.devRef .tc main_v68) = val_main_v68 x0 x1 x2 x3 x4 x5 x6 x7 x14 x15) :
    after ops6 W (Proc.devRef .tc main_v129) = val_main_v129 x0 x1 x2 x3 x4 x5 x6 x7 x8 x9 x10 x11 x12 x13 x14 x15 := by
  after_results_simp
  try simp only [Cert.Lib.TypedRefs.ofBuf_toBuf]
  try simp only [StableHlo.TRef.ofBuf, StableHlo.TRef.toBuf, cast_eq]
  rw [h0, h1, h2, h3, h4, h5, h6]
  rfl

set_option maxHeartbeats 8000000 in
/-- Stretch 7 leaves `main_v133` at its stage, when the buffers it reads hold theirs. -/
theorem at_v133 (x0 : (⟨S50000x128, .f32⟩ : BufTy).Contents (Elt Ideal))
    (x1 : (⟨S2x800000, .i32⟩ : BufTy).Contents (Elt Ideal))
    (x2 : (⟨S128x128, .f32⟩ : BufTy).Contents (Elt Ideal))
    (x3 x4 x5 x6 x7 : (⟨S128, .f32⟩ : BufTy).Contents (Elt Ideal))
    (x8 : (⟨S128x64, .f32⟩ : BufTy).Contents (Elt Ideal))
    (x9 x10 x11 x12 x13 : (⟨S64, .f32⟩ : BufTy).Contents (Elt Ideal))
    (x14 : (⟨S128x64, .f32⟩ : BufTy).Contents (Elt Ideal))
    (x15 : (⟨S64, .f32⟩ : BufTy).Contents (Elt Ideal))
    (x22 : (⟨S64x32, .f32⟩ : BufTy).Contents (Elt Ideal))
    (x23 : (⟨S32, .f32⟩ : BufTy).Contents (Elt Ideal))
    (h0 : W (Proc.devRef .tc main_v129) = val_main_v129 x0 x1 x2 x3 x4 x5 x6 x7 x8 x9 x10 x11 x12 x13 x14 x15)
    (h1 : W (Proc.devRef .tc main_arg22) = x22)
    (h2 : W (Proc.devRef .tc main_arg23) = x23) :
    after ops7 W (Proc.devRef .tc main_v133) = val_main_v133 x0 x1 x2 x3 x4 x5 x6 x7 x8 x9 x10 x11 x12 x13 x14 x15 x22 x23 := by
  after_results_simp
  try simp only [Cert.Lib.TypedRefs.ofBuf_toBuf]
  try simp only [StableHlo.TRef.ofBuf, StableHlo.TRef.toBuf, cast_eq]
  rw [h0, h1, h2]
  rfl

set_option maxHeartbeats 8000000 in
/-- Stretch 7 leaves `main_v134` at its stage, when the buffers it reads hold theirs. -/
theorem at_v134 (x0 : (⟨S50000x128, .f32⟩ : BufTy).Contents (Elt Ideal))
    (x1 : (⟨S2x800000, .i32⟩ : BufTy).Contents (Elt Ideal))
    (x2 : (⟨S128x128, .f32⟩ : BufTy).Contents (Elt Ideal))
    (x3 x4 x5 x6 x7 : (⟨S128, .f32⟩ : BufTy).Contents (Elt Ideal))
    (x8 : (⟨S128x64, .f32⟩ : BufTy).Contents (Elt Ideal))
    (x9 x10 x11 x12 x13 : (⟨S64, .f32⟩ : BufTy).Contents (Elt Ideal))
    (x14 : (⟨S128x64, .f32⟩ : BufTy).Contents (Elt Ideal))
    (x15 : (⟨S64, .f32⟩ : BufTy).Contents (Elt Ideal))
    (x16 : (⟨S64x32, .f32⟩ : BufTy).Contents (Elt Ideal))
    (h0 : W (Proc.devRef .tc main_v129) = val_main_v129 x0 x1 x2 x3 x4 x5 x6 x7 x8 x9 x10 x11 x12 x13 x14 x15)
    (h1 : W (Proc.devRef .tc main_arg16) = x16) :
    after ops7 W (Proc.devRef .tc main_v134) = val_main_v134 x0 x1 x2 x3 x4 x5 x6 x7 x8 x9 x10 x11 x12 x13 x14 x15 x16 := by
  after_results_simp
  try simp only [Cert.Lib.TypedRefs.ofBuf_toBuf]
  try simp only [StableHlo.TRef.ofBuf, StableHlo.TRef.toBuf, cast_eq]
  rw [h0, h1]
  rfl

set_option maxHeartbeats 8000000 in
/-- Stretch 8 leaves `main_v141` at its stage, when the buffers it reads hold theirs. -/
theorem at_v141 (x1 : (⟨S2x800000, .i32⟩ : BufTy).Contents (Elt Ideal))
    (h0 : W (Proc.devRef .tc main_v3) = val_main_v3 x1) :
    after ops8 W (Proc.devRef .tc main_v141) = val_main_v141 x1 := by
  after_results_simp
  try simp only [Cert.Lib.TypedRefs.ofBuf_toBuf]
  try simp only [StableHlo.TRef.ofBuf, StableHlo.TRef.toBuf, cast_eq]
  rw [h0]
  rfl

set_option maxHeartbeats 8000000 in
/-- Stretch 9 leaves `main_v174` at its stage, when the buffers it reads hold theirs. -/
theorem at_v174 (x0 : (⟨S50000x128, .f32⟩ : BufTy).Contents (Elt Ideal))
    (x1 : (⟨S2x800000, .i32⟩ : BufTy).Contents (Elt Ideal))
    (x2 : (⟨S128x128, .f32⟩ : BufTy).Contents (Elt Ideal))
    (x3 x4 x5 x6 x7 : (⟨S128, .f32⟩ : BufTy).Contents (Elt Ideal))
    (x8 : (⟨S128x64, .f32⟩ : BufTy).Contents (Elt Ideal))
    (x9 x10 x11 x12 x13 : (⟨S64, .f32⟩ : BufTy).Contents (Elt Ideal))
    (x14 : (⟨S128x64, .f32⟩ : BufTy).Contents (Elt Ideal))
    (x15 : (⟨S64, .f32⟩ : BufTy).Contents (Elt Ideal))
    (x16 : (⟨S64x32, .f32⟩ : BufTy).Contents (Elt Ideal))
    (h0 : W (Proc.devRef .tc main_v3) = val_main_v3 x1)
    (h1 : W (Proc.devRef .tc main_v134) = val_main_v134 x0 x1 x2 x3 x4 x5 x6 x7 x8 x9 x10 x11 x12 x13 x14 x15 x16)
    (h2 : W (Proc.devRef .tc main_v1) = val_main_v1 x1)
    (h3 : W (Proc.devRef .tc main_v141) = val_main_v141 x1) :
    after ops9 W (Proc.devRef .tc main_v174) = val_main_v174 x0 x1 x2 x3 x4 x5 x6 x7 x8 x9 x10 x11 x12 x13 x14 x15 x16 := by
  after_results_simp
  try simp only [Cert.Lib.TypedRefs.ofBuf_toBuf]
  try simp only [StableHlo.TRef.ofBuf, StableHlo.TRef.toBuf, cast_eq]
  rw [h0, h1, h2, h3]
  rfl

set_option maxHeartbeats 8000000 in
/-- Stretch 10 leaves `main_v194` at its stage, when the buffers it reads hold theirs. -/
theorem at_v194 (x0 : (⟨S50000x128, .f32⟩ : BufTy).Contents (Elt Ideal))
    (x1 : (⟨S2x800000, .i32⟩ : BufTy).Contents (Elt Ideal))
    (x2 : (⟨S128x128, .f32⟩ : BufTy).Contents (Elt Ideal))
    (x3 x4 x5 x6 x7 : (⟨S128, .f32⟩ : BufTy).Contents (Elt Ideal))
    (x8 : (⟨S128x64, .f32⟩ : BufTy).Contents (Elt Ideal))
    (x9 x10 x11 x12 x13 : (⟨S64, .f32⟩ : BufTy).Contents (Elt Ideal))
    (x14 : (⟨S128x64, .f32⟩ : BufTy).Contents (Elt Ideal))
    (x15 : (⟨S64, .f32⟩ : BufTy).Contents (Elt Ideal))
    (x16 : (⟨S64x32, .f32⟩ : BufTy).Contents (Elt Ideal))
    (x17 x18 x19 x20 x21 : (⟨S32, .f32⟩ : BufTy).Contents (Elt Ideal))
    (x22 : (⟨S64x32, .f32⟩ : BufTy).Contents (Elt Ideal))
    (x23 : (⟨S32, .f32⟩ : BufTy).Contents (Elt Ideal))
    (h0 : W (Proc.devRef .tc main_v174) = val_main_v174 x0 x1 x2 x3 x4 x5 x6 x7 x8 x9 x10 x11 x12 x13 x14 x15 x16)
    (h1 : W (Proc.devRef .tc main_arg17) = x17)
    (h2 : W (Proc.devRef .tc main_arg20) = x20)
    (h3 : W (Proc.devRef .tc main_arg21) = x21)
    (h4 : W (Proc.devRef .tc main_arg18) = x18)
    (h5 : W (Proc.devRef .tc main_arg19) = x19)
    (h6 : W (Proc.devRef .tc main_v133) = val_main_v133 x0 x1 x2 x3 x4 x5 x6 x7 x8 x9 x10 x11 x12 x13 x14 x15 x22 x23) :
    after ops10 W (Proc.devRef .tc main_v194) = val_main_v194 x0 x1 x2 x3 x4 x5 x6 x7 x8 x9 x10 x11 x12 x13 x14 x15 x16 x17 x18 x19 x20 x21 x22 x23 := by
  after_results_simp
  try simp only [Cert.Lib.TypedRefs.ofBuf_toBuf]
  try simp only [StableHlo.TRef.ofBuf, StableHlo.TRef.toBuf, cast_eq]
  rw [h0, h1, h2, h3, h4, h5, h6]
  rfl

set_option maxHeartbeats 8000000 in
/-- Stretch 11 leaves `main_v204` at its stage, when the buffers it reads hold theirs. -/
theorem at_v204 (x0 : (⟨S50000x128, .f32⟩ : BufTy).Contents (Elt Ideal))
    (x1 : (⟨S2x800000, .i32⟩ : BufTy).Contents (Elt Ideal))
    (x2 : (⟨S128x128, .f32⟩ : BufTy).Contents (Elt Ideal))
    (x3 x4 x5 x6 x7 : (⟨S128, .f32⟩ : BufTy).Contents (Elt Ideal))
    (x8 : (⟨S128x64, .f32⟩ : BufTy).Contents (Elt Ideal))
    (x9 x10 x11 x12 x13 : (⟨S64, .f32⟩ : BufTy).Contents (Elt Ideal))
    (x14 : (⟨S128x64, .f32⟩ : BufTy).Contents (Elt Ideal))
    (x15 : (⟨S64, .f32⟩ : BufTy).Contents (Elt Ideal))
    (x16 : (⟨S64x32, .f32⟩ : BufTy).Contents (Elt Ideal))
    (x17 x18 x19 x20 x21 : (⟨S32, .f32⟩ : BufTy).Contents (Elt Ideal))
    (x22 : (⟨S64x32, .f32⟩ : BufTy).Contents (Elt Ideal))
    (x23 : (⟨S32, .f32⟩ : BufTy).Contents (Elt Ideal))
    (x24 : (⟨S32x16, .f32⟩ : BufTy).Contents (Elt Ideal))
    (x25 : (⟨S16, .f32⟩ : BufTy).Contents (Elt Ideal))
    (x26 : (⟨S16x2, .f32⟩ : BufTy).Contents (Elt Ideal))
    (x27 : (⟨S2, .f32⟩ : BufTy).Contents (Elt Ideal))
    (h0 : W (Proc.devRef .tc main_v194) = val_main_v194 x0 x1 x2 x3 x4 x5 x6 x7 x8 x9 x10 x11 x12 x13 x14 x15 x16 x17 x18 x19 x20 x21 x22 x23)
    (h1 : W (Proc.devRef .tc main_arg24) = x24)
    (h2 : W (Proc.devRef .tc main_arg25) = x25)
    (h3 : W (Proc.devRef .tc main_arg26) = x26)
    (h4 : W (Proc.devRef .tc main_arg27) = x27) :
    after ops11 W (Proc.devRef .tc main_v204) = val_main_v204 x0 x1 x2 x3 x4 x5 x6 x7 x8 x9 x10 x11 x12 x13 x14 x15 x16 x17 x18 x19 x20 x21 x22 x23 x24 x25 x26 x27 := by
  after_results_simp
  try simp only [Cert.Lib.TypedRefs.ofBuf_toBuf]
  try simp only [StableHlo.TRef.ofBuf, StableHlo.TRef.toBuf, cast_eq]
  rw [h0, h1, h2, h3, h4]
  rfl

end Stretch

/-! ## The boundaries of the run -/

variable (m : (ℓ : Loc nD τ sig) → Buf (Elt Ideal) ℓ) (c : Dev nD)

/-- Core `c`'s buffers at launch, and after each stretch. -/
abbrev B0 : Valuation τ sig (Elt Ideal) := launchContents m c
abbrev B1 : Valuation τ sig (Elt Ideal) := after ops0 (B0 m c)
abbrev B2 : Valuation τ sig (Elt Ideal) := after ops1 (B1 m c)
abbrev B3 : Valuation τ sig (Elt Ideal) := after ops2 (B2 m c)
abbrev B4 : Valuation τ sig (Elt Ideal) := after ops3 (B3 m c)
abbrev B5 : Valuation τ sig (Elt Ideal) := after ops4 (B4 m c)
abbrev B6 : Valuation τ sig (Elt Ideal) := after ops5 (B5 m c)
abbrev B7 : Valuation τ sig (Elt Ideal) := after ops6 (B6 m c)
abbrev B8 : Valuation τ sig (Elt Ideal) := after ops7 (B7 m c)
abbrev B9 : Valuation τ sig (Elt Ideal) := after ops8 (B8 m c)
abbrev B10 : Valuation τ sig (Elt Ideal) := after ops9 (B9 m c)
abbrev B11 : Valuation τ sig (Elt Ideal) := after ops10 (B10 m c)
abbrev B12 : Valuation τ sig (Elt Ideal) := after ops11 (B11 m c)

/-- No stretch writes `r`. -/
def Unwritten (r : Ref sig .tc) : Prop :=
  r ∉ (ops0_W : List (Ref sig .tc)) ∧ r ∉ (ops1_W : List (Ref sig .tc)) ∧ r ∉ (ops2_W : List (Ref sig .tc)) ∧ r ∉ (ops3_W : List (Ref sig .tc)) ∧ r ∉ (ops4_W : List (Ref sig .tc)) ∧ r ∉ (ops5_W : List (Ref sig .tc)) ∧ r ∉ (ops6_W : List (Ref sig .tc)) ∧ r ∉ (ops7_W : List (Ref sig .tc)) ∧ r ∉ (ops8_W : List (Ref sig .tc)) ∧ r ∉ (ops9_W : List (Ref sig .tc)) ∧ r ∉ (ops10_W : List (Ref sig .tc)) ∧ r ∉ (ops11_W : List (Ref sig .tc))

instance (r : Ref sig .tc) : Decidable (Unwritten r) := by unfold Unwritten; infer_instance

/-- Such a reference holds its launch contents at every boundary. -/
theorem arg_at (r : Ref sig .tc) (h : Unwritten r) :
    B1 m c (Proc.devRef .tc r) = m ((c.tc : Thread nD τ).loc r)
    ∧ B2 m c (Proc.devRef .tc r) = m ((c.tc : Thread nD τ).loc r)
    ∧ B3 m c (Proc.devRef .tc r) = m ((c.tc : Thread nD τ).loc r)
    ∧ B4 m c (Proc.devRef .tc r) = m ((c.tc : Thread nD τ).loc r)
    ∧ B5 m c (Proc.devRef .tc r) = m ((c.tc : Thread nD τ).loc r)
    ∧ B6 m c (Proc.devRef .tc r) = m ((c.tc : Thread nD τ).loc r)
    ∧ B7 m c (Proc.devRef .tc r) = m ((c.tc : Thread nD τ).loc r)
    ∧ B8 m c (Proc.devRef .tc r) = m ((c.tc : Thread nD τ).loc r)
    ∧ B9 m c (Proc.devRef .tc r) = m ((c.tc : Thread nD τ).loc r)
    ∧ B10 m c (Proc.devRef .tc r) = m ((c.tc : Thread nD τ).loc r)
    ∧ B11 m c (Proc.devRef .tc r) = m ((c.tc : Thread nD τ).loc r)
    ∧ B12 m c (Proc.devRef .tc r) = m ((c.tc : Thread nD τ).loc r) := by
  obtain ⟨h0, h1, h2, h3, h4, h5, h6, h7, h8, h9, h10, h11⟩ := h
  have e1 : B1 m c (Proc.devRef .tc r) = m ((c.tc : Thread nD τ).loc r) := keep0 (B0 m c) r h0
  have e2 : B2 m c (Proc.devRef .tc r) = m ((c.tc : Thread nD τ).loc r) := (keep1 (B1 m c) r h1).trans e1
  have e3 : B3 m c (Proc.devRef .tc r) = m ((c.tc : Thread nD τ).loc r) := (keep2 (B2 m c) r h2).trans e2
  have e4 : B4 m c (Proc.devRef .tc r) = m ((c.tc : Thread nD τ).loc r) := (keep3 (B3 m c) r h3).trans e3
  have e5 : B5 m c (Proc.devRef .tc r) = m ((c.tc : Thread nD τ).loc r) := (keep4 (B4 m c) r h4).trans e4
  have e6 : B6 m c (Proc.devRef .tc r) = m ((c.tc : Thread nD τ).loc r) := (keep5 (B5 m c) r h5).trans e5
  have e7 : B7 m c (Proc.devRef .tc r) = m ((c.tc : Thread nD τ).loc r) := (keep6 (B6 m c) r h6).trans e6
  have e8 : B8 m c (Proc.devRef .tc r) = m ((c.tc : Thread nD τ).loc r) := (keep7 (B7 m c) r h7).trans e7
  have e9 : B9 m c (Proc.devRef .tc r) = m ((c.tc : Thread nD τ).loc r) := (keep8 (B8 m c) r h8).trans e8
  have e10 : B10 m c (Proc.devRef .tc r) = m ((c.tc : Thread nD τ).loc r) := (keep9 (B9 m c) r h9).trans e9
  have e11 : B11 m c (Proc.devRef .tc r) = m ((c.tc : Thread nD τ).loc r) := (keep10 (B10 m c) r h10).trans e10
  have e12 : B12 m c (Proc.devRef .tc r) = m ((c.tc : Thread nD τ).loc r) := (keep11 (B11 m c) r h11).trans e11
  exact ⟨e1, e2, e3, e4, e5, e6, e7, e8, e9, e10, e11, e12⟩

/-- After stretch 0, `main_v1` holds its stage of the arguments. -/
theorem have_v1 : B1 m c (Proc.devRef .tc main_v1) = val_main_v1 (m ((c.tc : Thread nD τ).loc main_arg1)) :=
  at_v1 (B0 m c) (m ((c.tc : Thread nD τ).loc main_arg1))
    (rfl)

/-- After stretch 0, `main_v3` holds its stage of the arguments. -/
theorem have_v3 : B1 m c (Proc.devRef .tc main_v3) = val_main_v3 (m ((c.tc : Thread nD τ).loc main_arg1)) :=
  at_v3 (B0 m c) (m ((c.tc : Thread nD τ).loc main_arg1))
    (rfl)

/-- After stretch 0, `main_v4` holds its stage of the arguments. -/
theorem have_v4 : B1 m c (Proc.devRef .tc main_v4) = val_main_v4 (m ((c.tc : Thread nD τ).loc main_arg0)) (m ((c.tc : Thread nD τ).loc main_arg2)) :=
  at_v4 (B0 m c) (m ((c.tc : Thread nD τ).loc main_arg0)) (m ((c.tc : Thread nD τ).loc main_arg2))
    (rfl)
    (rfl)

/-- After stretch 0, `main_v11` holds its stage of the arguments. -/
theorem have_v11 : B1 m c (Proc.devRef .tc main_v11) = val_main_v11 (m ((c.tc : Thread nD τ).loc main_arg1)) :=
  at_v11 (B0 m c) (m ((c.tc : Thread nD τ).loc main_arg1))
    (rfl)

/-- After stretch 1, `main_v44` holds its stage of the arguments. -/
theorem have_v44 : B2 m c (Proc.devRef .tc main_v44) = val_main_v44 (m ((c.tc : Thread nD τ).loc main_arg0)) (m ((c.tc : Thread nD τ).loc main_arg1)) (m ((c.tc : Thread nD τ).loc main_arg2)) :=
  at_v44 (B1 m c) (m ((c.tc : Thread nD τ).loc main_arg0)) (m ((c.tc : Thread nD τ).loc main_arg1)) (m ((c.tc : Thread nD τ).loc main_arg2))
    (have_v3 m c)
    (have_v4 m c)
    (have_v1 m c)
    (have_v11 m c)

/-- After stretch 2, `main_v64` holds its stage of the arguments. -/
theorem have_v64 : B3 m c (Proc.devRef .tc main_v64) = val_main_v64 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) :=
  at_v64 (B2 m c) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
    (have_v44 m c)
    ((arg_at m c main_arg3 (by decide)).2.1)
    ((arg_at m c main_arg6 (by decide)).2.1)
    ((arg_at m c main_arg7 (by decide)).2.1)
    ((arg_at m c main_arg4 (by decide)).2.1)
    ((arg_at m c main_arg5 (by decide)).2.1)
    ((arg_at m c main_arg0 (by decide)).2.1)

/-- After stretch 3, `main_v68` holds its stage of the arguments. -/
theorem have_v68 : B4 m c (Proc.devRef .tc main_v68) = val_main_v68 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg14)) (m ((c.tc : Thread nD τ).loc main_arg15)) :=
  at_v68 (B3 m c) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg14)) (m ((c.tc : Thread nD τ).loc main_arg15))
    (have_v64 m c)
    ((arg_at m c main_arg14 (by decide)).2.2.1)
    ((arg_at m c main_arg15 (by decide)).2.2.1)

/-- After stretch 3, `main_v69` holds its stage of the arguments. -/
theorem have_v69 : B4 m c (Proc.devRef .tc main_v69) = val_main_v69 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) :=
  at_v69 (B3 m c) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))
    (have_v64 m c)
    ((arg_at m c main_arg8 (by decide)).2.2.1)

/-- After stretch 4, `main_v76` holds its stage of the arguments. -/
theorem have_v76 : B5 m c (Proc.devRef .tc main_v76) = val_main_v76 (m ((c.tc : Thread nD τ).loc main_arg1)) :=
  at_v76 (B4 m c) (m ((c.tc : Thread nD τ).loc main_arg1))
    (((keep3 (B3 m c) main_v3 (by decide)).trans ((keep2 (B2 m c) main_v3 (by decide)).trans ((keep1 (B1 m c) main_v3 (by decide))))).trans (have_v3 m c))

/-- After stretch 5, `main_v109` holds its stage of the arguments. -/
theorem have_v109 : B6 m c (Proc.devRef .tc main_v109) = val_main_v109 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) :=
  at_v109 (B5 m c) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))
    (((keep4 (B4 m c) main_v3 (by decide)).trans ((keep3 (B3 m c) main_v3 (by decide)).trans ((keep2 (B2 m c) main_v3 (by decide)).trans ((keep1 (B1 m c) main_v3 (by decide)))))).trans (have_v3 m c))
    (((keep4 (B4 m c) main_v69 (by decide))).trans (have_v69 m c))
    (((keep4 (B4 m c) main_v1 (by decide)).trans ((keep3 (B3 m c) main_v1 (by decide)).trans ((keep2 (B2 m c) main_v1 (by decide)).trans ((keep1 (B1 m c) main_v1 (by decide)))))).trans (have_v1 m c))
    (have_v76 m c)

/-- After stretch 6, `main_v129` holds its stage of the arguments. -/
theorem have_v129 : B7 m c (Proc.devRef .tc main_v129) = val_main_v129 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) :=
  at_v129 (B6 m c) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15))
    (have_v109 m c)
    ((arg_at m c main_arg9 (by decide)).2.2.2.2.2.1)
    ((arg_at m c main_arg12 (by decide)).2.2.2.2.2.1)
    ((arg_at m c main_arg13 (by decide)).2.2.2.2.2.1)
    ((arg_at m c main_arg10 (by decide)).2.2.2.2.2.1)
    ((arg_at m c main_arg11 (by decide)).2.2.2.2.2.1)
    (((keep5 (B5 m c) main_v68 (by decide)).trans ((keep4 (B4 m c) main_v68 (by decide)))).trans (have_v68 m c))

/-- After stretch 7, `main_v133` holds its stage of the arguments. -/
theorem have_v133 : B8 m c (Proc.devRef .tc main_v133) = val_main_v133 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg22)) (m ((c.tc : Thread nD τ).loc main_arg23)) :=
  at_v133 (B7 m c) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg22)) (m ((c.tc : Thread nD τ).loc main_arg23))
    (have_v129 m c)
    ((arg_at m c main_arg22 (by decide)).2.2.2.2.2.2.1)
    ((arg_at m c main_arg23 (by decide)).2.2.2.2.2.2.1)

/-- After stretch 7, `main_v134` holds its stage of the arguments. -/
theorem have_v134 : B8 m c (Proc.devRef .tc main_v134) = val_main_v134 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) :=
  at_v134 (B7 m c) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16))
    (have_v129 m c)
    ((arg_at m c main_arg16 (by decide)).2.2.2.2.2.2.1)

/-- After stretch 8, `main_v141` holds its stage of the arguments. -/
theorem have_v141 : B9 m c (Proc.devRef .tc main_v141) = val_main_v141 (m ((c.tc : Thread nD τ).loc main_arg1)) :=
  at_v141 (B8 m c) (m ((c.tc : Thread nD τ).loc main_arg1))
    (((keep7 (B7 m c) main_v3 (by decide)).trans ((keep6 (B6 m c) main_v3 (by decide)).trans ((keep5 (B5 m c) main_v3 (by decide)).trans ((keep4 (B4 m c) main_v3 (by decide)).trans ((keep3 (B3 m c) main_v3 (by decide)).trans ((keep2 (B2 m c) main_v3 (by decide)).trans ((keep1 (B1 m c) main_v3 (by decide))))))))).trans (have_v3 m c))

/-- After stretch 9, `main_v174` holds its stage of the arguments. -/
theorem have_v174 : B10 m c (Proc.devRef .tc main_v174) = val_main_v174 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) :=
  at_v174 (B9 m c) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16))
    (((keep8 (B8 m c) main_v3 (by decide)).trans ((keep7 (B7 m c) main_v3 (by decide)).trans ((keep6 (B6 m c) main_v3 (by decide)).trans ((keep5 (B5 m c) main_v3 (by decide)).trans ((keep4 (B4 m c) main_v3 (by decide)).trans ((keep3 (B3 m c) main_v3 (by decide)).trans ((keep2 (B2 m c) main_v3 (by decide)).trans ((keep1 (B1 m c) main_v3 (by decide)))))))))).trans (have_v3 m c))
    (((keep8 (B8 m c) main_v134 (by decide))).trans (have_v134 m c))
    (((keep8 (B8 m c) main_v1 (by decide)).trans ((keep7 (B7 m c) main_v1 (by decide)).trans ((keep6 (B6 m c) main_v1 (by decide)).trans ((keep5 (B5 m c) main_v1 (by decide)).trans ((keep4 (B4 m c) main_v1 (by decide)).trans ((keep3 (B3 m c) main_v1 (by decide)).trans ((keep2 (B2 m c) main_v1 (by decide)).trans ((keep1 (B1 m c) main_v1 (by decide)))))))))).trans (have_v1 m c))
    (have_v141 m c)

/-- After stretch 10, `main_v194` holds its stage of the arguments. -/
theorem have_v194 : B11 m c (Proc.devRef .tc main_v194) = val_main_v194 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) :=
  at_v194 (B10 m c) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23))
    (have_v174 m c)
    ((arg_at m c main_arg17 (by decide)).2.2.2.2.2.2.2.2.2.1)
    ((arg_at m c main_arg20 (by decide)).2.2.2.2.2.2.2.2.2.1)
    ((arg_at m c main_arg21 (by decide)).2.2.2.2.2.2.2.2.2.1)
    ((arg_at m c main_arg18 (by decide)).2.2.2.2.2.2.2.2.2.1)
    ((arg_at m c main_arg19 (by decide)).2.2.2.2.2.2.2.2.2.1)
    (((keep9 (B9 m c) main_v133 (by decide)).trans ((keep8 (B8 m c) main_v133 (by decide)))).trans (have_v133 m c))

/-- After stretch 11, `main_v204` holds its stage of the arguments. -/
theorem have_v204 : B12 m c (Proc.devRef .tc main_v204) = val_main_v204 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27)) :=
  at_v204 (B11 m c) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27))
    (have_v194 m c)
    ((arg_at m c main_arg24 (by decide)).2.2.2.2.2.2.2.2.2.2.1)
    ((arg_at m c main_arg25 (by decide)).2.2.2.2.2.2.2.2.2.2.1)
    ((arg_at m c main_arg26 (by decide)).2.2.2.2.2.2.2.2.2.2.1)
    ((arg_at m c main_arg27 (by decide)).2.2.2.2.2.2.2.2.2.2.1)

/-- The whole line is the twelve stretches in turn. -/
theorem after_ops : after (ops : List (HloOp τ sig (Elt Ideal))) (launchContents m c) = B12 m c := by
  simp only [ops, after_append]

/-- After a run the result buffer holds the result stage of the arguments. -/
theorem result : after (ops : List (HloOp τ sig (Elt Ideal))) (launchContents m c) (Proc.devRef .tc main_v204) = val_main_v204 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27)) := by
  rw [after_ops]; exact have_v204 m c

/-- After a run an argument buffer holds what it was launched with. -/
theorem kept (r : Ref sig .tc) (h : Unwritten r) :
    after (ops : List (HloOp τ sig (Elt Ideal))) (launchContents m c) (Proc.devRef .tc r) = m ((c.tc : Thread nD τ).loc r) := by
  rw [after_ops]; exact (arg_at m c r h).2.2.2.2.2.2.2.2.2.2.2

end Cert.ReferenceIdeal.Stretches

end
-- ==== Proof.lean ====
/-
  The kernel program and its reference compute the same function on the extended reals.

  The network is three graph-convolution layers and a classifier head. In each layer the node features are multiplied
  by a weight matrix, the products are aggregated over the edges with the symmetric degree normalisation (gather at
  the source, scale, scatter-add at the target, plus the node's own scaled row), and the aggregate goes through bias,
  normalisation by given statistics, scale, shift, clamp at zero and a residual (the input itself, or the input times
  a skip matrix plus a bias). The kernel program does the two dense steps of each layer in kernel regions over ten
  blocks of 5000 nodes and everything else — the aggregation, the head, the logarithm of the softmax — by the very
  host operations the reference uses; the reference does everything by host operations.

  On the extended reals a change of float format is the identity and a matrix product of a block of rows is the same
  rows of the whole product, so each region's output array is a whole-array function of its inputs: the product
  (Projection0–2) or the layer function (Layer0–2, LayerSpec). Those are the reference's own stages read at an index
  (RefLayers), the host stretches between the regions are the reference's operations on the same operands (Degrees,
  Aggregate0–2, Head), and so, boundary by boundary, every buffer of the kernel program is the reference's stage of the
  arguments (Chain). Both programs group every sum and product alike; no finiteness of the inputs is used. The
  reference's own run is read stretch by stretch (RefRead). The three frames are the generated ones, the reference's
  its run with the result dropped; the idealization rewrote nothing.
-/
import proofs.«182117_j80625126080954_1_alg».proof.Defs
import proofs.«182117_j80625126080954_1_alg».proof.Proof.Gen.Kernel
import proofs.«182117_j80625126080954_1_alg».proof.Proof.Gen.Kernel.Skeleton
import proofs.«182117_j80625126080954_1_alg».proof.Proof.Gen.Kernel.Launch
import proofs.«182117_j80625126080954_1_alg».proof.Proof.Gen.Kernel.Points
import proofs.«182117_j80625126080954_1_alg».proof.Proof.Gen.Kernel.Frame
import proofs.«182117_j80625126080954_1_alg».proof.Proof.Gen.KernelIdeal
import proofs.«182117_j80625126080954_1_alg».proof.Proof.Gen.KernelIdeal.Skeleton
import proofs.«182117_j80625126080954_1_alg».proof.Proof.Gen.KernelIdeal.Launch
import proofs.«182117_j80625126080954_1_alg».proof.Proof.Gen.KernelIdeal.Points
import proofs.«182117_j80625126080954_1_alg».proof.Proof.Gen.KernelIdeal.Frame
import proofs.«182117_j80625126080954_1_alg».proof.Proof.Gen.ReferenceIdeal
import proofs.«182117_j80625126080954_1_alg».proof.Proof.Gen.Pre_finite_inputs
import proofs.«182117_j80625126080954_1_alg».proof.Proof.ResultRun
import proofs.«182117_j80625126080954_1_alg».proof.Proof.Chain
import proofs.«182117_j80625126080954_1_alg».proof.Proof.RefOpsP
import proofs.«182117_j80625126080954_1_alg».proof.Proof.RefStagesP
import proofs.«182117_j80625126080954_1_alg».proof.Proof.RefRead
import Idealize.ShloMosaic.Adequacy
import Idealize.ShloMosaic.Init

set_option maxRecDepth 16384

noncomputable section

namespace Cert.Proof

open Idealize.ShloMosaic Idealize.SL.Sem

theorem frame_kernel : Cert.frame_Kernel := fun m ρ _ => Cert.Kernel.Gen.frame m ρ

theorem frame_ideal : Cert.frame_KernelIdeal := fun m ρ _ => Cert.KernelIdeal.Gen.frame m ρ

/-- The reference runs, and no operation of it writes an argument. -/
theorem frame_reference : Cert.frame_ReferenceIdeal := fun m ρ _ =>
  (θ_run Cert.ReferenceIdeal.defs _ _).mono (fun _ h c =>
    ⟨(h c Cert.ReferenceIdeal.main_arg0).trans (Cert.ReferenceIdeal.Stretches.kept m c Cert.ReferenceIdeal.main_arg0 (by decide)),
      (h c Cert.ReferenceIdeal.main_arg1).trans (Cert.ReferenceIdeal.Stretches.kept m c Cert.ReferenceIdeal.main_arg1 (by decide)),
      (h c Cert.ReferenceIdeal.main_arg2).trans (Cert.ReferenceIdeal.Stretches.kept m c Cert.ReferenceIdeal.main_arg2 (by decide)),
      (h c Cert.ReferenceIdeal.main_arg3).trans (Cert.ReferenceIdeal.Stretches.kept m c Cert.ReferenceIdeal.main_arg3 (by decide)),
      (h c Cert.ReferenceIdeal.main_arg4).trans (Cert.ReferenceIdeal.Stretches.kept m c Cert.ReferenceIdeal.main_arg4 (by decide)),
      (h c Cert.ReferenceIdeal.main_arg5).trans (Cert.ReferenceIdeal.Stretches.kept m c Cert.ReferenceIdeal.main_arg5 (by decide)),
      (h c Cert.ReferenceIdeal.main_arg6).trans (Cert.ReferenceIdeal.Stretches.kept m c Cert.ReferenceIdeal.main_arg6 (by decide)),
      (h c Cert.ReferenceIdeal.main_arg7).trans (Cert.ReferenceIdeal.Stretches.kept m c Cert.ReferenceIdeal.main_arg7 (by decide)),
      (h c Cert.ReferenceIdeal.main_arg8).trans (Cert.ReferenceIdeal.Stretches.kept m c Cert.ReferenceIdeal.main_arg8 (by decide)),
      (h c Cert.ReferenceIdeal.main_arg9).trans (Cert.ReferenceIdeal.Stretches.kept m c Cert.ReferenceIdeal.main_arg9 (by decide)),
      (h c Cert.ReferenceIdeal.main_arg10).trans (Cert.ReferenceIdeal.Stretches.kept m c Cert.ReferenceIdeal.main_arg10 (by decide)),
      (h c Cert.ReferenceIdeal.main_arg11).trans (Cert.ReferenceIdeal.Stretches.kept m c Cert.ReferenceIdeal.main_arg11 (by decide)),
      (h c Cert.ReferenceIdeal.main_arg12).trans (Cert.ReferenceIdeal.Stretches.kept m c Cert.ReferenceIdeal.main_arg12 (by decide)),
      (h c Cert.ReferenceIdeal.main_arg13).trans (Cert.ReferenceIdeal.Stretches.kept m c Cert.ReferenceIdeal.main_arg13 (by decide)),
      (h c Cert.ReferenceIdeal.main_arg14).trans (Cert.ReferenceIdeal.Stretches.kept m c Cert.ReferenceIdeal.main_arg14 (by decide)),
      (h c Cert.ReferenceIdeal.main_arg15).trans (Cert.ReferenceIdeal.Stretches.kept m c Cert.ReferenceIdeal.main_arg15 (by decide)),
      (h c Cert.ReferenceIdeal.main_arg16).trans (Cert.ReferenceIdeal.Stretches.kept m c Cert.ReferenceIdeal.main_arg16 (by decide)),
      (h c Cert.ReferenceIdeal.main_arg17).trans (Cert.ReferenceIdeal.Stretches.kept m c Cert.ReferenceIdeal.main_arg17 (by decide)),
      (h c Cert.ReferenceIdeal.main_arg18).trans (Cert.ReferenceIdeal.Stretches.kept m c Cert.ReferenceIdeal.main_arg18 (by decide)),
      (h c Cert.ReferenceIdeal.main_arg19).trans (Cert.ReferenceIdeal.Stretches.kept m c Cert.ReferenceIdeal.main_arg19 (by decide)),
      (h c Cert.ReferenceIdeal.main_arg20).trans (Cert.ReferenceIdeal.Stretches.kept m c Cert.ReferenceIdeal.main_arg20 (by decide)),
      (h c Cert.ReferenceIdeal.main_arg21).trans (Cert.ReferenceIdeal.Stretches.kept m c Cert.ReferenceIdeal.main_arg21 (by decide)),
      (h c Cert.ReferenceIdeal.main_arg22).trans (Cert.ReferenceIdeal.Stretches.kept m c Cert.ReferenceIdeal.main_arg22 (by decide)),
      (h c Cert.ReferenceIdeal.main_arg23).trans (Cert.ReferenceIdeal.Stretches.kept m c Cert.ReferenceIdeal.main_arg23 (by decide)),
      (h c Cert.ReferenceIdeal.main_arg24).trans (Cert.ReferenceIdeal.Stretches.kept m c Cert.ReferenceIdeal.main_arg24 (by decide)),
      (h c Cert.ReferenceIdeal.main_arg25).trans (Cert.ReferenceIdeal.Stretches.kept m c Cert.ReferenceIdeal.main_arg25 (by decide)),
      (h c Cert.ReferenceIdeal.main_arg26).trans (Cert.ReferenceIdeal.Stretches.kept m c Cert.ReferenceIdeal.main_arg26 (by decide)),
      (h c Cert.ReferenceIdeal.main_arg27).trans (Cert.ReferenceIdeal.Stretches.kept m c Cert.ReferenceIdeal.main_arg27 (by decide))⟩)
    (Cert.ReferenceIdeal.ValueP.run (F := Ideal) m ρ)

/-- From memories agreeing on the arguments both programs end with the reference's result stage of the arguments. -/
theorem algebraic : Cert.algebraic_KernelIdeal_ReferenceIdeal := by
  intro m ρ m' ρ' _ hagree
  refine ⟨fun c => Cert.ReferenceIdeal.ReadP.val_main_v204 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)), ?_, ?_⟩
  · exact (θ_run Cert.KernelIdeal.defs _ _).mono
      (fun _ h c => ⟨((h c).1).trans (Cert.KernelIdeal.Chain.result m ρ c), (h c).2⟩)
      (Cert.KernelIdeal.Result.run (F := Ideal) m ρ)
  · refine (θ_run Cert.ReferenceIdeal.defs _ _).mono (fun _ h c =>
      ⟨(h c Cert.ReferenceIdeal.main_v204).trans ((Cert.ReferenceIdeal.Stretches.result m' c).trans ?_),
      (h c Cert.ReferenceIdeal.main_arg0).trans (Cert.ReferenceIdeal.Stretches.kept m' c Cert.ReferenceIdeal.main_arg0 (by decide)),
      (h c Cert.ReferenceIdeal.main_arg1).trans (Cert.ReferenceIdeal.Stretches.kept m' c Cert.ReferenceIdeal.main_arg1 (by decide)),
      (h c Cert.ReferenceIdeal.main_arg2).trans (Cert.ReferenceIdeal.Stretches.kept m' c Cert.ReferenceIdeal.main_arg2 (by decide)),
      (h c Cert.ReferenceIdeal.main_arg3).trans (Cert.ReferenceIdeal.Stretches.kept m' c Cert.ReferenceIdeal.main_arg3 (by decide)),
      (h c Cert.ReferenceIdeal.main_arg4).trans (Cert.ReferenceIdeal.Stretches.kept m' c Cert.ReferenceIdeal.main_arg4 (by decide)),
      (h c Cert.ReferenceIdeal.main_arg5).trans (Cert.ReferenceIdeal.Stretches.kept m' c Cert.ReferenceIdeal.main_arg5 (by decide)),
      (h c Cert.ReferenceIdeal.main_arg6).trans (Cert.ReferenceIdeal.Stretches.kept m' c Cert.ReferenceIdeal.main_arg6 (by decide)),
      (h c Cert.ReferenceIdeal.main_arg7).trans (Cert.ReferenceIdeal.Stretches.kept m' c Cert.ReferenceIdeal.main_arg7 (by decide)),
      (h c Cert.ReferenceIdeal.main_arg8).trans (Cert.ReferenceIdeal.Stretches.kept m' c Cert.ReferenceIdeal.main_arg8 (by decide)),
      (h c Cert.ReferenceIdeal.main_arg9).trans (Cert.ReferenceIdeal.Stretches.kept m' c Cert.ReferenceIdeal.main_arg9 (by decide)),
      (h c Cert.ReferenceIdeal.main_arg10).trans (Cert.ReferenceIdeal.Stretches.kept m' c Cert.ReferenceIdeal.main_arg10 (by decide)),
      (h c Cert.ReferenceIdeal.main_arg11).trans (Cert.ReferenceIdeal.Stretches.kept m' c Cert.ReferenceIdeal.main_arg11 (by decide)),
      (h c Cert.ReferenceIdeal.main_arg12).trans (Cert.ReferenceIdeal.Stretches.kept m' c Cert.ReferenceIdeal.main_arg12 (by decide)),
      (h c Cert.ReferenceIdeal.main_arg13).trans (Cert.ReferenceIdeal.Stretches.kept m' c Cert.ReferenceIdeal.main_arg13 (by decide)),
      (h c Cert.ReferenceIdeal.main_arg14).trans (Cert.ReferenceIdeal.Stretches.kept m' c Cert.ReferenceIdeal.main_arg14 (by decide)),
      (h c Cert.ReferenceIdeal.main_arg15).trans (Cert.ReferenceIdeal.Stretches.kept m' c Cert.ReferenceIdeal.main_arg15 (by decide)),
      (h c Cert.ReferenceIdeal.main_arg16).trans (Cert.ReferenceIdeal.Stretches.kept m' c Cert.ReferenceIdeal.main_arg16 (by decide)),
      (h c Cert.ReferenceIdeal.main_arg17).trans (Cert.ReferenceIdeal.Stretches.kept m' c Cert.ReferenceIdeal.main_arg17 (by decide)),
      (h c Cert.ReferenceIdeal.main_arg18).trans (Cert.ReferenceIdeal.Stretches.kept m' c Cert.ReferenceIdeal.main_arg18 (by decide)),
      (h c Cert.ReferenceIdeal.main_arg19).trans (Cert.ReferenceIdeal.Stretches.kept m' c Cert.ReferenceIdeal.main_arg19 (by decide)),
      (h c Cert.ReferenceIdeal.main_arg20).trans (Cert.ReferenceIdeal.Stretches.kept m' c Cert.ReferenceIdeal.main_arg20 (by decide)),
      (h c Cert.ReferenceIdeal.main_arg21).trans (Cert.ReferenceIdeal.Stretches.kept m' c Cert.ReferenceIdeal.main_arg21 (by decide)),
      (h c Cert.ReferenceIdeal.main_arg22).trans (Cert.ReferenceIdeal.Stretches.kept m' c Cert.ReferenceIdeal.main_arg22 (by decide)),
      (h c Cert.ReferenceIdeal.main_arg23).trans (Cert.ReferenceIdeal.Stretches.kept m' c Cert.ReferenceIdeal.main_arg23 (by decide)),
      (h c Cert.ReferenceIdeal.main_arg24).trans (Cert.ReferenceIdeal.Stretches.kept m' c Cert.ReferenceIdeal.main_arg24 (by decide)),
      (h c Cert.ReferenceIdeal.main_arg25).trans (Cert.ReferenceIdeal.Stretches.kept m' c Cert.ReferenceIdeal.main_arg25 (by decide)),
      (h c Cert.ReferenceIdeal.main_arg26).trans (Cert.ReferenceIdeal.Stretches.kept m' c Cert.ReferenceIdeal.main_arg26 (by decide)),
      (h c Cert.ReferenceIdeal.main_arg27).trans (Cert.ReferenceIdeal.Stretches.kept m' c Cert.ReferenceIdeal.main_arg27 (by decide))⟩)
      (Cert.ReferenceIdeal.ValueP.run (F := Ideal) m' ρ')
    rw [(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2.1, (hagree c).2.2.2.2.2.2.2.2.2.2.2.2.2.1, (hagree c).2.2.2.2.2.2.2.2.2.2.2.2.2.2.1, (hagree c).2.2.2.2.2.2.2.2.2.2.2.2.2.2.2.1, (hagree c).2.2.2.2.2.2.2.2.2.2.2.2.2.2.2.2.1, (hagree c).2.2.2.2.2.2.2.2.2.2.2.2.2.2.2.2.2.1, (hagree c).2.2.2.2.2.2.2.2.2.2.2.2.2.2.2.2.2.2.1, (hagree c).2.2.2.2.2.2.2.2.2.2.2.2.2.2.2.2.2.2.2.1, (hagree c).2.2.2.2.2.2.2.2.2.2.2.2.2.2.2.2.2.2.2.2.1, (hagree c).2.2.2.2.2.2.2.2.2.2.2.2.2.2.2.2.2.2.2.2.2.1, (hagree c).2.2.2.2.2.2.2.2.2.2.2.2.2.2.2.2.2.2.2.2.2.2.1, (hagree c).2.2.2.2.2.2.2.2.2.2.2.2.2.2.2.2.2.2.2.2.2.2.2.1, (hagree c).2.2.2.2.2.2.2.2.2.2.2.2.2.2.2.2.2.2.2.2.2.2.2.2.1, (hagree c).2.2.2.2.2.2.2.2.2.2.2.2.2.2.2.2.2.2.2.2.2.2.2.2.2.1, (hagree c).2.2.2.2.2.2.2.2.2.2.2.2.2.2.2.2.2.2.2.2.2.2.2.2.2.2.1, (hagree c).2.2.2.2.2.2.2.2.2.2.2.2.2.2.2.2.2.2.2.2.2.2.2.2.2.2.2]

theorem claim : Cert.Claim := ⟨Cert.Kernel.Gen.facts, Cert.KernelIdeal.Gen.facts, Cert.ReferenceIdeal.Gen.facts, Cert.Pre_finite_inputs.Gen.facts,
  frame_kernel, frame_ideal, frame_reference, trivial, algebraic⟩

end Cert.Proof

end
